-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x200 : Shape := ⟨2, ![8192, 200]⟩
abbrev S8192x8192 : Shape := ⟨2, ![8192, 8192]⟩
abbrev S200x128 : Shape := ⟨2, ![200, 128]⟩
abbrev S128 : Shape := ⟨1, ![128]⟩
abbrev S_ : Shape := ⟨0, ![]⟩

class Facts : Prop where
  bcast_S_S8192x200 : S_.BroadcastsInDim S8192x200 (![] : Fin 0 → Fin S8192x200.rank)
  reducesTo_S8192x200_S_d0_1 : S8192x200.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x200 .f32) (main_arg1 : FVec F S8192x8192 .f32) (main_arg2 : FVec F S200x128 .f32) (main_arg3 : FVec F S128 .f32) : IVec S_ 1 :=
  let main_v0 : FVec F S8192x200 .f32 := Host.absf main_arg0
  let main_cst : FVec F S_ .f32 := constant S_ .f32 0x7F800000#32
  let main_v1 : FVec F S8192x200 .f32 := broadcastInDim S8192x200 ![] bcast_S_S8192x200 main_cst
  let main_v2 : IVec S8192x200 1 := cmpf .olt main_v0 main_v1
  let main_c : IVec S_ 1 := constantI S_ 1 1#1
  let main_v3 : IVec S_ 1 := (fun x v => Host.reduce IntOp.andi x v reducesTo_S8192x200_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S200x128 .f32 := Host.absf main_arg2
  let main_cst_2 : FVec F S_ .f32 := constant S_ .f32 0x7F800000#32
  let main_v10 : FVec F S200x128 .f32 := broadcastInDim S200x128 ![] bcast_S_S200x128 main_cst_2
  let main_v11 : IVec S200x128 1 := cmpf .olt main_v9 main_v10
  let main_c_3 : IVec S_ 1 := constantI S_ 1 1#1
  let main_v12 : IVec S_ 1 := (fun x v => Host.reduce IntOp.andi x v reducesTo_S200x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x200 : Shape := ⟨2, ![8192, 200]⟩
abbrev S8192x8192 : Shape := ⟨2, ![8192, 8192]⟩
abbrev S200x128 : Shape := ⟨2, ![200, 128]⟩
abbrev S128 : Shape := ⟨1, ![128]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S1x128 : Shape := ⟨2, ![1, 128]⟩
abbrev S8192x128 : Shape := ⟨2, ![8192, 128]⟩
abbrev S2048x200 : Shape := ⟨2, ![2048, 200]⟩
abbrev S2048x1 : Shape := ⟨2, ![2048, 1]⟩
abbrev S2048x128 : Shape := ⟨2, ![2048, 128]⟩
abbrev S2048x2048 : Shape := ⟨2, ![2048, 2048]⟩

abbrev nBuf : Space → Nat
  | .hbm => 9
  | .vmem => 23
  | .smem => 0
  | _ => 0

abbrev bufTy : (tb : Table) → Fin (tcTables nBuf tb) → BufTy
  | .hbm, ⟨0, _⟩ => ⟨S8192x200, .f32⟩
  | .hbm, ⟨1, _⟩ => ⟨S8192x8192, .f32⟩
  | .hbm, ⟨2, _⟩ => ⟨S200x128, .f32⟩
  | .hbm, ⟨3, _⟩ => ⟨S128, .f32⟩
  | .hbm, ⟨4, _⟩ => ⟨S8192x8192, .f32⟩
  | .hbm, ⟨5, _⟩ => ⟨S8192x1, .f32⟩
  | .hbm, ⟨6, _⟩ => ⟨S1x128, .f32⟩
  | .hbm, ⟨7, _⟩ => ⟨S8192x128, .f32⟩
  | .hbm, ⟨8, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S2048x200, .f32⟩
  | .local _ .vmem, ⟨8, _⟩ => ⟨S2048x200, .f32⟩
  | .local _ .vmem, ⟨9, _⟩ => ⟨S200x128, .f32⟩
  | .local _ .vmem, ⟨10, _⟩ => ⟨S1x128, .f32⟩
  | .local _ .vmem, ⟨11, _⟩ => ⟨S2048x1, .f32⟩
  | .local _ .vmem, ⟨12, _⟩ => ⟨S2048x1, .f32⟩
  | .local _ .vmem, ⟨13, _⟩ => ⟨S2048x128, .f32⟩
  | .local _ .vmem, ⟨14, _⟩ => ⟨S2048x128, .f32⟩
  | .local _ .vmem, ⟨15, _⟩ => ⟨S2048x2048, .f32⟩
  | .local _ .vmem, ⟨16, _⟩ => ⟨S2048x2048, .f32⟩
  | .local _ .vmem, ⟨17, _⟩ => ⟨S8192x128, .f32⟩
  | .local _ .vmem, ⟨18, _⟩ => ⟨S2048x1, .f32⟩
  | .local _ .vmem, ⟨19, _⟩ => ⟨S2048x1, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | _, _ => ⟨S8192x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  shapeCasts_S128_S1x128 : S128.ShapeCasts S1x128
  inb_S2048x200_S2048x200_0_0 : ∀ a, (![0, 0] : Fin 2 → Nat) a + S2048x200.size a ≤ S2048x200.size a
  h_S2048x200 : 0 < S2048x200.numel
  inb_S200x128_S200x128_0_0 : ∀ a, (![0, 0] : Fin 2 → Nat) a + S200x128.size a ≤ S200x128.size a
  h_S200x128 : 0 < S200x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S2048x200_S200x128_S2048x128_1_0_0_1_n_n_wf : DotDims.WF S2048x200 S200x128 S2048x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x200.size a ≤ S8192x200.size a
  hwx1_0 : ∀ i : grid1.Coords, EltTy.bits .f32 = 32 ∨ (Rect.block (s := S8192x200) S2048x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200x128.size a ≤ S200x128.size a
  hwx1_1 : ∀ i : grid1.Coords, EltTy.bits .f32 = 32 ∨ (Rect.block (s := S200x128) S200x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S8192x128.size a
  hwx1_4 : ∀ i : grid1.Coords, EltTy.bits .f32 = 32 ∨ (Rect.block (s := S8192x128) S2048x128.size (cc1_transform_4 i) (hinb1_4 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x128.size a ≤ S8192x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .f32 = 32 ∨ (Rect.block (s := S8192x8192) S2048x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S8192x128.size a
  hwx2_3 : ∀ i : grid2.Coords, EltTy.bits .f32 = 32 ∨ (Rect.block (s := S8192x128) S2048x128.size (cc2_transform_3 i) (hinb2_3 i)).WholeWords (EltTy.packing .f32)

variable [Facts₀]

def dot_S2048x200_S200x128_S2048x128_1_0_0_1_n_n : DotDims S2048x200 S200x128 S2048x128 where
  lhsContracting := [1]
  rhsContracting := [0]
  lhsNonContracting := [0]
  rhsNonContracting := [1]
  lhsBatch := []
  rhsBatch := []
  wf := dot_S2048x200_S200x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x200 : Shape := ⟨2, ![8192, 200]⟩
abbrev S8192x8192 : Shape := ⟨2, ![8192, 8192]⟩
abbrev S200x128 : Shape := ⟨2, ![200, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x200, .f32⟩
  | .hbm, ⟨1, _⟩ => ⟨S8192x8192, .f32⟩
  | .hbm, ⟨2, _⟩ => ⟨S200x128, .f32⟩
  | .hbm, ⟨3, _⟩ => ⟨S128, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .i1⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x128, .f32⟩
  | _, _ => ⟨S8192x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x200_S200x128_S8192x128_1_0_0_1_n_n_wf : DotDims.WF S8192x200 S200x128 S8192x128 [1] [0] [0] [1] [] []
  dot_S8192x8192_S8192x128_S8192x128_1_0_0_1_n_n_wf : DotDims.WF S8192x8192 S8192x128 S8192x128 [1] [0] [0] [1] [] []

variable [Facts₀]

def dot_S8192x200_S200x128_S8192x128_1_0_0_1_n_n : DotDims S8192x200 S200x128 S8192x128 where
  lhsContracting := [1]
  rhsContracting := [0]
  lhsNonContracting := [0]
  rhsNonContracting := [1]
  lhsBatch := []
  rhsBatch := []
  wf := dot_S8192x200_S200x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K_Reg0Runs.lean ====
/-
  The row-sum kernel (the first of the three tiled computations) at one grid point: what its two conditionals
  test, at which points its windows are idle, and the shape of the invariant it runs under.

  The grid is 8 row blocks by 4 column blocks, walked row-major, so point `t` has column block `t mod 4`.
  The accumulator is zeroed exactly at the points with `t mod 4 = 0`, and the reciprocal square roots are
  stored exactly at those with `t mod 4 = 3`; elsewhere the window of the reciprocal square roots is left alone.
-/
import proofs.«141990_j36206574305751_2_alg».proof.Proof.Gen.Kernel.Launch
import proofs.«141990_j36206574305751_2_alg».proof.Proof.Gen.Kernel.Skeleton
import proofs.«141990_j36206574305751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals -/

/-- The first conditional's test: the column block is the first. -/
abbrev isFirst (i : grid0.Coords) : Prop :=
  (Scalar.cmpi .ne (Scalar.extui (Scalar.cmpi .eq (BitVec.ofNat 32 (i 1).val) 0#32)) 0#32) = 1#1

/-- It holds exactly at the points whose column block is 0. -/
theorem isFirst_iff : ∀ t : Fin cfg0.N, isFirst (grid0.coords t) ↔ t.val % 4 = 0 :=
  (by decide +kernel : ∀ t : Fin grid0.N, isFirst (grid0.coords t) ↔ t.val % 4 = 0)

/-- The second conditional's test: the column block is the last. -/
abbrev isLast (i : grid0.Coords) : Prop := k0_cond2 i = 1#1

/-- It holds exactly at the points whose column block is 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The adjacency block is read at every point. -/
theorem live_in : ∀ t : Fin cfg0.N, cfg0.idle 0 (grid0.coords t) = false := by decide +kernel
/-- The clamped-sigmoid block is stored at every point. -/
theorem live_sig : ∀ t : Fin cfg0.N, cfg0.idle 1 (grid0.coords t) = false := by decide +kernel
/-- The reciprocal-square-root window is idle away from the last column block, -/
theorem idle_dinv : ∀ t : Fin cfg0.N, ¬isLast (grid0.coords t) → cfg0.idle 2 (grid0.coords t) = true := by decide +kernel
/-- and is not written back there, -/
theorem noflush_dinv : ∀ t : Fin cfg0.N, ¬isLast (grid0.coords t) → (cfg0.win 2).flush t = false := by decide +kernel
/-- while at the last column block it is stored. -/
theorem live_dinv : ∀ t : Fin cfg0.N, isLast (grid0.coords t) → cfg0.idle 2 (grid0.coords t) = false := by decide +kernel

/-! ## The memrefs the body is called with -/

/-- A buffer of the clamped-sigmoid window and one of the reciprocal-square-root window, through which their
    contents are stated. -/
abbrev viewSig : View sig .tc .vmem S1024x2048 .f32 := (Memref.whole cc0_stg1_0 : Memref sig .tc .vmem S1024x2048 .f32).view
abbrev viewDinv : View sig .tc .vmem S1024x1 .f32 := (Memref.whole cc0_stg2_0 : Memref sig .tc .vmem S1024x1 .f32).view

abbrev mIn (t : Fin cfg0.N) : Memref sig .tc .vmem S1024x2048 .f32 := win0_0.stage (cfg0.slots t 0)
abbrev hIn (t : Fin cfg0.N) : (mIn t).IsWhole := hstage0_0 ((cfg0.slots t 0).cast nbuf0_0)
abbrev mSig (t : Fin cfg0.N) : Memref sig .tc .vmem S1024x2048 .f32 := win0_1.stage (cfg0.slots t 1)
abbrev hSig (t : Fin cfg0.N) : (mSig t).IsWhole := hstage0_1 ((cfg0.slots t 1).cast nbuf0_1)
abbrev mDinv (t : Fin cfg0.N) : Memref sig .tc .vmem S1024x1 .f32 := win0_2.stage (cfg0.slots t 2)
abbrev hDinv (t : Fin cfg0.N) : (mDinv t).IsWhole := hstage0_2 ((cfg0.slots t 2).cast nbuf0_2)

/-- The accumulator of the row sums: a whole buffer of the kernel's own. -/
abbrev accM : Memref sig .tc .vmem S1024x1 .f32 := Memref.whole cc0_scratch0
abbrev viewAcc : View sig .tc .vmem S1024x1 .f32 := accM.view

/-! ## The invariant's shape -/

/-- The core's other scoped buffers (the staging buffers and the accumulator of the two later computations), each
    at some contents: carried along unopened. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The invariant a region of this kind starts from: the accumulator at some contents, the other scoped buffers,
    the generator register at some state. -/
theorem PhiA_eq (c : Dev nD) :
    (Pipeline.ΦA spec0 c : sProp 𝕄)
      = iprop(iprop((∃ d, owns (c : Thread nD τ) accM fullShare d) ∗ others c) ∗ (∃ r, prngReg c r)) := by
  unfold Pipeline.ΦA others; rw [scopedRest0_eq]; simp only [accM, owns_whole]; try rfl

end Cert.Kernel.Reg0

end
-- ==== Proof.K_Reg0RunFirst.lean ====
/-
  The row-sum kernel's body at a point of the FIRST column block: the accumulator is zeroed, the block's clamped
  sigmoid is stored, its row sums are added to the accumulator; the reciprocal-square-root window is left alone.
  The body's stores into each buffer, last first, are found by running it.
-/
import proofs.«141990_j36206574305751_2_alg».proof.Proof.K_Reg0Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores of the body at a first column block — into the clamped-sigmoid buffer and into the accumulator — with the
    proof that the body runs from the adjacency block `x0`, the reciprocal-square-root buffer at any `xi` (handed back
    as found) and the other two buffers at anything, to those stores written. -/
noncomputable def runFirst (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i)
    (x0 : Vec F S1024x2048 .f32) :
    Σ' (L1 : List (View.Piece (Elt F) S1024x2048 .f32)), { LS : List (View.Piece (Elt F) S1024x1 .f32) //
      ∀ (xi : Vec F S1024x1 .f32) (E : Set ℕ) (K : PUnit → sProp 𝕄),
        iprop(owns (c : Thread nD τ) arg2 fullShare x0 ∗ (∃ d, owns (c : Thread nD τ) arg3 fullShare d) ∗ owns (c : Thread nD τ) arg4 fullShare xi ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__sigclamp_kernel i arg2 harg2 arg3 harg3 arg4 harg4 arg5 harg5) K } := by
  refine ⟨?_, ?_, fun xi E K => ?run⟩
  case run =>
    simp only [cc0__sigclamp_kernel_eq_skeleton]; unfold cc0__sigclamp_kernel_skel
    unfold owns
    iintro ⟨⟨%f0, %hf0, H0⟩, ⟨%d1, %f1, -, H1⟩, ⟨%f2, %hf2, H2⟩, ⟨%ds, %fs, -, HS⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.Kernel.Reg0

end
-- ==== Proof.K_Reg0RunMid.lean ====
/-
  The row-sum kernel's body at a point of a MIDDLE column block: the block's clamped sigmoid is stored and its row
  sums are added to the accumulator, which holds what the point before left; the reciprocal-square-root window is
  left alone.
-/
import proofs.«141990_j36206574305751_2_alg».proof.Proof.K_Reg0RunFirst

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores of the body at a middle column block, with the proof that the body runs from the adjacency block `x0`
    and the accumulator at `xs` to those stores written. -/
noncomputable def runMid (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i)
    (x0 : Vec F S1024x2048 .f32) (xs : Vec F S1024x1 .f32) :
    Σ' (L1 : List (View.Piece (Elt F) S1024x2048 .f32)), { LS : List (View.Piece (Elt F) S1024x1 .f32) //
      ∀ (xi : Vec F S1024x1 .f32) (E : Set ℕ) (K : PUnit → sProp 𝕄),
        iprop(owns (c : Thread nD τ) arg2 fullShare x0 ∗ (∃ d, owns (c : Thread nD τ) arg3 fullShare d) ∗ owns (c : Thread nD τ) arg4 fullShare xi ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__sigclamp_kernel i arg2 harg2 arg3 harg3 arg4 harg4 arg5 harg5) K } := by
  refine ⟨?_, ?_, fun xi E K => ?run⟩
  case run =>
    simp only [cc0__sigclamp_kernel_eq_skeleton]; unfold cc0__sigclamp_kernel_skel
    unfold owns
    iintro ⟨⟨%f0, %hf0, H0⟩, ⟨%d1, %f1, -, H1⟩, ⟨%f2, %hf2, H2⟩, ⟨%fs, %hfs, HS⟩, Hk⟩
    obtain rfl := harg2.eq_unread hf0; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.Kernel.Reg0

end
-- ==== Proof.K_Reg0RunLast.lean ====
/-
  The row-sum kernel's body at a point of the LAST column block: the block's clamped sigmoid is stored, its row sums
  are added to the accumulator, and the reciprocal square roots of the accumulated sums are stored.
-/
import proofs.«141990_j36206574305751_2_alg».proof.Proof.K_Reg0RunMid

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores of the body at a last column block — into the clamped-sigmoid buffer, the reciprocal-square-root buffer and
    the accumulator — with the proof that the body runs from the adjacency block `x0` and the accumulator at `xs` to
    those stores written. -/
noncomputable def runLast (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i)
    (x0 : Vec F S1024x2048 .f32) (xs : Vec F S1024x1 .f32) :
    Σ' (L1 : List (View.Piece (Elt F) S1024x2048 .f32)) (L2 : List (View.Piece (Elt F) S1024x1 .f32)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__sigclamp_kernel i arg2 harg2 arg3 harg3 arg4 harg4 arg5 harg5) K } := by
  refine ⟨?_, ?_, ?_, fun E K => ?run⟩
  case run =>
    simp only [cc0__sigclamp_kernel_eq_skeleton]; unfold cc0__sigclamp_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.Kernel.Reg0

end
-- ==== Proof.K_Reg0.lean ====
/-
  The row-sum kernel over its whole grid: what each staging buffer and the accumulator hold after every point, the
  invariant that carries the accumulator from point to point, and the obligation of the body at every point.

  After a point of the first column block the accumulator holds that block's row sums added to zero; after any
  later point it holds the point's row sums added to what the point before left. The clamped-sigmoid buffer holds
  the point's block after every point; the reciprocal-square-root buffer is stored at the last column block only.
-/
import proofs.«141990_j36206574305751_2_alg».proof.Proof.K_Reg0RunLast

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point, for any proof data whose array
    is the entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's run at a point, by the point's column block -/

/-- At a first column block. -/
def rF (c : Dev nD) (t : Fin cfg0.N) (h0 : t.val % 4 = 0) (h1 : ¬t.val % 4 = 3) :=
  runFirst (F := F) c (grid0.coords t) (mIn t) (hIn t) (mSig t) (hSig t) (mDinv t) (hDinv t) accM (Memref.isWhole_whole _) ((isFirst_iff t).mpr h0) (fun h => h1 ((isLast_iff t).mp h)) (iblk V c 0 t)
/-- At a middle column block, the accumulator entering at `xs`. -/
def rM (c : Dev nD) (t : Fin cfg0.N) (h0 : ¬t.val % 4 = 0) (h1 : ¬t.val % 4 = 3) (xs : Vec F S1024x1 .f32) :=
  runMid (F := F) c (grid0.coords t) (mIn t) (hIn t) (mSig t) (hSig t) (mDinv t) (hDinv t) accM (Memref.isWhole_whole _) (fun h => h0 ((isFirst_iff t).mp h)) (fun h => h1 ((isLast_iff t).mp h)) (iblk V c 0 t) xs
/-- At a last column block, the accumulator entering at `xs`. -/
def rL (c : Dev nD) (t : Fin cfg0.N) (h0 : ¬t.val % 4 = 0) (h1 : t.val % 4 = 3) (xs : Vec F S1024x1 .f32) :=
  runLast (F := F) c (grid0.coords t) (mIn t) (hIn t) (mSig t) (hSig t) (mDinv t) (hDinv t) accM (Memref.isWhole_whole _) (fun h => h0 ((isFirst_iff t).mp h)) ((isLast_iff t).mpr h1) (iblk V c 0 t) xs

/-- A list of stores read back over unspecified contents, through the three views. -/
abbrev backSig (L : List (View.Piece (Elt F) S1024x2048 .f32)) : Vec F S1024x2048 .f32 :=
  viewSig.read (Elt F) (viewSig.writes (Elt F) viewSig.junk L)
abbrev backDinv (L : List (View.Piece (Elt F) S1024x1 .f32)) : Vec F S1024x1 .f32 :=
  viewDinv.read (Elt F) (viewDinv.writes (Elt F) viewDinv.junk L)
abbrev backAcc (L : List (View.Piece (Elt F) S1024x1 .f32)) : Vec F S1024x1 .f32 :=
  viewAcc.read (Elt F) (viewAcc.writes (Elt F) viewAcc.junk L)

/-! ## The stores of each case cover their buffers -/

theorem coverSigF (c : Dev nD) (t : Fin cfg0.N) (h0 : t.val % 4 = 0) (h1 : ¬t.val % 4 = 3) (y : S1024x2048.Idx) :
    ∃ pc ∈ (rF V c t h0 h1).1, y ∈ pc.1.set :=
  View.cover_of_tiledL (rF V c t h0 h1).1 S1024x2048.size (by unfold rF; sl_kernel_rfl) y
theorem coverAccF (c : Dev nD) (t : Fin cfg0.N) (h0 : t.val % 4 = 0) (h1 : ¬t.val % 4 = 3) (y : S1024x1.Idx) :
    ∃ pc ∈ (rF V c t h0 h1).2.1, y ∈ pc.1.set :=
  View.cover_of_tiledL (rF V c t h0 h1).2.1 S1024x1.size (by unfold rF; sl_kernel_rfl) y
theorem coverSigM (c : Dev nD) (t : Fin cfg0.N) (h0 : ¬t.val % 4 = 0) (h1 : ¬t.val % 4 = 3) (xs : Vec F S1024x1 .f32) (y : S1024x2048.Idx) :
    ∃ pc ∈ (rM V c t h0 h1 xs).1, y ∈ pc.1.set :=
  View.cover_of_tiledL (rM V c t h0 h1 xs).1 S1024x2048.size (by unfold rM; sl_kernel_rfl) y
theorem coverAccM (c : Dev nD) (t : Fin cfg0.N) (h0 : ¬t.val % 4 = 0) (h1 : ¬t.val % 4 = 3) (xs : Vec F S1024x1 .f32) (y : S1024x1.Idx) :
    ∃ pc ∈ (rM V c t h0 h1 xs).2.1, y ∈ pc.1.set :=
  View.cover_of_tiledL (rM V c t h0 h1 xs).2.1 S1024x1.size (by unfold rM; sl_kernel_rfl) y
theorem coverSigL (c : Dev nD) (t : Fin cfg0.N) (h0 : ¬t.val % 4 = 0) (h1 : t.val % 4 = 3) (xs : Vec F S1024x1 .f32) (y : S1024x2048.Idx) :
    ∃ pc ∈ (rL V c t h0 h1 xs).1, y ∈ pc.1.set :=
  View.cover_of_tiledL (rL V c t h0 h1 xs).1 S1024x2048.size (by unfold rL; sl_kernel_rfl) y
theorem coverDinvL (c : Dev nD) (t : Fin cfg0.N) (h0 : ¬t.val % 4 = 0) (h1 : t.val % 4 = 3) (xs : Vec F S1024x1 .f32) (y : S1024x1.Idx) :
    ∃ pc ∈ (rL V c t h0 h1 xs).2.1, y ∈ pc.1.set :=
  View.cover_of_tiledL (rL V c t h0 h1 xs).2.1 S1024x1.size (by unfold rL; sl_kernel_rfl) y
theorem coverAccL (c : Dev nD) (t : Fin cfg0.N) (h0 : ¬t.val % 4 = 0) (h1 : t.val % 4 = 3) (xs : Vec F S1024x1 .f32) (y : S1024x1.Idx) :
    ∃ pc ∈ (rL V c t h0 h1 xs).2.2.1, y ∈ pc.1.set :=
  View.cover_of_tiledL (rL V c t h0 h1 xs).2.2.1 S1024x1.size (by unfold rL; sl_kernel_rfl) y

/-! ## What the buffers hold after each point -/

/-- After the body at point `n`: the clamped-sigmoid buffer, the reciprocal-square-root buffer (unspecified where the
    window is idle) and the accumulator. -/
def outsAt (c : Dev nD) : (n : ℕ) → n < cfg0.N → Vec F S1024x2048 .f32 × Vec F S1024x1 .f32 × Vec F S1024x1 .f32
  | 0, hn => (backSig (rF V c ⟨0, hn⟩ (Nat.zero_mod _) (by show ¬(0 : ℕ) % 4 = 3; decide)).1, backDinv [], backAcc (rF V c ⟨0, hn⟩ (Nat.zero_mod _) (by show ¬(0 : ℕ) % 4 = 3; decide)).2.1)
  | n + 1, hn =>
    if h0 : (n + 1) % 4 = 0 then
      if h1 : (n + 1) % 4 = 3 then False.elim (by omega)
      else (backSig (rF V c ⟨n + 1, hn⟩ h0 h1).1, backDinv [], backAcc (rF V c ⟨n + 1, hn⟩ h0 h1).2.1)
    else
      if h1 : (n + 1) % 4 = 3 then
        (backSig (rL V c ⟨n + 1, hn⟩ h0 h1 (outsAt c n (Nat.lt_of_succ_lt hn)).2.2).1,
         backDinv (rL V c ⟨n + 1, hn⟩ h0 h1 (outsAt c n (Nat.lt_of_succ_lt hn)).2.2).2.1,
         backAcc (rL V c ⟨n + 1, hn⟩ h0 h1 (outsAt c n (Nat.lt_of_succ_lt hn)).2.2).2.2.1)
      else
        (backSig (rM V c ⟨n + 1, hn⟩ h0 h1 (outsAt c n (Nat.lt_of_succ_lt hn)).2.2).1, backDinv [],
         backAcc (rM V c ⟨n + 1, hn⟩ h0 h1 (outsAt c n (Nat.lt_of_succ_lt hn)).2.2).2.1)

/-- The accumulator as the point before `t` left it. -/
abbrev accBefore (c : Dev nD) (t : Fin cfg0.N) : Vec F S1024x1 .f32 :=
  (outsAt V c (t.val - 1) (Nat.lt_of_le_of_lt (Nat.sub_le _ _) t.isLt)).2.2

theorem outsAt_first (c : Dev nD) (t : Fin cfg0.N) (h0 : t.val % 4 = 0) (h1 : ¬t.val % 4 = 3) :
    outsAt V c t.val t.isLt = (backSig (rF V c t h0 h1).1, backDinv [], backAcc (rF V c t h0 h1).2.1) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt V c t.val t.isLt = (backSig (rM V c t h0 h1 (accBefore V c t)).1, backDinv [], backAcc (rM V c t h0 h1 (accBefore V c t)).2.1) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt V c t.val t.isLt = (backSig (rL V c t h0 h1 (accBefore V c t)).1, backDinv (rL V c t h0 h1 (accBefore V c t)).2.1, backAcc (rL V c t h0 h1 (accBefore V c t)).2.2.1) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the accumulator holds anything; afterwards what the point before left. The other
    scoped buffers and the generator register ride along. -/
def PhiS (c : Dev nD) : (n : ℕ) → n ≤ cfg0.N → sProp 𝕄
  | 0, _ => Pipeline.ΦA spec0 c
  | n + 1, hn => iprop(iprop(owns (c : Thread nD τ) accM fullShare ((outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2.2) ∗ others c) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2.2) ∗ others c) ∗ (∃ r, prngReg c r)) := by
  cases n with
  | zero => exact absurd rfl hz
  | succ n => rfl

/-! ## The proof data -/

/-- The arrays as the region finds them; after the body at point `t` the adjacency buffer at its block and the two
    output buffers at `outsAt`; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = iblk V c 0 t := by dsimp only [dat]
theorem after_sig (c : Dev nD) (t : Fin cfg0.N) : (dat V c).after 1 t = (outsAt V c t.val t.isLt).1 := by dsimp only [dat]
theorem after_dinv (c : Dev nD) (t : Fin cfg0.N) : (dat V c).after 2 t = (outsAt V c t.val t.isLt).2.1 := by dsimp only [dat]

theorem before_in (c : Dev nD) (t : Fin cfg0.N) (d) : (dat V c).before 0 t d = iblk V c 0 t :=
  before_in_of V (dat V c) (A_eq V c 0) (after_in V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mSig t) fullShare ((dat V c).before 1 t d))
    ∗ (∃ d, owns (c : Thread nD τ) (mDinv t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_in (c : Dev nD) (t : Fin cfg0.N) :
    (dat V c).leavesExact 0 t = owns (c : Thread nD τ) (mIn t) fullShare (iblk V c 0 t) := by
  unfold Dat.leavesExact; rw [live_in t, after_in]
theorem leaves_sig (c : Dev nD) (t : Fin cfg0.N) :
    (dat V c).leavesExact 1 t = owns (c : Thread nD τ) (mSig t) fullShare ((outsAt V c t.val t.isLt).1) := by
  unfold Dat.leavesExact; rw [live_sig t, after_sig]

set_option maxHeartbeats 4800000 in
/-- The body at any point: the column block decides the case; the invariant hands the accumulator in at what the point
    before left (at anything at a first column block) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  rw [leaves_in, leaves_sig]
  have hN : t.val < 32 := lt_of_lt_of_eq t.isLt (show cfg0.N = 32 from N_0)
  by_cases h0 : t.val % 4 = 0
  · by_cases h1 : t.val % 4 = 3
    · exfalso; omega
    · rw [Dat.leavesExact_idle (dat V c) 2 t (idle_dinv t (fun h => h1 ((isLast_iff t).mp h))) (noflush_dinv t (fun h => h1 ((isLast_iff t).mp h)))]
      rw [outsAt_first V c t h0 h1]
      (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩⟩
        iapply ((rF V c t h0 h1).2.2 _ Set.univ _)
        isplitl [H0]; · iexact H0
        isplitl [H1]; · iexists _; iexact H1
        isplitl [H2]; · iexact H2
        isplitl [HS]; · iexact HS
        iintro ⟨H0, ⟨%e1, H1⟩, H2, ⟨%es, HS⟩⟩
        isplitl [HS Hoth Hg]
        · isplitl [HS Hoth]
          · isplitl [HS]
            · unfold owns; iexists _; isplitr
              swap; · iexact HS
              ipureintro; exact View.read_writes_of_cover _ _ _ _ _ (coverAccF V c t h0 h1)
            iexact Hoth
          iexact Hg
        isplitl [Ho]; · iexact Ho
        isplitl [H0]; · iexact H0
        isplitl [H1]
        · unfold owns; iexists _; isplitr
          swap; · iexact H1
          ipureintro; exact View.read_writes_of_cover _ _ _ _ _ (coverSigF V c t h0 h1)
        iexists _; iexact H2
      · rw [Phi_castSucc V c t, PhiS_pos V c _ _ hz]
        iintro ⟨⟨⟨HS, Hoth⟩, Hg⟩, Ho, ⟨%d0, H0⟩, ⟨%d1, H1⟩, ⟨%d2, H2⟩⟩
        iapply ((rF V c t h0 h1).2.2 _ Set.univ _)
        isplitl [H0]; · iexact H0
        isplitl [H1]; · iexists _; iexact H1
        isplitl [H2]; · iexact H2
        isplitl [HS]; · iexists _; iexact HS
        iintro ⟨H0, ⟨%e1, H1⟩, H2, ⟨%es, HS⟩⟩
        isplitl [HS Hoth Hg]
        · isplitl [HS Hoth]
          · isplitl [HS]
            · unfold owns; iexists _; isplitr
              swap; · iexact HS
              ipureintro; exact View.read_writes_of_cover _ _ _ _ _ (coverAccF V c t h0 h1)
            iexact Hoth
          iexact Hg
        isplitl [Ho]; · iexact Ho
        isplitl [H0]; · iexact H0
        isplitl [H1]
        · unfold owns; iexists _; isplitr
          swap; · iexact H1
          ipureintro; exact View.read_writes_of_cover _ _ _ _ _ (coverSigF V c t h0 h1)
        iexists _; iexact H2
  · have hz : t.val ≠ 0 := fun h => h0 (by rw [h])
    by_cases h1 : t.val % 4 = 3
    · rw [show (dat V c).leavesExact 2 t = owns (c : Thread nD τ) (mDinv t) fullShare ((dat V c).after 2 t) from by
        unfold Dat.leavesExact; rw [live_dinv t ((isLast_iff t).mpr h1)], after_dinv]
      rw [outsAt_last V c t h0 h1]
      (try dsimp only)
      rw [Phi_castSucc V c t, PhiS_pos V c _ _ hz]
      iintro ⟨⟨⟨HS, Hoth⟩, Hg⟩, Ho, ⟨%d0, H0⟩, ⟨%d1, H1⟩, ⟨%d2, H2⟩⟩
      iapply ((rL V c t h0 h1 _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccL V c t h0 h1 _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverSigL V c t h0 h1 _)
      unfold owns; iexists _; isplitr
      swap; · iexact H2
      ipureintro; exact View.read_writes_of_cover _ _ _ _ _ (coverDinvL V c t h0 h1 _)
    · rw [Dat.leavesExact_idle (dat V c) 2 t (idle_dinv t (fun h => h1 ((isLast_iff t).mp h))) (noflush_dinv t (fun h => h1 ((isLast_iff t).mp h)))]
      rw [outsAt_mid V c t h0 h1]
      (try dsimp only)
      rw [Phi_castSucc V c t, PhiS_pos V c _ _ hz]
      iintro ⟨⟨⟨HS, Hoth⟩, Hg⟩, Ho, ⟨%d0, H0⟩, ⟨%d1, H1⟩, ⟨%d2, H2⟩⟩
      iapply ((rM V c t h0 h1 _).2.2 _ Set.univ _)
      isplitl [H0]; · iexact H0
      isplitl [H1]; · iexists _; iexact H1
      isplitl [H2]; · iexact H2
      isplitl [HS]; · iexact HS
      iintro ⟨H0, ⟨%e1, H1⟩, H2, ⟨%es, HS⟩⟩
      isplitl [HS Hoth Hg]
      · isplitl [HS Hoth]
        · isplitl [HS]
          · unfold owns; iexists _; isplitr
            swap; · iexact HS
            ipureintro; exact View.read_writes_of_cover _ _ _ _ _ (coverAccM V c t h0 h1 _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverSigM V c t h0 h1 _)
      iexists _; iexact H2

/-- The body obligation at every point. -/
theorem body_obligation (c : Dev nD) : BodyObligation (dat (F := F) V c) (defs₀ (F := F)) Variants.none () Set.univ := fun t => by
  rw [bigSep_W0, bigSep_W0]
  exact sound_body V c t

/-- The region starts from the invariant of its kind. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulator's contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat V c).Φ (Fin.last cfg0.N) ⊢ (Pipeline.ΦA spec0 c : sProp 𝕄) :=
  Phi_out V c _ (by rw [Fin.val_last]; have : cfg0.N = 32 := N_0; omega)

end Cert.Kernel.Reg0

end
-- ==== Proof.K_Reg1.lean ====
/-
  The second tiled call of the kernel (the linear map of the features, scaled row by row), at arbitrary entry
  contents V of the core's buffers: what each window's block is at a grid point, what the body leaves in the
  result window's buffer there (the one store's payload over the four blocks read), the body's triple, and the
  pipeline's proof data with its body obligation. Generic in the float interpretation.
-/
import proofs.«141990_j36206574305751_2_alg».proof.Proof.Gen.Kernel.Launch
import proofs.«141990_j36206574305751_2_alg».proof.Proof.Gen.Kernel.Skeleton
import proofs.«141990_j36206574305751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (a window whose block index does not move still holds the block fetched earlier), for any proof data whose
    array is V's and whose body leaves the block in place. One statement per input window. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn0 : Rect S2048x200 := Rect.unit (s := S2048x200) ![0, 0] S2048x200.size inb_S2048x200_S2048x200_0_0
abbrev rIn1 : Rect S200x128 := Rect.unit (s := S200x128) ![0, 0] S200x128.size inb_S200x128_S200x128_0_0
abbrev rIn2 : Rect S1x128 := Rect.unit (s := S1x128) ![0, 0] S1x128.size inb_S1x128_S1x128_0_0
abbrev rIn3 : Rect S2048x1 := Rect.unit (s := S2048x1) ![0, 0] S2048x1.size inb_S2048x1_S2048x1_0_0
abbrev rOut : Rect S2048x128 := Rect.unit (s := S2048x128) ![0, 0] S2048x128.size inb_S2048x128_S2048x128_0_0

/-! ## What the body leaves in the result window's buffer -/

/-- The result window's staging buffer after the body, from the four input blocks: its one store. -/
def outBlock (x0 : Vec F S2048x200 .f32) (x1 : Vec F S200x128 .f32) (x2 : Vec F S1x128 .f32) (x3 : Vec F S2048x1 .f32) : Vec F S2048x128 .f32 :=
  View.canon [⟨rOut, k1_pay1 (View.ld x0 rIn0) (View.ld x1 rIn1) (View.ld x2 rIn2) (View.ld x3 rIn3)⟩]

/-- The one store is the whole buffer, so it covers it. -/
theorem cover_out (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

/-! ## The body's triple -/

set_option maxHeartbeats 1000000 in
/-- The body on whole staging memrefs, the inputs' at read contents and the result's at anything, runs to the
    continuation holding the inputs' as they were and the result's at outBlock of the inputs'. -/
theorem sound_kernel (c : Dev nD) (E : Set ℕ) (i : grid1.Coords)
    (a0 : Memref sig .tc .vmem S2048x200 .f32) (ha0 : a0.IsWhole) (a1 : Memref sig .tc .vmem S200x128 .f32) (ha1 : a1.IsWhole)
    (a2 : Memref sig .tc .vmem S1x128 .f32) (ha2 : a2.IsWhole) (a3 : Memref sig .tc .vmem S2048x1 .f32) (ha3 : a3.IsWhole)
    (a4 : Memref sig .tc .vmem S2048x128 .f32) (ha4 : a4.IsWhole)
    (x0 : Vec F S2048x200 .f32) (x1 : Vec F S200x128 .f32) (x2 : Vec F S1x128 .f32) (x3 : Vec F S2048x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (outBlock x0 x1 x2 x3)) -∗ K ⟨⟩))
      ⊢ wp frame (wpE (defs₀ (F := F)) Variants.none c none) E (cc1__hw_kernel i a0 ha0 a1 ha1 a2 ha2 a3 ha3 a4 ha4) K := by
  simp only [cc1__hw_kernel_eq_skeleton]; unfold cc1__hw_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the call on core c: the arrays as the call finds them; after the body at point t each
    input's buffer at its block and the result's at outBlock of the four input blocks; the invariant of a call
    that touches nothing else; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_out (c : Dev nD) (t : Fin cfg1.N) :
    (dat V c).after 4 t = outBlock (iblk V c 0 t) (iblk V c 1 t) (iblk V c 2 t) (iblk V c 3 t) := by dsimp only [dat]

theorem before_in0 (c : Dev nD) (t : Fin cfg1.N) (d) : (dat V c).before 0 t d = iblk V c 0 t :=
  before_of_0 V (dat V c) (A_eq V c 0) (after_in0 V c) t d
theorem before_in1 (c : Dev nD) (t : Fin cfg1.N) (d) : (dat V c).before 1 t d = iblk V c 1 t :=
  before_of_1 V (dat V c) (A_eq V c 1) (after_in1 V c) t d
theorem before_in2 (c : Dev nD) (t : Fin cfg1.N) (d) : (dat V c).before 2 t d = iblk V c 2 t :=
  before_of_2 V (dat V c) (A_eq V c 2) (after_in2 V c) t d
theorem before_in3 (c : Dev nD) (t : Fin cfg1.N) (d) : (dat V c).before 3 t d = iblk V c 3 t :=
  before_of_3 V (dat V c) (A_eq V c 3) (after_in3 V c) t d

/-! ## The body obligation -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the body's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3]
  rw [show (dat V c).Φ t.succ = (dat V c).Φ t.castSucc from rfl,
    show (dat V c).owesAt () t.succ = (dat V c).owesAt () t.castSucc from rfl,
    after_in0, after_in1, after_in2, after_in3, after_out]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Reg1

end
-- ==== Proof.K_Reg2Runs.lean ====
/-
  Region 2 of the layer (the aggregation A_sig · HW_scaled, accumulated over four column blocks into a
  carried accumulator and finished with the row scaling and the leaky rectifier): what the three
  control cases of its body share. The body's two conditionals in closed form over the 4 x 4 grid, where
  the result window is idle, the staging and scratch memrefs the body is called with, each window's block
  read off the arrays the region finds, and the region invariant split into the accumulator, the other
  scoped buffers and the generator register.
-/
import proofs.«141990_j36206574305751_2_alg».proof.Proof.Gen.Kernel.Launch
import proofs.«141990_j36206574305751_2_alg».proof.Proof.Gen.Kernel.Skeleton
import proofs.«141990_j36206574305751_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid -/

/-- The first conditional (the accumulator is zeroed): the column-block coordinate is 0. -/
abbrev condFirst (i : grid2.Coords) : Prop :=
  (Scalar.cmpi .ne (Scalar.extui (Scalar.cmpi .eq (BitVec.ofNat 32 (i 1).val) 0#32)) 0#32) = 1#1
/-- It holds exactly at the points 4 i + 0. -/
theorem condFirst_iff : ∀ t : Fin cfg2.N, condFirst (grid2.coords t) ↔ t.val % 4 = 0 :=
  (by decide +kernel : ∀ t : Fin grid2.N, condFirst (grid2.coords t) ↔ t.val % 4 = 0)

/-- The second conditional (the result block is written): the column-block coordinate is 3. -/
abbrev condLast (i : grid2.Coords) : Prop := k2_cond2 i = 1#1
/-- It holds exactly at the points 4 i + 3. -/
theorem condLast_iff : ∀ t : Fin cfg2.N, condLast (grid2.coords t) ↔ t.val % 4 = 3 :=
  (by decide +kernel : ∀ t : Fin grid2.N, condLast (grid2.coords t) ↔ t.val % 4 = 3)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Away from the last column block the result window is idle and is not written back. -/
theorem idle_3 : ∀ t : Fin cfg2.N, ¬condLast (grid2.coords t) → cfg2.idle 3 (grid2.coords t) = true := by decide +kernel
theorem noFlush_3 : ∀ t : Fin cfg2.N, ¬condLast (grid2.coords t) → (cfg2.win 3).flush t = false := by decide +kernel
/-- At the last column block it is live. -/
theorem live_3 : ∀ t : Fin cfg2.N, condLast (grid2.coords t) → cfg2.idle 3 (grid2.coords t) = false := by decide +kernel

/-! ## The memrefs the body is called with -/

/-- One staging buffer of the result window, through which its contents are stated. -/
abbrev VO : View sig .tc .vmem S2048x128 .f32 := (Memref.whole cc2_stg3_0 : Memref sig .tc .vmem S2048x128 .f32).view
abbrev ms0 (t : Fin cfg2.N) : Memref sig .tc .vmem S2048x2048 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S8192x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)
/-- The accumulator: a whole scoped buffer of the kernel's own, carried from point to point. -/
abbrev scM : Memref sig .tc .vmem S2048x128 .f32 := Memref.whole cc2_scratch0
abbrev VS : View sig .tc .vmem S2048x128 .f32 := scM.view

/-! ## The region invariant, split -/

/-- The scoped buffers of the core that are neither a staging buffer of this region nor its accumulator, each at
    some contents: never opened here. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant the launch hands the region: the accumulator at some contents, the other scoped buffers, and the
    generator register at some state. -/
theorem PhiA_eq (c : Dev nD) :
    (Pipeline.ΦA spec2 c : sProp 𝕄)
      = iprop(iprop((∃ d, owns (c : Thread nD τ) scM fullShare d) ∗ others c) ∗ (∃ r, prngReg c r)) := by
  unfold Pipeline.ΦA; rw [scopedRest2_eq]; simp only [scM, owns_whole]
  refine congrArg (fun X : sProp 𝕄 => iprop(X ∗ (∃ r, prngReg c r))) ?_
  unfold others
  refine BI.equiv_iff.mp ⟨?_, ?_⟩
  · show (_ : sProp 𝕄) ⊢ (_ : sProp 𝕄)
    iintro ⟨B0, B1, B2, B3, B4, B5, B6, B7, B8, B9, B10, B11, B12, B13, B14, HS⟩
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  · show (_ : sProp 𝕄) ⊢ (_ : sProp 𝕄)
    iintro ⟨HS, B0, B1, B2, B3, B4, B5, B6, B7, B8, B9, B10, B11, B12, B13, B14⟩
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact HS

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched, its
    block index has not moved. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

end Cert.Kernel.Reg2

end
-- ==== Proof.K_Reg2RunA.lean ====
/-
  Region 2, the body's run at a first column block (the accumulator is zeroed, then the block's product added; the result window untouched).
-/
import proofs.«141990_j36206574305751_2_alg».proof.Proof.K_Reg2Runs
set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the result's staging memref and in the accumulator in this case (last
    first), with the proof that on whole memrefs — the three inputs at their contents — the body runs to the
    continuation holding the inputs as they were and each buffer it stored into with its pieces written. -/
noncomputable def kernelRun_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) :
    Σ' (L3 : List (View.Piece (Elt F) S2048x128 .f32)), { LS : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__main_kernel i arg2 harg2 arg3 harg3 arg4 harg4 arg5 harg5 arg6 harg6) K } := by
  refine ⟨[], ?_, fun xi3 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg2

end
-- ==== Proof.K_Reg2RunB.lean ====
/-
  Region 2, the body's run at a middle column block (the block's product added to the accumulator; the result window untouched).
-/
import proofs.«141990_j36206574305751_2_alg».proof.Proof.K_Reg2RunA
set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the result's staging memref and in the accumulator in this case (last
    first), with the proof that on whole memrefs — the three inputs at their contents — the body runs to the
    continuation holding the inputs as they were and each buffer it stored into with its pieces written. -/
noncomputable def kernelRun_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) :
    Σ' (L3 : List (View.Piece (Elt F) S2048x128 .f32)), { LS : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__main_kernel i arg2 harg2 arg3 harg3 arg4 harg4 arg5 harg5 arg6 harg6) K } := by
  refine ⟨[], ?_, fun xi3 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Reg2

end
-- ==== Proof.K_Reg2RunC.lean ====
/-
  Region 2, the body's run at the last column block (the block's product added to the accumulator, then the accumulator scaled by the row factor and passed through the leaky rectifier into the result window).
-/
import proofs.«141990_j36206574305751_2_alg».proof.Proof.K_Reg2RunB
set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the result's staging memref and in the accumulator in this case (last
    first), with the proof that on whole memrefs — the three inputs at their contents — the body runs to the
    continuation holding the inputs as they were and each buffer it stored into with its pieces written. -/
noncomputable def kernelRun_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__main_kernel i arg2 harg2 arg3 harg3 arg4 harg4 arg5 harg5 arg6 harg6) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Reg2

end
-- ==== Proof.K_Reg2.lean ====
/-
  Region 2 of the layer: what the accumulator and the result's staging buffer hold after each of the sixteen
  points (the case the point is in, run on what the point before left in the accumulator), the proof data of
  the pipeline at the arrays the region finds, and the body obligation at a generic point: the three inputs'
  staging buffers hold their blocks; the closed forms of the two conditionals select the case; the invariant
  hands the body the accumulator at what the point before left (at anything before a first column block) and
  takes it back at this point's contents.
-/
import proofs.«141990_j36206574305751_2_alg».proof.Proof.K_Reg2RunC
set_option maxRecDepth 16384

noncomputable section

namespace Cert.Kernel.Reg2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- What case A leaves in the result's staging buffer: its pieces read back over junk (there are none: a placeholder nothing consults, the window being idle there). -/
def out_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) : Vec F S2048x128 .f32 :=
  VO.read (Elt F) (VO.writes (Elt F) VO.junk (kernelRun_A c i arg2 harg2 arg3 harg3 arg4 harg4 arg5 harg5 arg6 harg6 hc0 hc1 x0 x1 x2).1)

/-- Case A's stores into the accumulator tile it, so they cover it. -/
theorem scover_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) (y : S2048x128.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S2048x128.size (by sl_kernel_rfl) y

/-- What case A leaves in the accumulator: its pieces read back over junk. -/
def sout_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) : Vec F S2048x128 .f32 :=
  VS.read (Elt F) (VS.writes (Elt F) VS.junk (kernelRun_A c i arg2 harg2 arg3 harg3 arg4 harg4 arg5 harg5 arg6 harg6 hc0 hc1 x0 x1 x2).2.1)

/-- What case B leaves in the result's staging buffer: its pieces read back over junk (there are none: a placeholder nothing consults, the window being idle there). -/
def out_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) : Vec F S2048x128 .f32 :=
  VO.read (Elt F) (VO.writes (Elt F) VO.junk (kernelRun_B c i arg2 harg2 arg3 harg3 arg4 harg4 arg5 harg5 arg6 harg6 hc0 hc1 x0 x1 x2 xs).1)

/-- Case B's stores into the accumulator tile it, so they cover it. -/
theorem scover_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) (y : S2048x128.Idx) :
    ∃ pc ∈ (kernelRun_B c i arg2 harg2 arg3 harg3 arg4 harg4 arg5 harg5 arg6 harg6 hc0 hc1 x0 x1 x2 xs).2.1, y ∈ pc.1.set :=
  View.cover_of_tiledL (kernelRun_B c i arg2 harg2 arg3 harg3 arg4 harg4 arg5 harg5 arg6 harg6 hc0 hc1 x0 x1 x2 xs).2.1 S2048x128.size (by sl_kernel_rfl) y

/-- What case B leaves in the accumulator: its pieces read back over junk. -/
def sout_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) : Vec F S2048x128 .f32 :=
  VS.read (Elt F) (VS.writes (Elt F) VS.junk (kernelRun_B c i arg2 harg2 arg3 harg3 arg4 harg4 arg5 harg5 arg6 harg6 hc0 hc1 x0 x1 x2 xs).2.1)

/-- The stores of the last case into the result's staging memref tile it, so they cover it. -/
theorem cover_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) (y : S2048x128.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S2048x128.size (by sl_kernel_rfl) y

/-- What case C leaves in the result's staging buffer: its pieces read back over junk. -/
def out_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) : Vec F S2048x128 .f32 :=
  VO.read (Elt F) (VO.writes (Elt F) VO.junk (kernelRun_C c i arg2 harg2 arg3 harg3 arg4 harg4 arg5 harg5 arg6 harg6 hc0 hc1 x0 x1 x2 xs).1)

/-- Case C's stores into the accumulator tile it, so they cover it. -/
theorem scover_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) (y : S2048x128.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S2048x128.size (by sl_kernel_rfl) y

/-- What case C leaves in the accumulator: its pieces read back over junk. -/
def sout_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) : Vec F S2048x128 .f32 :=
  VS.read (Elt F) (VS.writes (Elt F) VS.junk (kernelRun_C c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## What the buffers hold after each point -/

/-- The result's staging buffer and the accumulator after the body at position `n`: the case the closed forms
    select there, run at the point's memrefs and input blocks, on what the point before left in the accumulator. -/
def outsAt (c : Dev nD) : (n : ℕ) → n < cfg2.N → Vec F S2048x128 .f32 × Vec F S2048x128 .f32
  | 0, hn => (out_A c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩), sout_A c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out_A c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩), sout_A c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, sout_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (out_B c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (outsAt c n (Nat.lt_of_succ_lt hn)).2, sout_B c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg2.N) (h0 : t.val % 4 = 0) (h1 : ¬t.val % 4 = 3) :
    outsAt V c t.val t.isLt = (out_A c (grid2.coords t) (ms0 t) (hs0 t) (ms1 t) (hs1 t) (ms2 t) (hs2 t) (ms3 t) (hs3 t) scM (Memref.isWhole_whole _) ((condFirst_iff t).mpr h0) (fun h => h1 ((condLast_iff t).mp h)) (iblk V c 0 t) (iblk V c 1 t) (iblk V c 2 t), sout_A c (grid2.coords t) (ms0 t) (hs0 t) (ms1 t) (hs1 t) (ms2 t) (hs2 t) (ms3 t) (hs3 t) scM (Memref.isWhole_whole _) ((condFirst_iff t).mpr h0) (fun h => h1 ((condLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (out_B c (grid2.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk V c 0 t) (iblk V c 1 t) (iblk V c 2 t) (outsAt V c (t.val - 1) (Nat.lt_of_le_of_lt (Nat.sub_le _ _) t.isLt)).2, sout_B c (grid2.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 4 = 0) (h1 : t.val % 4 = 3) :
    outsAt V c t.val t.isLt = (out_C c (grid2.coords t) (ms0 t) (hs0 t) (ms1 t) (hs1 t) (ms2 t) (hs2 t) (ms3 t) (hs3 t) scM (Memref.isWhole_whole _) (fun h => h0 ((condFirst_iff t).mp h)) ((condLast_iff t).mpr h1) (iblk V c 0 t) (iblk V c 1 t) (iblk V c 2 t) (outsAt V c (t.val - 1) (Nat.lt_of_le_of_lt (Nat.sub_le _ _) t.isLt)).2, sout_C c (grid2.coords t) (ms0 t) (hs0 t) (ms1 t) (hs1 t) (ms2 t) (hs2 t) (ms3 t) (hs3 t) scM (Memref.isWhole_whole _) (fun h => h0 ((condFirst_iff t).mp h)) ((condLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over; afterwards the
    accumulator at what the point before left in it, the other scoped buffers, the generator register. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The arrays as the region finds them; after the body at point `t` each input's buffer at its block and the
    result's at `outsAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d
theorem before_2 (c : Dev nD) (t : Fin cfg2.N) (d) : (dat V c).before 2 t d = iblk V c 2 t :=
  before_in2_of V (dat V c) (A_eq V c 2) (after_2 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  by_cases h0 : t.val % 4 = 0
  · by_cases h1 : t.val % 4 = 3
    · exfalso; omega
    · have hc0 : condFirst (grid2.coords t) := (condFirst_iff t).mpr h0
      have hc1 : ¬condLast (grid2.coords t) := fun h => h1 ((condLast_iff t).mp h)
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [Dat.leavesExact_idle (dat V c) 3 t (idle_3 t hc1) (noFlush_3 t hc1)]
      rw [outsAt_A V c t h0 h1]
      unfold sout_A; (try dsimp only)
      by_cases hz : t.val = 0
      · rw [PhiS_castSucc V c t, PhiS_zero V c _ _ hz, PhiA_eq]
        iintro ⟨⟨⟨HS, HB⟩, Hg⟩, Ho, ⟨%d0, H0⟩, ⟨%d1, H1⟩, ⟨%d2, H2⟩, ⟨%d3, H3⟩⟩
        iapply ((kernelRun_A c (grid2.coords t) _ _ _ _ _ _ _ _ _ _ hc0 hc1 (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HB Hg]
        · isplitl [HS HB]
          · isplitl [HS]
            · unfold owns; iexists _; isplitr
              swap; · iexact HS
              ipureintro; exact View.read_writes_of_cover _ _ _ _ _ (scover_A c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, HB⟩, Hg⟩, Ho, ⟨%d0, H0⟩, ⟨%d1, H1⟩, ⟨%d2, H2⟩, ⟨%d3, H3⟩⟩
        iapply ((kernelRun_A c (grid2.coords t) _ _ _ _ _ _ _ _ _ _ hc0 hc1 (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HB Hg]
        · isplitl [HS HB]
          · isplitl [HS]
            · unfold owns; iexists _; isplitr
              swap; · iexact HS
              ipureintro; exact View.read_writes_of_cover _ _ _ _ _ (scover_A c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3
  · by_cases h1 : t.val % 4 = 3
    · have hc0 : ¬condFirst (grid2.coords t) := fun h => h0 ((condFirst_iff t).mp h)
      have hc1 : condLast (grid2.coords t) := (condLast_iff t).mpr h1
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t hc1], after_3]
      rw [outsAt_C V c t h0 h1]
      unfold out_C sout_C; (try dsimp only)
      have hz : t.val ≠ 0 := by omega
      · rw [PhiS_castSucc V c t, PhiS_pos V c _ _ hz]
        iintro ⟨⟨⟨HS, HB⟩, Hg⟩, Ho, ⟨%d0, H0⟩, ⟨%d1, H1⟩, ⟨%d2, H2⟩, ⟨%d3, H3⟩⟩
        iapply ((kernelRun_C c (grid2.coords t) _ _ _ _ _ _ _ _ _ _ hc0 hc1 (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HB Hg]
        · isplitl [HS HB]
          · isplitl [HS]
            · unfold owns; iexists _; isplitr
              swap; · iexact HS
              ipureintro; exact View.read_writes_of_cover _ _ _ _ _ (scover_C c _ _ _ _ _ _ _ _ _ _ _ _ _ _ _ _ _)
            iexact HB
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C c _ _ _ _ _ _ _ _ _ _ _ _ _ _ _ _ _)
    · have hc0 : ¬condFirst (grid2.coords t) := fun h => h0 ((condFirst_iff t).mp h)
      have hc1 : ¬condLast (grid2.coords t) := fun h => h1 ((condLast_iff t).mp h)
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [Dat.leavesExact_idle (dat V c) 3 t (idle_3 t hc1) (noFlush_3 t hc1)]
      rw [outsAt_B V c t h0 h1]
      unfold sout_B; (try dsimp only)
      have hz : t.val ≠ 0 := by omega
      · rw [PhiS_castSucc V c t, PhiS_pos V c _ _ hz]
        iintro ⟨⟨⟨HS, HB⟩, Hg⟩, Ho, ⟨%d0, H0⟩, ⟨%d1, H1⟩, ⟨%d2, H2⟩, ⟨%d3, H3⟩⟩
        iapply ((kernelRun_B c (grid2.coords t) _ _ _ _ _ _ _ _ _ _ hc0 hc1 (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HB Hg]
        · isplitl [HS HB]
          · isplitl [HS]
            · unfold owns; iexists _; isplitr
              swap; · iexact HS
              ipureintro; exact View.read_writes_of_cover _ _ _ _ _ (scover_B c _ _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  iintro ⟨⟨HS, HB⟩, Hg⟩
  isplitl [HS HB]
  · isplitl [HS]
    · iexists _; iexact HS
    iexact HB
  iexact Hg

theorem hout (c : Dev nD) : (dat V c).Φ (Fin.last cfg2.N) ⊢ (Pipeline.ΦA spec2 c : sProp 𝕄) :=
  Phi_out V c _ (by rw [Fin.val_last]; have : cfg2.N = 16 := N_2; omega)

end

end Cert.Kernel.Reg2

end
-- ==== Proof.K_Run.lean ====
/-
  The three tiled computations run one after the other: what every unscoped buffer of a core holds at each
  boundary of @main — at launch, after the row-sum kernel, after the bias is re-laid as a row, after the scaled
  linear map, after the aggregation — and that every weakly fair execution of @main terminates with every such
  buffer at the last boundary's contents.

  Each boundary's contents are the one before with the arrays of the region in between replaced by what its
  write-backs leave (a host operation in between replacing its own result). No item writes an argument array,
  so the arguments are read back through the boundaries to the launch memory.
-/
import proofs.«141990_j36206574305751_2_alg».proof.Proof.K_Reg0
import proofs.«141990_j36206574305751_2_alg».proof.Proof.K_Reg1
import proofs.«141990_j36206574305751_2_alg».proof.Proof.K_Reg2
import proofs.«141990_j36206574305751_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references: what the row-sum kernel is entered from. -/
abbrev E0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (Reg0.dat (E0 m ρ) c).arrAt w cfg0.N
theorem W1_arr (c : Dev nD) (w : Fin cfg0.W) :
    W1 m ρ c (Proc.devRef .tc (Pipeline.arrRef spec0 w)) = (Reg0.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev X0 : (c : Dev nD) → (b : Ref sig .tc) → Buf (Elt F) ((c : Thread nD τ).loc b) := fun c b => W1 m ρ c b
theorem hF0 (c : Dev nD) (w : Fin cfg0.W) : (Reg0.dat (E0 m ρ) c).arrAt w cfg0.N = X0 m ρ c (Pipeline.arrRef spec0 w) :=
  (W1_arr m ρ c w).symm
theorem hrest0 (c : Dev nD) : ∀ b, b ∉ Finset.univ.image (Pipeline.arrRef spec0) → X0 m ρ c b = E0 m ρ c b :=
  fun b hb => W1_of_ne m ρ c b fun w e => hb (Finset.mem_image.mpr ⟨w, Finset.mem_univ _, e⟩)

/-- After the bias is re-laid as a row. -/
abbrev W2 : Dev nD → Valuation τ sig (Elt F) := fun c => StableHlo.after hostOps1 (W1 m ρ c)
/-- What the scaled linear map is entered from. -/
abbrev E1 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (Reg1.dat (E1 m ρ) c).arrAt w cfg1.N
theorem W3_arr (c : Dev nD) (w : Fin cfg1.W) :
    W3 m ρ c (Proc.devRef .tc (Pipeline.arrRef spec1 w)) = (Reg1.dat (E1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev X1 : (c : Dev nD) → (b : Ref sig .tc) → Buf (Elt F) ((c : Thread nD τ).loc b) := fun c b => W3 m ρ c b
theorem hF1 (c : Dev nD) (w : Fin cfg1.W) : (Reg1.dat (E1 m ρ) c).arrAt w cfg1.N = X1 m ρ c (Pipeline.arrRef spec1 w) :=
  (W3_arr m ρ c w).symm
theorem hrest1 (c : Dev nD) : ∀ b, b ∉ Finset.univ.image (Pipeline.arrRef spec1) → X1 m ρ c b = E1 m ρ c b :=
  fun b hb => W3_of_ne m ρ c b fun w e => hb (Finset.mem_image.mpr ⟨w, Finset.mem_univ _, e⟩)

/-- What the aggregation is entered from. -/
abbrev E2 : (c : Dev nD) → (b : Ref sig .tc) → Buf (Elt F) ((c : Thread nD τ).loc b) := fun c b => W3 m ρ c b

/-- At region 2's exit: its arrays at what the pipeline leaves, every other buffer as entered. -/
def W4 (c : Dev nD) : Valuation τ sig (Elt F) :=
  Pipeline.withArrays spec2 c (W3 m ρ c) fun w => (Reg2.dat (E2 m ρ) c).arrAt w cfg2.N
theorem W4_arr (c : Dev nD) (w : Fin cfg2.W) :
    W4 m ρ c (Proc.devRef .tc (Pipeline.arrRef spec2 w)) = (Reg2.dat (E2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev X2 : (c : Dev nD) → (b : Ref sig .tc) → Buf (Elt F) ((c : Thread nD τ).loc b) := fun c b => W4 m ρ c b
theorem hF2 (c : Dev nD) (w : Fin cfg2.W) : (Reg2.dat (E2 m ρ) c).arrAt w cfg2.N = X2 m ρ c (Pipeline.arrRef spec2 w) :=
  (W4_arr m ρ c w).symm
theorem hrest2 (c : Dev nD) : ∀ b, b ∉ Finset.univ.image (Pipeline.arrRef spec2) → X2 m ρ c b = E2 m ρ c b :=
  fun b hb => W4_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (E0 m ρ) c
  | ⟨1, _⟩ => fun c => Reg1.dat (E1 m ρ) c
  | ⟨2, _⟩ => fun c => Reg2.dat (E2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its arrays are split
    out of the unscoped buffers and put back at what the pipeline leaves; the generator register and the scoped rest go
    into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec0 c : sProp 𝕄) ⊢ (pdats m ρ 0 c).Φ 0 from Reg0.hin (E0 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (show (pdats m ρ 0 c).Φ (Fin.last _) ⊢ (Pipeline.ΦA spec0 c : sProp 𝕄) from Reg0.hout (E0 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are split
    out of the unscoped buffers and put back at what the pipeline leaves; the generator register and the scoped rest go
    into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec1 c : sProp 𝕄) ⊢ (pdats m ρ 1 c).Φ 0 from BI.Entails.refl _)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (show (pdats m ρ 1 c).Φ (Fin.last _) ⊢ (Pipeline.ΦA spec1 c : sProp 𝕄) from BI.Entails.refl _) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W3`, left at `W4`. Its arrays are split
    out of the unscoped buffers and put back at what the pipeline leaves; the generator register and the scoped rest go
    into the region's invariant and come back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (E2 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec2 c : sProp 𝕄) ⊢ (pdats m ρ 2 c).Φ 0 from Reg2.hin (E2 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (show (pdats m ρ 2 c).Φ (Fin.last _) ⊢ (Pipeline.ΦA spec2 c : sProp 𝕄) from Reg2.hout (E2 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 0).trans (((Reg1.dat (E1 m ρ) c).arrAt_in 0 rfl _).trans (Reg1.A_eq (E1 m ρ) c 0))
    _ = W1 m ρ c (Proc.devRef .tc main_arg0) := (StableHlo.after_of_writes_sub hostOps1 (W1 m ρ c) hostOps1_writes (by decide : main_arg0 ∉ hostOps1_W))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (StableHlo.after_of_writes_sub hostOps1 (W1 m ρ c) hostOps1_writes (by decide : main_arg1 ∉ hostOps1_W))
    _ = W0 m ρ c (Proc.devRef .tc main_arg1) := (W1_arr m ρ c 0).trans (((Reg0.dat (E0 m ρ) c).arrAt_in 0 rfl _).trans (Reg0.A_eq (E0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 1).trans (((Reg1.dat (E1 m ρ) c).arrAt_in 1 rfl _).trans (Reg1.A_eq (E1 m ρ) c 1))
    _ = W1 m ρ c (Proc.devRef .tc main_arg2) := (StableHlo.after_of_writes_sub hostOps1 (W1 m ρ c) hostOps1_writes (by decide : main_arg2 ∉ hostOps1_W))
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (StableHlo.after_of_writes_sub hostOps1 (W1 m ρ c) hostOps1_writes (by decide : main_arg3 ∉ hostOps1_W))
    _ = W0 m ρ c (Proc.devRef .tc main_arg3) := W1_of_ne m ρ c main_arg3 (by decide)
    _ = m ((c : Thread nD τ).loc main_arg3) := rfl

/-- The frame: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Run

end
-- ==== Proof.KI_Reg0Runs.lean ====
/-
  The row-sum kernel (the first of the three tiled computations) at one grid point: what its two conditionals
  test, at which points its windows are idle, and the shape of the invariant it runs under.

  The grid is 8 row blocks by 4 column blocks, walked row-major, so point `t` has column block `t mod 4`.
  The accumulator is zeroed exactly at the points with `t mod 4 = 0`, and the reciprocal square roots are
  stored exactly at those with `t mod 4 = 3`; elsewhere the window of the reciprocal square roots is left alone.
-/
import proofs.«141990_j36206574305751_2_alg».proof.Proof.Gen.KernelIdeal.Launch
import proofs.«141990_j36206574305751_2_alg».proof.Proof.Gen.KernelIdeal.Skeleton
import proofs.«141990_j36206574305751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals -/

/-- The first conditional's test: the column block is the first. -/
abbrev isFirst (i : grid0.Coords) : Prop :=
  (Scalar.cmpi .ne (Scalar.extui (Scalar.cmpi .eq (BitVec.ofNat 32 (i 1).val) 0#32)) 0#32) = 1#1

/-- It holds exactly at the points whose column block is 0. -/
theorem isFirst_iff : ∀ t : Fin cfg0.N, isFirst (grid0.coords t) ↔ t.val % 4 = 0 :=
  (by decide +kernel : ∀ t : Fin grid0.N, isFirst (grid0.coords t) ↔ t.val % 4 = 0)

/-- The second conditional's test: the column block is the last. -/
abbrev isLast (i : grid0.Coords) : Prop := k0_cond2 i = 1#1

/-- It holds exactly at the points whose column block is 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The adjacency block is read at every point. -/
theorem live_in : ∀ t : Fin cfg0.N, cfg0.idle 0 (grid0.coords t) = false := by decide +kernel
/-- The clamped-sigmoid block is stored at every point. -/
theorem live_sig : ∀ t : Fin cfg0.N, cfg0.idle 1 (grid0.coords t) = false := by decide +kernel
/-- The reciprocal-square-root window is idle away from the last column block, -/
theorem idle_dinv : ∀ t : Fin cfg0.N, ¬isLast (grid0.coords t) → cfg0.idle 2 (grid0.coords t) = true := by decide +kernel
/-- and is not written back there, -/
theorem noflush_dinv : ∀ t : Fin cfg0.N, ¬isLast (grid0.coords t) → (cfg0.win 2).flush t = false := by decide +kernel
/-- while at the last column block it is stored. -/
theorem live_dinv : ∀ t : Fin cfg0.N, isLast (grid0.coords t) → cfg0.idle 2 (grid0.coords t) = false := by decide +kernel

/-! ## The memrefs the body is called with -/

/-- A buffer of the clamped-sigmoid window and one of the reciprocal-square-root window, through which their
    contents are stated. -/
abbrev viewSig : View sig .tc .vmem S1024x2048 .f32 := (Memref.whole cc0_stg1_0 : Memref sig .tc .vmem S1024x2048 .f32).view
abbrev viewDinv : View sig .tc .vmem S1024x1 .f32 := (Memref.whole cc0_stg2_0 : Memref sig .tc .vmem S1024x1 .f32).view

abbrev mIn (t : Fin cfg0.N) : Memref sig .tc .vmem S1024x2048 .f32 := win0_0.stage (cfg0.slots t 0)
abbrev hIn (t : Fin cfg0.N) : (mIn t).IsWhole := hstage0_0 ((cfg0.slots t 0).cast nbuf0_0)
abbrev mSig (t : Fin cfg0.N) : Memref sig .tc .vmem S1024x2048 .f32 := win0_1.stage (cfg0.slots t 1)
abbrev hSig (t : Fin cfg0.N) : (mSig t).IsWhole := hstage0_1 ((cfg0.slots t 1).cast nbuf0_1)
abbrev mDinv (t : Fin cfg0.N) : Memref sig .tc .vmem S1024x1 .f32 := win0_2.stage (cfg0.slots t 2)
abbrev hDinv (t : Fin cfg0.N) : (mDinv t).IsWhole := hstage0_2 ((cfg0.slots t 2).cast nbuf0_2)

/-- The accumulator of the row sums: a whole buffer of the kernel's own. -/
abbrev accM : Memref sig .tc .vmem S1024x1 .f32 := Memref.whole cc0_scratch0
abbrev viewAcc : View sig .tc .vmem S1024x1 .f32 := accM.view

/-! ## The invariant's shape -/

/-- The core's other scoped buffers (the staging buffers and the accumulator of the two later computations), each
    at some contents: carried along unopened. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The invariant a region of this kind starts from: the accumulator at some contents, the other scoped buffers,
    the generator register at some state. -/
theorem PhiA_eq (c : Dev nD) :
    (Pipeline.ΦA spec0 c : sProp 𝕄)
      = iprop(iprop((∃ d, owns (c : Thread nD τ) accM fullShare d) ∗ others c) ∗ (∃ r, prngReg c r)) := by
  unfold Pipeline.ΦA others; rw [scopedRest0_eq]; simp only [accM, owns_whole]; try rfl

end Cert.KernelIdeal.Reg0

end
-- ==== Proof.KI_Reg0RunFirst.lean ====
/-
  The row-sum kernel's body at a point of the FIRST column block: the accumulator is zeroed, the block's clamped
  sigmoid is stored, its row sums are added to the accumulator; the reciprocal-square-root window is left alone.
  The body's stores into each buffer, last first, are found by running it.
-/
import proofs.«141990_j36206574305751_2_alg».proof.Proof.KI_Reg0Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores of the body at a first column block — into the clamped-sigmoid buffer and into the accumulator — with the
    proof that the body runs from the adjacency block `x0`, the reciprocal-square-root buffer at any `xi` (handed back
    as found) and the other two buffers at anything, to those stores written. -/
noncomputable def runFirst (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x1 .f32) (harg4 : arg4.IsWhole) (arg5 : Memref sig .tc .vmem S1024x1 .f32) (harg5 : arg5.IsWhole) (hc0 : isFirst i) (hc1 : ¬isLast i)
    (x0 : Vec F S1024x2048 .f32) :
    Σ' (L1 : List (View.Piece (Elt F) S1024x2048 .f32)), { LS : List (View.Piece (Elt F) S1024x1 .f32) //
      ∀ (xi : Vec F S1024x1 .f32) (E : Set ℕ) (K : PUnit → sProp 𝕄),
        iprop(owns (c : Thread nD τ) arg2 fullShare x0 ∗ (∃ d, owns (c : Thread nD τ) arg3 fullShare d) ∗ owns (c : Thread nD τ) arg4 fullShare xi ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__sigclamp_kernel i arg2 harg2 arg3 harg3 arg4 harg4 arg5 harg5) K } := by
  refine ⟨?_, ?_, fun xi E K => ?run⟩
  case run =>
    simp only [cc0__sigclamp_kernel_eq_skeleton]; unfold cc0__sigclamp_kernel_skel
    unfold owns
    iintro ⟨⟨%f0, %hf0, H0⟩, ⟨%d1, %f1, -, H1⟩, ⟨%f2, %hf2, H2⟩, ⟨%ds, %fs, -, HS⟩, Hk⟩
    obtain rfl := harg2.eq_unread hf0; obtain rfl := harg4.eq_unread hf2
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.KernelIdeal.Reg0

end
-- ==== Proof.KI_Reg0RunMid.lean ====
/-
  The row-sum kernel's body at a point of a MIDDLE column block: the block's clamped sigmoid is stored and its row
  sums are added to the accumulator, which holds what the point before left; the reciprocal-square-root window is
  left alone.
-/
import proofs.«141990_j36206574305751_2_alg».proof.Proof.KI_Reg0RunFirst

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores of the body at a middle column block, with the proof that the body runs from the adjacency block `x0`
    and the accumulator at `xs` to those stores written. -/
noncomputable def runMid (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : ¬isLast i)
    (x0 : Vec F S1024x2048 .f32) (xs : Vec F S1024x1 .f32) :
    Σ' (L1 : List (View.Piece (Elt F) S1024x2048 .f32)), { LS : List (View.Piece (Elt F) S1024x1 .f32) //
      ∀ (xi : Vec F S1024x1 .f32) (E : Set ℕ) (K : PUnit → sProp 𝕄),
        iprop(owns (c : Thread nD τ) arg2 fullShare x0 ∗ (∃ d, owns (c : Thread nD τ) arg3 fullShare d) ∗ owns (c : Thread nD τ) arg4 fullShare xi ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__sigclamp_kernel i arg2 harg2 arg3 harg3 arg4 harg4 arg5 harg5) K } := by
  refine ⟨?_, ?_, fun xi E K => ?run⟩
  case run =>
    simp only [cc0__sigclamp_kernel_eq_skeleton]; unfold cc0__sigclamp_kernel_skel
    unfold owns
    iintro ⟨⟨%f0, %hf0, H0⟩, ⟨%d1, %f1, -, H1⟩, ⟨%f2, %hf2, H2⟩, ⟨%fs, %hfs, HS⟩, Hk⟩
    obtain rfl := harg2.eq_unread hf0; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.KernelIdeal.Reg0

end
-- ==== Proof.KI_Reg0RunLast.lean ====
/-
  The row-sum kernel's body at a point of the LAST column block: the block's clamped sigmoid is stored, its row sums
  are added to the accumulator, and the reciprocal square roots of the accumulated sums are stored.
-/
import proofs.«141990_j36206574305751_2_alg».proof.Proof.KI_Reg0RunMid

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The stores of the body at a last column block — into the clamped-sigmoid buffer, the reciprocal-square-root buffer and
    the accumulator — with the proof that the body runs from the adjacency block `x0` and the accumulator at `xs` to
    those stores written. -/
noncomputable def runLast (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x1 .f32) (harg4 : arg4.IsWhole) (arg5 : Memref sig .tc .vmem S1024x1 .f32) (harg5 : arg5.IsWhole) (hc0 : ¬isFirst i) (hc1 : isLast i)
    (x0 : Vec F S1024x2048 .f32) (xs : Vec F S1024x1 .f32) :
    Σ' (L1 : List (View.Piece (Elt F) S1024x2048 .f32)) (L2 : List (View.Piece (Elt F) S1024x1 .f32)), { LS : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__sigclamp_kernel i arg2 harg2 arg3 harg3 arg4 harg4 arg5 harg5) K } := by
  refine ⟨?_, ?_, ?_, fun E K => ?run⟩
  case run =>
    simp only [cc0__sigclamp_kernel_eq_skeleton]; unfold cc0__sigclamp_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.KernelIdeal.Reg0

end
-- ==== Proof.KI_Reg0.lean ====
/-
  The row-sum kernel over its whole grid: what each staging buffer and the accumulator hold after every point, the
  invariant that carries the accumulator from point to point, and the obligation of the body at every point.

  After a point of the first column block the accumulator holds that block's row sums added to zero; after any
  later point it holds the point's row sums added to what the point before left. The clamped-sigmoid buffer holds
  the point's block after every point; the reciprocal-square-root buffer is stored at the last column block only.
-/
import proofs.«141990_j36206574305751_2_alg».proof.Proof.KI_Reg0RunLast

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point, for any proof data whose array
    is the entry contents and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's run at a point, by the point's column block -/

/-- At a first column block. -/
def rF (c : Dev nD) (t : Fin cfg0.N) (h0 : t.val % 4 = 0) (h1 : ¬t.val % 4 = 3) :=
  runFirst (F := F) c (grid0.coords t) (mIn t) (hIn t) (mSig t) (hSig t) (mDinv t) (hDinv t) accM (Memref.isWhole_whole _) ((isFirst_iff t).mpr h0) (fun h => h1 ((isLast_iff t).mp h)) (iblk V c 0 t)
/-- At a middle column block, the accumulator entering at `xs`. -/
def rM (c : Dev nD) (t : Fin cfg0.N) (h0 : ¬t.val % 4 = 0) (h1 : ¬t.val % 4 = 3) (xs : Vec F S1024x1 .f32) :=
  runMid (F := F) c (grid0.coords t) (mIn t) (hIn t) (mSig t) (hSig t) (mDinv t) (hDinv t) accM (Memref.isWhole_whole _) (fun h => h0 ((isFirst_iff t).mp h)) (fun h => h1 ((isLast_iff t).mp h)) (iblk V c 0 t) xs
/-- At a last column block, the accumulator entering at `xs`. -/
def rL (c : Dev nD) (t : Fin cfg0.N) (h0 : ¬t.val % 4 = 0) (h1 : t.val % 4 = 3) (xs : Vec F S1024x1 .f32) :=
  runLast (F := F) c (grid0.coords t) (mIn t) (hIn t) (mSig t) (hSig t) (mDinv t) (hDinv t) accM (Memref.isWhole_whole _) (fun h => h0 ((isFirst_iff t).mp h)) ((isLast_iff t).mpr h1) (iblk V c 0 t) xs

/-- A list of stores read back over unspecified contents, through the three views. -/
abbrev backSig (L : List (View.Piece (Elt F) S1024x2048 .f32)) : Vec F S1024x2048 .f32 :=
  viewSig.read (Elt F) (viewSig.writes (Elt F) viewSig.junk L)
abbrev backDinv (L : List (View.Piece (Elt F) S1024x1 .f32)) : Vec F S1024x1 .f32 :=
  viewDinv.read (Elt F) (viewDinv.writes (Elt F) viewDinv.junk L)
abbrev backAcc (L : List (View.Piece (Elt F) S1024x1 .f32)) : Vec F S1024x1 .f32 :=
  viewAcc.read (Elt F) (viewAcc.writes (Elt F) viewAcc.junk L)

/-! ## The stores of each case cover their buffers -/

theorem coverSigF (c : Dev nD) (t : Fin cfg0.N) (h0 : t.val % 4 = 0) (h1 : ¬t.val % 4 = 3) (y : S1024x2048.Idx) :
    ∃ pc ∈ (rF V c t h0 h1).1, y ∈ pc.1.set :=
  View.cover_of_tiledL (rF V c t h0 h1).1 S1024x2048.size (by unfold rF; sl_kernel_rfl) y
theorem coverAccF (c : Dev nD) (t : Fin cfg0.N) (h0 : t.val % 4 = 0) (h1 : ¬t.val % 4 = 3) (y : S1024x1.Idx) :
    ∃ pc ∈ (rF V c t h0 h1).2.1, y ∈ pc.1.set :=
  View.cover_of_tiledL (rF V c t h0 h1).2.1 S1024x1.size (by unfold rF; sl_kernel_rfl) y
theorem coverSigM (c : Dev nD) (t : Fin cfg0.N) (h0 : ¬t.val % 4 = 0) (h1 : ¬t.val % 4 = 3) (xs : Vec F S1024x1 .f32) (y : S1024x2048.Idx) :
    ∃ pc ∈ (rM V c t h0 h1 xs).1, y ∈ pc.1.set :=
  View.cover_of_tiledL (rM V c t h0 h1 xs).1 S1024x2048.size (by unfold rM; sl_kernel_rfl) y
theorem coverAccM (c : Dev nD) (t : Fin cfg0.N) (h0 : ¬t.val % 4 = 0) (h1 : ¬t.val % 4 = 3) (xs : Vec F S1024x1 .f32) (y : S1024x1.Idx) :
    ∃ pc ∈ (rM V c t h0 h1 xs).2.1, y ∈ pc.1.set :=
  View.cover_of_tiledL (rM V c t h0 h1 xs).2.1 S1024x1.size (by unfold rM; sl_kernel_rfl) y
theorem coverSigL (c : Dev nD) (t : Fin cfg0.N) (h0 : ¬t.val % 4 = 0) (h1 : t.val % 4 = 3) (xs : Vec F S1024x1 .f32) (y : S1024x2048.Idx) :
    ∃ pc ∈ (rL V c t h0 h1 xs).1, y ∈ pc.1.set :=
  View.cover_of_tiledL (rL V c t h0 h1 xs).1 S1024x2048.size (by unfold rL; sl_kernel_rfl) y
theorem coverDinvL (c : Dev nD) (t : Fin cfg0.N) (h0 : ¬t.val % 4 = 0) (h1 : t.val % 4 = 3) (xs : Vec F S1024x1 .f32) (y : S1024x1.Idx) :
    ∃ pc ∈ (rL V c t h0 h1 xs).2.1, y ∈ pc.1.set :=
  View.cover_of_tiledL (rL V c t h0 h1 xs).2.1 S1024x1.size (by unfold rL; sl_kernel_rfl) y
theorem coverAccL (c : Dev nD) (t : Fin cfg0.N) (h0 : ¬t.val % 4 = 0) (h1 : t.val % 4 = 3) (xs : Vec F S1024x1 .f32) (y : S1024x1.Idx) :
    ∃ pc ∈ (rL V c t h0 h1 xs).2.2.1, y ∈ pc.1.set :=
  View.cover_of_tiledL (rL V c t h0 h1 xs).2.2.1 S1024x1.size (by unfold rL; sl_kernel_rfl) y

/-! ## What the buffers hold after each point -/

/-- After the body at point `n`: the clamped-sigmoid buffer, the reciprocal-square-root buffer (unspecified where the
    window is idle) and the accumulator. -/
def outsAt (c : Dev nD) : (n : ℕ) → n < cfg0.N → Vec F S1024x2048 .f32 × Vec F S1024x1 .f32 × Vec F S1024x1 .f32
  | 0, hn => (backSig (rF V c ⟨0, hn⟩ (Nat.zero_mod _) (by show ¬(0 : ℕ) % 4 = 3; decide)).1, backDinv [], backAcc (rF V c ⟨0, hn⟩ (Nat.zero_mod _) (by show ¬(0 : ℕ) % 4 = 3; decide)).2.1)
  | n + 1, hn =>
    if h0 : (n + 1) % 4 = 0 then
      if h1 : (n + 1) % 4 = 3 then False.elim (by omega)
      else (backSig (rF V c ⟨n + 1, hn⟩ h0 h1).1, backDinv [], backAcc (rF V c ⟨n + 1, hn⟩ h0 h1).2.1)
    else
      if h1 : (n + 1) % 4 = 3 then
        (backSig (rL V c ⟨n + 1, hn⟩ h0 h1 (outsAt c n (Nat.lt_of_succ_lt hn)).2.2).1,
         backDinv (rL V c ⟨n + 1, hn⟩ h0 h1 (outsAt c n (Nat.lt_of_succ_lt hn)).2.2).2.1,
         backAcc (rL V c ⟨n + 1, hn⟩ h0 h1 (outsAt c n (Nat.lt_of_succ_lt hn)).2.2).2.2.1)
      else
        (backSig (rM V c ⟨n + 1, hn⟩ h0 h1 (outsAt c n (Nat.lt_of_succ_lt hn)).2.2).1, backDinv [],
         backAcc (rM V c ⟨n + 1, hn⟩ h0 h1 (outsAt c n (Nat.lt_of_succ_lt hn)).2.2).2.1)

/-- The accumulator as the point before `t` left it. -/
abbrev accBefore (c : Dev nD) (t : Fin cfg0.N) : Vec F S1024x1 .f32 :=
  (outsAt V c (t.val - 1) (Nat.lt_of_le_of_lt (Nat.sub_le _ _) t.isLt)).2.2

theorem outsAt_first (c : Dev nD) (t : Fin cfg0.N) (h0 : t.val % 4 = 0) (h1 : ¬t.val % 4 = 3) :
    outsAt V c t.val t.isLt = (backSig (rF V c t h0 h1).1, backDinv [], backAcc (rF V c t h0 h1).2.1) := by
  obtain ⟨n, hn⟩ := t
  cases n with
  | zero => exact rfl
  | succ n => exact (dif_pos h0).trans ((dif_neg h1).trans rfl)

theorem outsAt_mid (c : Dev nD) (t : Fin cfg0.N) (h0 : ¬t.val % 4 = 0) (h1 : ¬t.val % 4 = 3) :
    outsAt V c t.val t.isLt = (backSig (rM V c t h0 h1 (accBefore V c t)).1, backDinv [], backAcc (rM V c t h0 h1 (accBefore V c t)).2.1) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 4 = 0) (h1 : t.val % 4 = 3) :
    outsAt V c t.val t.isLt = (backSig (rL V c t h0 h1 (accBefore V c t)).1, backDinv (rL V c t h0 h1 (accBefore V c t)).2.1, backAcc (rL V c t h0 h1 (accBefore V c t)).2.2.1) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the accumulator holds anything; afterwards what the point before left. The other
    scoped buffers and the generator register ride along. -/
def PhiS (c : Dev nD) : (n : ℕ) → n ≤ cfg0.N → sProp 𝕄
  | 0, _ => Pipeline.ΦA spec0 c
  | n + 1, hn => iprop(iprop(owns (c : Thread nD τ) accM fullShare ((outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt V c n hn).2.2) ∗ others c) ∗ (∃ r, prngReg c r)) := rfl

theorem PhiS_pos (c : Dev nD) (n : ℕ) (h : n ≤ cfg0.N) (hz : n ≠ 0) :
    PhiS V c n h = iprop(iprop(owns (c : Thread nD τ) accM fullShare ((outsAt V c (n - 1) (by omega)).2.2) ∗ others c) ∗ (∃ r, prngReg c r)) := by
  cases n with
  | zero => exact absurd rfl hz
  | succ n => rfl

/-! ## The proof data -/

/-- The arrays as the region finds them; after the body at point `t` the adjacency buffer at its block and the two
    output buffers at `outsAt`; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_in (c : Dev nD) (t : Fin cfg0.N) : (dat V c).after 0 t = iblk V c 0 t := by dsimp only [dat]
theorem after_sig (c : Dev nD) (t : Fin cfg0.N) : (dat V c).after 1 t = (outsAt V c t.val t.isLt).1 := by dsimp only [dat]
theorem after_dinv (c : Dev nD) (t : Fin cfg0.N) : (dat V c).after 2 t = (outsAt V c t.val t.isLt).2.1 := by dsimp only [dat]

theorem before_in (c : Dev nD) (t : Fin cfg0.N) (d) : (dat V c).before 0 t d = iblk V c 0 t :=
  before_in_of V (dat V c) (A_eq V c 0) (after_in V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mSig t) fullShare ((dat V c).before 1 t d))
    ∗ (∃ d, owns (c : Thread nD τ) (mDinv t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_in (c : Dev nD) (t : Fin cfg0.N) :
    (dat V c).leavesExact 0 t = owns (c : Thread nD τ) (mIn t) fullShare (iblk V c 0 t) := by
  unfold Dat.leavesExact; rw [live_in t, after_in]
theorem leaves_sig (c : Dev nD) (t : Fin cfg0.N) :
    (dat V c).leavesExact 1 t = owns (c : Thread nD τ) (mSig t) fullShare ((outsAt V c t.val t.isLt).1) := by
  unfold Dat.leavesExact; rw [live_sig t, after_sig]

set_option maxHeartbeats 4800000 in
/-- The body at any point: the column block decides the case; the invariant hands the accumulator in at what the point
    before left (at anything at a first column block) and takes it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  rw [leaves_in, leaves_sig]
  have hN : t.val < 32 := lt_of_lt_of_eq t.isLt (show cfg0.N = 32 from N_0)
  by_cases h0 : t.val % 4 = 0
  · by_cases h1 : t.val % 4 = 3
    · exfalso; omega
    · rw [Dat.leavesExact_idle (dat V c) 2 t (idle_dinv t (fun h => h1 ((isLast_iff t).mp h))) (noflush_dinv t (fun h => h1 ((isLast_iff t).mp h)))]
      rw [outsAt_first V c t h0 h1]
      (try dsimp only)
      by_cases hz : t.val = 0
      · rw [Phi_castSucc V c t, PhiS_zero V c _ _ hz, PhiA_eq]
        iintro ⟨⟨⟨HS, Hoth⟩, Hg⟩, Ho, ⟨%d0, H0⟩, ⟨%d1, H1⟩, ⟨%d2, H2⟩⟩
        iapply ((rF V c t h0 h1).2.2 _ Set.univ _)
        isplitl [H0]; · iexact H0
        isplitl [H1]; · iexists _; iexact H1
        isplitl [H2]; · iexact H2
        isplitl [HS]; · iexact HS
        iintro ⟨H0, ⟨%e1, H1⟩, H2, ⟨%es, HS⟩⟩
        isplitl [HS Hoth Hg]
        · isplitl [HS Hoth]
          · isplitl [HS]
            · unfold owns; iexists _; isplitr
              swap; · iexact HS
              ipureintro; exact View.read_writes_of_cover _ _ _ _ _ (coverAccF V c t h0 h1)
            iexact Hoth
          iexact Hg
        isplitl [Ho]; · iexact Ho
        isplitl [H0]; · iexact H0
        isplitl [H1]
        · unfold owns; iexists _; isplitr
          swap; · iexact H1
          ipureintro; exact View.read_writes_of_cover _ _ _ _ _ (coverSigF V c t h0 h1)
        iexists _; iexact H2
      · rw [Phi_castSucc V c t, PhiS_pos V c _ _ hz]
        iintro ⟨⟨⟨HS, Hoth⟩, Hg⟩, Ho, ⟨%d0, H0⟩, ⟨%d1, H1⟩, ⟨%d2, H2⟩⟩
        iapply ((rF V c t h0 h1).2.2 _ Set.univ _)
        isplitl [H0]; · iexact H0
        isplitl [H1]; · iexists _; iexact H1
        isplitl [H2]; · iexact H2
        isplitl [HS]; · iexists _; iexact HS
        iintro ⟨H0, ⟨%e1, H1⟩, H2, ⟨%es, HS⟩⟩
        isplitl [HS Hoth Hg]
        · isplitl [HS Hoth]
          · isplitl [HS]
            · unfold owns; iexists _; isplitr
              swap; · iexact HS
              ipureintro; exact View.read_writes_of_cover _ _ _ _ _ (coverAccF V c t h0 h1)
            iexact Hoth
          iexact Hg
        isplitl [Ho]; · iexact Ho
        isplitl [H0]; · iexact H0
        isplitl [H1]
        · unfold owns; iexists _; isplitr
          swap; · iexact H1
          ipureintro; exact View.read_writes_of_cover _ _ _ _ _ (coverSigF V c t h0 h1)
        iexists _; iexact H2
  · have hz : t.val ≠ 0 := fun h => h0 (by rw [h])
    by_cases h1 : t.val % 4 = 3
    · rw [show (dat V c).leavesExact 2 t = owns (c : Thread nD τ) (mDinv t) fullShare ((dat V c).after 2 t) from by
        unfold Dat.leavesExact; rw [live_dinv t ((isLast_iff t).mpr h1)], after_dinv]
      rw [outsAt_last V c t h0 h1]
      (try dsimp only)
      rw [Phi_castSucc V c t, PhiS_pos V c _ _ hz]
      iintro ⟨⟨⟨HS, Hoth⟩, Hg⟩, Ho, ⟨%d0, H0⟩, ⟨%d1, H1⟩, ⟨%d2, H2⟩⟩
      iapply ((rL V c t h0 h1 _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverAccL V c t h0 h1 _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverSigL V c t h0 h1 _)
      unfold owns; iexists _; isplitr
      swap; · iexact H2
      ipureintro; exact View.read_writes_of_cover _ _ _ _ _ (coverDinvL V c t h0 h1 _)
    · rw [Dat.leavesExact_idle (dat V c) 2 t (idle_dinv t (fun h => h1 ((isLast_iff t).mp h))) (noflush_dinv t (fun h => h1 ((isLast_iff t).mp h)))]
      rw [outsAt_mid V c t h0 h1]
      (try dsimp only)
      rw [Phi_castSucc V c t, PhiS_pos V c _ _ hz]
      iintro ⟨⟨⟨HS, Hoth⟩, Hg⟩, Ho, ⟨%d0, H0⟩, ⟨%d1, H1⟩, ⟨%d2, H2⟩⟩
      iapply ((rM V c t h0 h1 _).2.2 _ Set.univ _)
      isplitl [H0]; · iexact H0
      isplitl [H1]; · iexists _; iexact H1
      isplitl [H2]; · iexact H2
      isplitl [HS]; · iexact HS
      iintro ⟨H0, ⟨%e1, H1⟩, H2, ⟨%es, HS⟩⟩
      isplitl [HS Hoth Hg]
      · isplitl [HS Hoth]
        · isplitl [HS]
          · unfold owns; iexists _; isplitr
            swap; · iexact HS
            ipureintro; exact View.read_writes_of_cover _ _ _ _ _ (coverAccM V c t h0 h1 _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverSigM V c t h0 h1 _)
      iexists _; iexact H2

/-- The body obligation at every point. -/
theorem body_obligation (c : Dev nD) : BodyObligation (dat (F := F) V c) (defs₀ (F := F)) Variants.none () Set.univ := fun t => by
  rw [bigSep_W0, bigSep_W0]
  exact sound_body V c t

/-- The region starts from the invariant of its kind. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives that back: the accumulator's contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat V c).Φ (Fin.last cfg0.N) ⊢ (Pipeline.ΦA spec0 c : sProp 𝕄) :=
  Phi_out V c _ (by rw [Fin.val_last]; have : cfg0.N = 32 := N_0; omega)

end Cert.KernelIdeal.Reg0

end
-- ==== Proof.KI_Reg1.lean ====
/-
  The second tiled call of the kernel (the linear map of the features, scaled row by row), at arbitrary entry
  contents V of the core's buffers: what each window's block is at a grid point, what the body leaves in the
  result window's buffer there (the one store's payload over the four blocks read), the body's triple, and the
  pipeline's proof data with its body obligation. Generic in the float interpretation.
-/
import proofs.«141990_j36206574305751_2_alg».proof.Proof.Gen.KernelIdeal.Launch
import proofs.«141990_j36206574305751_2_alg».proof.Proof.Gen.KernelIdeal.Skeleton
import proofs.«141990_j36206574305751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window w's block at point t, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched there
    (a window whose block index does not move still holds the block fetched earlier), for any proof data whose
    array is V's and whose body leaves the block in place. One statement per input window. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn0 : Rect S2048x200 := Rect.unit (s := S2048x200) ![0, 0] S2048x200.size inb_S2048x200_S2048x200_0_0
abbrev rIn1 : Rect S200x128 := Rect.unit (s := S200x128) ![0, 0] S200x128.size inb_S200x128_S200x128_0_0
abbrev rIn2 : Rect S1x128 := Rect.unit (s := S1x128) ![0, 0] S1x128.size inb_S1x128_S1x128_0_0
abbrev rIn3 : Rect S2048x1 := Rect.unit (s := S2048x1) ![0, 0] S2048x1.size inb_S2048x1_S2048x1_0_0
abbrev rOut : Rect S2048x128 := Rect.unit (s := S2048x128) ![0, 0] S2048x128.size inb_S2048x128_S2048x128_0_0

/-! ## What the body leaves in the result window's buffer -/

/-- The result window's staging buffer after the body, from the four input blocks: its one store. -/
def outBlock (x0 : Vec F S2048x200 .f32) (x1 : Vec F S200x128 .f32) (x2 : Vec F S1x128 .f32) (x3 : Vec F S2048x1 .f32) : Vec F S2048x128 .f32 :=
  View.canon [⟨rOut, k1_pay1 (View.ld x0 rIn0) (View.ld x1 rIn1) (View.ld x2 rIn2) (View.ld x3 rIn3)⟩]

/-- The one store is the whole buffer, so it covers it. -/
theorem cover_out (p0 : Vec F S2048x128 .f32) (y : S2048x128.Idx) :
    ∃ pc ∈ ([⟨rOut, p0⟩] : List (View.Piece (Elt F) S2048x128 .f32)), y ∈ pc.1.set :=
  View.cover_of_tiled [⟨rOut, p0⟩] S2048x128.size (by rfl) y

/-! ## The body's triple -/

set_option maxHeartbeats 1000000 in
/-- The body on whole staging memrefs, the inputs' at read contents and the result's at anything, runs to the
    continuation holding the inputs' as they were and the result's at outBlock of the inputs'. -/
theorem sound_kernel (c : Dev nD) (E : Set ℕ) (i : grid1.Coords)
    (a0 : Memref sig .tc .vmem S2048x200 .f32) (ha0 : a0.IsWhole) (a1 : Memref sig .tc .vmem S200x128 .f32) (ha1 : a1.IsWhole)
    (a2 : Memref sig .tc .vmem S1x128 .f32) (ha2 : a2.IsWhole) (a3 : Memref sig .tc .vmem S2048x1 .f32) (ha3 : a3.IsWhole)
    (a4 : Memref sig .tc .vmem S2048x128 .f32) (ha4 : a4.IsWhole)
    (x0 : Vec F S2048x200 .f32) (x1 : Vec F S200x128 .f32) (x2 : Vec F S1x128 .f32) (x3 : Vec F S2048x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (outBlock x0 x1 x2 x3)) -∗ K ⟨⟩))
      ⊢ wp frame (wpE (defs₀ (F := F)) Variants.none c none) E (cc1__hw_kernel i a0 ha0 a1 ha1 a2 ha2 a3 ha3 a4 ha4) K := by
  simp only [cc1__hw_kernel_eq_skeleton]; unfold cc1__hw_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the call on core c: the arrays as the call finds them; after the body at point t each
    input's buffer at its block and the result's at outBlock of the four input blocks; the invariant of a call
    that touches nothing else; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outBlock (iblk V c 0 t) (iblk V c 1 t) (iblk V c 2 t) (iblk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_out (c : Dev nD) (t : Fin cfg1.N) :
    (dat V c).after 4 t = outBlock (iblk V c 0 t) (iblk V c 1 t) (iblk V c 2 t) (iblk V c 3 t) := by dsimp only [dat]

theorem before_in0 (c : Dev nD) (t : Fin cfg1.N) (d) : (dat V c).before 0 t d = iblk V c 0 t :=
  before_of_0 V (dat V c) (A_eq V c 0) (after_in0 V c) t d
theorem before_in1 (c : Dev nD) (t : Fin cfg1.N) (d) : (dat V c).before 1 t d = iblk V c 1 t :=
  before_of_1 V (dat V c) (A_eq V c 1) (after_in1 V c) t d
theorem before_in2 (c : Dev nD) (t : Fin cfg1.N) (d) : (dat V c).before 2 t d = iblk V c 2 t :=
  before_of_2 V (dat V c) (A_eq V c 2) (after_in2 V c) t d
theorem before_in3 (c : Dev nD) (t : Fin cfg1.N) (d) : (dat V c).before 3 t d = iblk V c 3 t :=
  before_of_3 V (dat V c) (A_eq V c 3) (after_in3 V c) t d

/-! ## The body obligation -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks, so the body's triple applies; the invariant and
    what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3]
  rw [show (dat V c).Φ t.succ = (dat V c).Φ t.castSucc from rfl,
    show (dat V c).owesAt () t.succ = (dat V c).owesAt () t.castSucc from rfl,
    after_in0, after_in1, after_in2, after_in3, after_out]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Reg1

end
-- ==== Proof.KI_Reg2Runs.lean ====
/-
  Region 2 of the layer (the aggregation A_sig · HW_scaled, accumulated over four column blocks into a
  carried accumulator and finished with the row scaling and the leaky rectifier): what the three
  control cases of its body share. The body's two conditionals in closed form over the 4 x 4 grid, where
  the result window is idle, the staging and scratch memrefs the body is called with, each window's block
  read off the arrays the region finds, and the region invariant split into the accumulator, the other
  scoped buffers and the generator register.
-/
import proofs.«141990_j36206574305751_2_alg».proof.Proof.Gen.KernelIdeal.Launch
import proofs.«141990_j36206574305751_2_alg».proof.Proof.Gen.KernelIdeal.Skeleton
import proofs.«141990_j36206574305751_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid -/

/-- The first conditional (the accumulator is zeroed): the column-block coordinate is 0. -/
abbrev condFirst (i : grid2.Coords) : Prop :=
  (Scalar.cmpi .ne (Scalar.extui (Scalar.cmpi .eq (BitVec.ofNat 32 (i 1).val) 0#32)) 0#32) = 1#1
/-- It holds exactly at the points 4 i + 0. -/
theorem condFirst_iff : ∀ t : Fin cfg2.N, condFirst (grid2.coords t) ↔ t.val % 4 = 0 :=
  (by decide +kernel : ∀ t : Fin grid2.N, condFirst (grid2.coords t) ↔ t.val % 4 = 0)

/-- The second conditional (the result block is written): the column-block coordinate is 3. -/
abbrev condLast (i : grid2.Coords) : Prop := k2_cond2 i = 1#1
/-- It holds exactly at the points 4 i + 3. -/
theorem condLast_iff : ∀ t : Fin cfg2.N, condLast (grid2.coords t) ↔ t.val % 4 = 3 :=
  (by decide +kernel : ∀ t : Fin grid2.N, condLast (grid2.coords t) ↔ t.val % 4 = 3)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Away from the last column block the result window is idle and is not written back. -/
theorem idle_3 : ∀ t : Fin cfg2.N, ¬condLast (grid2.coords t) → cfg2.idle 3 (grid2.coords t) = true := by decide +kernel
theorem noFlush_3 : ∀ t : Fin cfg2.N, ¬condLast (grid2.coords t) → (cfg2.win 3).flush t = false := by decide +kernel
/-- At the last column block it is live. -/
theorem live_3 : ∀ t : Fin cfg2.N, condLast (grid2.coords t) → cfg2.idle 3 (grid2.coords t) = false := by decide +kernel

/-! ## The memrefs the body is called with -/

/-- One staging buffer of the result window, through which its contents are stated. -/
abbrev VO : View sig .tc .vmem S2048x128 .f32 := (Memref.whole cc2_stg3_0 : Memref sig .tc .vmem S2048x128 .f32).view
abbrev ms0 (t : Fin cfg2.N) : Memref sig .tc .vmem S2048x2048 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S8192x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S2048x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)
/-- The accumulator: a whole scoped buffer of the kernel's own, carried from point to point. -/
abbrev scM : Memref sig .tc .vmem S2048x128 .f32 := Memref.whole cc2_scratch0
abbrev VS : View sig .tc .vmem S2048x128 .f32 := scM.view

/-! ## The region invariant, split -/

/-- The scoped buffers of the core that are neither a staging buffer of this region nor its accumulator, each at
    some contents: never opened here. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The invariant the launch hands the region: the accumulator at some contents, the other scoped buffers, and the
    generator register at some state. -/
theorem PhiA_eq (c : Dev nD) :
    (Pipeline.ΦA spec2 c : sProp 𝕄)
      = iprop(iprop((∃ d, owns (c : Thread nD τ) scM fullShare d) ∗ others c) ∗ (∃ r, prngReg c r)) := by
  unfold Pipeline.ΦA; rw [scopedRest2_eq]; simp only [scM, owns_whole]
  refine congrArg (fun X : sProp 𝕄 => iprop(X ∗ (∃ r, prngReg c r))) ?_
  unfold others
  refine BI.equiv_iff.mp ⟨?_, ?_⟩
  · show (_ : sProp 𝕄) ⊢ (_ : sProp 𝕄)
    iintro ⟨B0, B1, B2, B3, B4, B5, B6, B7, B8, B9, B10, B11, B12, B13, B14, HS⟩
    isplitl [HS]; · iexact HS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  · show (_ : sProp 𝕄) ⊢ (_ : sProp 𝕄)
    iintro ⟨HS, B0, B1, B2, B3, B4, B5, B6, B7, B8, B9, B10, B11, B12, B13, B14⟩
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact HS

section
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched, its
    block index has not moved. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

end

end Cert.KernelIdeal.Reg2

end
-- ==== Proof.KI_Reg2RunA.lean ====
/-
  Region 2, the body's run at a first column block (the accumulator is zeroed, then the block's product added; the result window untouched).
-/
import proofs.«141990_j36206574305751_2_alg».proof.Proof.KI_Reg2Runs
set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the result's staging memref and in the accumulator in this case (last
    first), with the proof that on whole memrefs — the three inputs at their contents — the body runs to the
    continuation holding the inputs as they were and each buffer it stored into with its pieces written. -/
noncomputable def kernelRun_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) :
    Σ' (L3 : List (View.Piece (Elt F) S2048x128 .f32)), { LS : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__main_kernel i arg2 harg2 arg3 harg3 arg4 harg4 arg5 harg5 arg6 harg6) K } := by
  refine ⟨[], ?_, fun xi3 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg2

end
-- ==== Proof.KI_Reg2RunB.lean ====
/-
  Region 2, the body's run at a middle column block (the block's product added to the accumulator; the result window untouched).
-/
import proofs.«141990_j36206574305751_2_alg».proof.Proof.KI_Reg2RunA
set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the result's staging memref and in the accumulator in this case (last
    first), with the proof that on whole memrefs — the three inputs at their contents — the body runs to the
    continuation holding the inputs as they were and each buffer it stored into with its pieces written. -/
noncomputable def kernelRun_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) :
    Σ' (L3 : List (View.Piece (Elt F) S2048x128 .f32)), { LS : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__main_kernel i arg2 harg2 arg3 harg3 arg4 harg4 arg5 harg5 arg6 harg6) K } := by
  refine ⟨[], ?_, fun xi3 E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Reg2

end
-- ==== Proof.KI_Reg2RunC.lean ====
/-
  Region 2, the body's run at the last column block (the block's product added to the accumulator, then the accumulator scaled by the row factor and passed through the leaky rectifier into the result window).
-/
import proofs.«141990_j36206574305751_2_alg».proof.Proof.KI_Reg2RunB
set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the result's staging memref and in the accumulator in this case (last
    first), with the proof that on whole memrefs — the three inputs at their contents — the body runs to the
    continuation holding the inputs as they were and each buffer it stored into with its pieces written. -/
noncomputable def kernelRun_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) :
    Σ' (L3 : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__main_kernel i arg2 harg2 arg3 harg3 arg4 harg4 arg5 harg5 arg6 harg6) K } := by
  refine ⟨?_, ?_, fun E K => ?run⟩
  case run =>
    simp only [cc2__main_kernel_eq_skeleton]; unfold cc2__main_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Reg2

end
-- ==== Proof.KI_Reg2.lean ====
/-
  Region 2 of the layer: what the accumulator and the result's staging buffer hold after each of the sixteen
  points (the case the point is in, run on what the point before left in the accumulator), the proof data of
  the pipeline at the arrays the region finds, and the body obligation at a generic point: the three inputs'
  staging buffers hold their blocks; the closed forms of the two conditionals select the case; the invariant
  hands the body the accumulator at what the point before left (at anything before a first column block) and
  takes it back at this point's contents.
-/
import proofs.«141990_j36206574305751_2_alg».proof.Proof.KI_Reg2RunC
set_option maxRecDepth 16384

noncomputable section

namespace Cert.KernelIdeal.Reg2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- What case A leaves in the result's staging buffer: its pieces read back over junk (there are none: a placeholder nothing consults, the window being idle there). -/
def out_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) : Vec F S2048x128 .f32 :=
  VO.read (Elt F) (VO.writes (Elt F) VO.junk (kernelRun_A c i arg2 harg2 arg3 harg3 arg4 harg4 arg5 harg5 arg6 harg6 hc0 hc1 x0 x1 x2).1)

/-- Case A's stores into the accumulator tile it, so they cover it. -/
theorem scover_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) (y : S2048x128.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S2048x128.size (by sl_kernel_rfl) y

/-- What case A leaves in the accumulator: its pieces read back over junk. -/
def sout_A (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) : Vec F S2048x128 .f32 :=
  VS.read (Elt F) (VS.writes (Elt F) VS.junk (kernelRun_A c i arg2 harg2 arg3 harg3 arg4 harg4 arg5 harg5 arg6 harg6 hc0 hc1 x0 x1 x2).2.1)

/-- What case B leaves in the result's staging buffer: its pieces read back over junk (there are none: a placeholder nothing consults, the window being idle there). -/
def out_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) : Vec F S2048x128 .f32 :=
  VO.read (Elt F) (VO.writes (Elt F) VO.junk (kernelRun_B c i arg2 harg2 arg3 harg3 arg4 harg4 arg5 harg5 arg6 harg6 hc0 hc1 x0 x1 x2 xs).1)

/-- Case B's stores into the accumulator tile it, so they cover it. -/
theorem scover_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) (y : S2048x128.Idx) :
    ∃ pc ∈ (kernelRun_B c i arg2 harg2 arg3 harg3 arg4 harg4 arg5 harg5 arg6 harg6 hc0 hc1 x0 x1 x2 xs).2.1, y ∈ pc.1.set :=
  View.cover_of_tiledL (kernelRun_B c i arg2 harg2 arg3 harg3 arg4 harg4 arg5 harg5 arg6 harg6 hc0 hc1 x0 x1 x2 xs).2.1 S2048x128.size (by sl_kernel_rfl) y

/-- What case B leaves in the accumulator: its pieces read back over junk. -/
def sout_B (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) : Vec F S2048x128 .f32 :=
  VS.read (Elt F) (VS.writes (Elt F) VS.junk (kernelRun_B c i arg2 harg2 arg3 harg3 arg4 harg4 arg5 harg5 arg6 harg6 hc0 hc1 x0 x1 x2 xs).2.1)

/-- The stores of the last case into the result's staging memref tile it, so they cover it. -/
theorem cover_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) (y : S2048x128.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S2048x128.size (by sl_kernel_rfl) y

/-- What case C leaves in the result's staging buffer: its pieces read back over junk. -/
def out_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) : Vec F S2048x128 .f32 :=
  VO.read (Elt F) (VO.writes (Elt F) VO.junk (kernelRun_C c i arg2 harg2 arg3 harg3 arg4 harg4 arg5 harg5 arg6 harg6 hc0 hc1 x0 x1 x2 xs).1)

/-- Case C's stores into the accumulator tile it, so they cover it. -/
theorem scover_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) (y : S2048x128.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S2048x128.size (by sl_kernel_rfl) y

/-- What case C leaves in the accumulator: its pieces read back over junk. -/
def sout_C (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) : Vec F S2048x128 .f32 :=
  VS.read (Elt F) (VS.writes (Elt F) VS.junk (kernelRun_C c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## What the buffers hold after each point -/

/-- The result's staging buffer and the accumulator after the body at position `n`: the case the closed forms
    select there, run at the point's memrefs and input blocks, on what the point before left in the accumulator. -/
def outsAt (c : Dev nD) : (n : ℕ) → n < cfg2.N → Vec F S2048x128 .f32 × Vec F S2048x128 .f32
  | 0, hn => (out_A c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩), sout_A c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((condFirst_iff ⟨0, hn⟩).mpr (Nat.zero_mod _)) (fun h => (fun h => by (try dsimp only at h); omega) ((condLast_iff ⟨0, hn⟩).mp h)) (iblk V c 0 ⟨0, hn⟩) (iblk V c 1 ⟨0, hn⟩) (iblk V c 2 ⟨0, hn⟩))
  | n + 1, hn =>
    if h0 : (n + 1) % 4 = 0 then
      if h1 : (n + 1) % 4 = 3 then
        False.elim (by omega)
      else
        (out_A c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩), sout_A c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((condFirst_iff ⟨n + 1, hn⟩).mpr h0) (fun h => h1 ((condLast_iff ⟨n + 1, hn⟩).mp h)) (iblk V c 0 ⟨n + 1, hn⟩) (iblk V c 1 ⟨n + 1, hn⟩) (iblk V c 2 ⟨n + 1, hn⟩))
    else
      if h1 : (n + 1) % 4 = 3 then
        (out_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2, sout_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) ((condLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (out_B c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (outsAt c n (Nat.lt_of_succ_lt hn)).2, sout_B c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((condFirst_iff ⟨n + 1, hn⟩).mp h)) (fun h => h1 ((condLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg2.N) (h0 : t.val % 4 = 0) (h1 : ¬t.val % 4 = 3) :
    outsAt V c t.val t.isLt = (out_A c (grid2.coords t) (ms0 t) (hs0 t) (ms1 t) (hs1 t) (ms2 t) (hs2 t) (ms3 t) (hs3 t) scM (Memref.isWhole_whole _) ((condFirst_iff t).mpr h0) (fun h => h1 ((condLast_iff t).mp h)) (iblk V c 0 t) (iblk V c 1 t) (iblk V c 2 t), sout_A c (grid2.coords t) (ms0 t) (hs0 t) (ms1 t) (hs1 t) (ms2 t) (hs2 t) (ms3 t) (hs3 t) scM (Memref.isWhole_whole _) ((condFirst_iff t).mpr h0) (fun h => h1 ((condLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (out_B c (grid2.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk V c 0 t) (iblk V c 1 t) (iblk V c 2 t) (outsAt V c (t.val - 1) (Nat.lt_of_le_of_lt (Nat.sub_le _ _) t.isLt)).2, sout_B c (grid2.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 4 = 0) (h1 : t.val % 4 = 3) :
    outsAt V c t.val t.isLt = (out_C c (grid2.coords t) (ms0 t) (hs0 t) (ms1 t) (hs1 t) (ms2 t) (hs2 t) (ms3 t) (hs3 t) scM (Memref.isWhole_whole _) (fun h => h0 ((condFirst_iff t).mp h)) ((condLast_iff t).mpr h1) (iblk V c 0 t) (iblk V c 1 t) (iblk V c 2 t) (outsAt V c (t.val - 1) (Nat.lt_of_le_of_lt (Nat.sub_le _ _) t.isLt)).2, sout_C c (grid2.coords t) (ms0 t) (hs0 t) (ms1 t) (hs1 t) (ms2 t) (hs2 t) (ms3 t) (hs3 t) scM (Memref.isWhole_whole _) (fun h => h0 ((condFirst_iff t).mp h)) ((condLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over; afterwards the
    accumulator at what the point before left in it, the other scoped buffers, the generator register. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ others c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare ((outsAt V c n hn).2) ∗ others c) ∗ (∃ r, prngReg c r)) := rfl

theorem PhiS_pos (c : Dev nD) (n : ℕ) (h : n ≤ cfg2.N) (hz : n ≠ 0) :
    PhiS V c n h = iprop(iprop(owns (c : Thread nD τ) scM fullShare ((outsAt V c (n - 1) (by omega)).2) ∗ others c) ∗ (∃ r, prngReg c r)) := by
  cases n with
  | zero => exact absurd rfl hz
  | succ n => rfl

/-! ## The pipeline's proof data -/

/-- The arrays as the region finds them; after the body at point `t` each input's buffer at its block and the
    result's at `outsAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_in0_of V (dat V c) (A_eq V c 0) (after_0 V c) t d
theorem before_1 (c : Dev nD) (t : Fin cfg2.N) (d) : (dat V c).before 1 t d = iblk V c 1 t :=
  before_in1_of V (dat V c) (A_eq V c 1) (after_1 V c) t d
theorem before_2 (c : Dev nD) (t : Fin cfg2.N) (d) : (dat V c).before 2 t d = iblk V c 2 t :=
  before_in2_of V (dat V c) (A_eq V c 2) (after_2 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg2.N = 16 from N_2)
  by_cases h0 : t.val % 4 = 0
  · by_cases h1 : t.val % 4 = 3
    · exfalso; omega
    · have hc0 : condFirst (grid2.coords t) := (condFirst_iff t).mpr h0
      have hc1 : ¬condLast (grid2.coords t) := fun h => h1 ((condLast_iff t).mp h)
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [Dat.leavesExact_idle (dat V c) 3 t (idle_3 t hc1) (noFlush_3 t hc1)]
      rw [outsAt_A V c t h0 h1]
      unfold sout_A; (try dsimp only)
      by_cases hz : t.val = 0
      · rw [PhiS_castSucc V c t, PhiS_zero V c _ _ hz, PhiA_eq]
        iintro ⟨⟨⟨HS, HB⟩, Hg⟩, Ho, ⟨%d0, H0⟩, ⟨%d1, H1⟩, ⟨%d2, H2⟩, ⟨%d3, H3⟩⟩
        iapply ((kernelRun_A c (grid2.coords t) _ _ _ _ _ _ _ _ _ _ hc0 hc1 (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HB Hg]
        · isplitl [HS HB]
          · isplitl [HS]
            · unfold owns; iexists _; isplitr
              swap; · iexact HS
              ipureintro; exact View.read_writes_of_cover _ _ _ _ _ (scover_A c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, HB⟩, Hg⟩, Ho, ⟨%d0, H0⟩, ⟨%d1, H1⟩, ⟨%d2, H2⟩, ⟨%d3, H3⟩⟩
        iapply ((kernelRun_A c (grid2.coords t) _ _ _ _ _ _ _ _ _ _ hc0 hc1 (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HB Hg]
        · isplitl [HS HB]
          · isplitl [HS]
            · unfold owns; iexists _; isplitr
              swap; · iexact HS
              ipureintro; exact View.read_writes_of_cover _ _ _ _ _ (scover_A c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3
  · by_cases h1 : t.val % 4 = 3
    · have hc0 : ¬condFirst (grid2.coords t) := fun h => h0 ((condFirst_iff t).mp h)
      have hc1 : condLast (grid2.coords t) := (condLast_iff t).mpr h1
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [show (dat V c).leavesExact 3 t = owns (c : Thread nD τ) (ms3 t) fullShare ((dat V c).after 3 t) from by
        unfold Dat.leavesExact; rw [live_3 t hc1], after_3]
      rw [outsAt_C V c t h0 h1]
      unfold out_C sout_C; (try dsimp only)
      have hz : t.val ≠ 0 := by omega
      · rw [PhiS_castSucc V c t, PhiS_pos V c _ _ hz]
        iintro ⟨⟨⟨HS, HB⟩, Hg⟩, Ho, ⟨%d0, H0⟩, ⟨%d1, H1⟩, ⟨%d2, H2⟩, ⟨%d3, H3⟩⟩
        iapply ((kernelRun_C c (grid2.coords t) _ _ _ _ _ _ _ _ _ _ hc0 hc1 (iblk V c 0 t) (iblk V c 1 t) (iblk V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HB Hg]
        · isplitl [HS HB]
          · isplitl [HS]
            · unfold owns; iexists _; isplitr
              swap; · iexact HS
              ipureintro; exact View.read_writes_of_cover _ _ _ _ _ (scover_C c _ _ _ _ _ _ _ _ _ _ _ _ _ _ _ _ _)
            iexact HB
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C c _ _ _ _ _ _ _ _ _ _ _ _ _ _ _ _ _)
    · have hc0 : ¬condFirst (grid2.coords t) := fun h => h0 ((condFirst_iff t).mp h)
      have hc1 : ¬condLast (grid2.coords t) := fun h => h1 ((condLast_iff t).mp h)
      rw [show (dat V c).leavesExact 0 t = owns (c : Thread nD τ) (ms0 t) fullShare ((dat V c).after 0 t) from by
        unfold Dat.leavesExact; rw [live_0 t], after_0]
      rw [show (dat V c).leavesExact 1 t = owns (c : Thread nD τ) (ms1 t) fullShare ((dat V c).after 1 t) from by
        unfold Dat.leavesExact; rw [live_1 t], after_1]
      rw [show (dat V c).leavesExact 2 t = owns (c : Thread nD τ) (ms2 t) fullShare ((dat V c).after 2 t) from by
        unfold Dat.leavesExact; rw [live_2 t], after_2]
      rw [Dat.leavesExact_idle (dat V c) 3 t (idle_3 t hc1) (noFlush_3 t hc1)]
      rw [outsAt_B V c t h0 h1]
      unfold sout_B; (try dsimp only)
      have hz : t.val ≠ 0 := by omega
      · rw [PhiS_castSucc V c t, PhiS_pos V c _ _ hz]
        iintro ⟨⟨⟨HS, HB⟩, Hg⟩, Ho, ⟨%d0, H0⟩, ⟨%d1, H1⟩, ⟨%d2, H2⟩, ⟨%d3, H3⟩⟩
        iapply ((kernelRun_B c (grid2.coords t) _ _ _ _ _ _ _ _ _ _ hc0 hc1 (iblk V c 0 t) (iblk V c 1 t) (iblk V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HB Hg]
        · isplitl [HS HB]
          · isplitl [HS]
            · unfold owns; iexists _; isplitr
              swap; · iexact HS
              ipureintro; exact View.read_writes_of_cover _ _ _ _ _ (scover_B c _ _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  iintro ⟨⟨HS, HB⟩, Hg⟩
  isplitl [HS HB]
  · isplitl [HS]
    · iexists _; iexact HS
    iexact HB
  iexact Hg

theorem hout (c : Dev nD) : (dat V c).Φ (Fin.last cfg2.N) ⊢ (Pipeline.ΦA spec2 c : sProp 𝕄) :=
  Phi_out V c _ (by rw [Fin.val_last]; have : cfg2.N = 16 := N_2; omega)

end

end Cert.KernelIdeal.Reg2

end
-- ==== Proof.KI_Run.lean ====
/-
  The three tiled computations run one after the other: what every unscoped buffer of a core holds at each
  boundary of @main — at launch, after the row-sum kernel, after the bias is re-laid as a row, after the scaled
  linear map, after the aggregation — and that every weakly fair execution of @main terminates with every such
  buffer at the last boundary's contents.

  Each boundary's contents are the one before with the arrays of the region in between replaced by what its
  write-backs leave (a host operation in between replacing its own result). No item writes an argument array,
  so the arguments are read back through the boundaries to the launch memory.
-/
import proofs.«141990_j36206574305751_2_alg».proof.Proof.KI_Reg0
import proofs.«141990_j36206574305751_2_alg».proof.Proof.KI_Reg1
import proofs.«141990_j36206574305751_2_alg».proof.Proof.KI_Reg2
import proofs.«141990_j36206574305751_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references: what the row-sum kernel is entered from. -/
abbrev E0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (Reg0.dat (E0 m ρ) c).arrAt w cfg0.N
theorem W1_arr (c : Dev nD) (w : Fin cfg0.W) :
    W1 m ρ c (Proc.devRef .tc (Pipeline.arrRef spec0 w)) = (Reg0.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev X0 : (c : Dev nD) → (b : Ref sig .tc) → Buf (Elt F) ((c : Thread nD τ).loc b) := fun c b => W1 m ρ c b
theorem hF0 (c : Dev nD) (w : Fin cfg0.W) : (Reg0.dat (E0 m ρ) c).arrAt w cfg0.N = X0 m ρ c (Pipeline.arrRef spec0 w) :=
  (W1_arr m ρ c w).symm
theorem hrest0 (c : Dev nD) : ∀ b, b ∉ Finset.univ.image (Pipeline.arrRef spec0) → X0 m ρ c b = E0 m ρ c b :=
  fun b hb => W1_of_ne m ρ c b fun w e => hb (Finset.mem_image.mpr ⟨w, Finset.mem_univ _, e⟩)

/-- After the bias is re-laid as a row. -/
abbrev W2 : Dev nD → Valuation τ sig (Elt F) := fun c => StableHlo.after hostOps1 (W1 m ρ c)
/-- What the scaled linear map is entered from. -/
abbrev E1 : (c : Dev nD) → (b : Ref sig .tc) → Buf (Elt F) ((c : Thread nD τ).loc b) := fun c b => W2 m ρ c b

/-- At region 1's exit: its arrays at what the pipeline leaves, every other buffer as entered. -/
def W3 (c : Dev nD) : Valuation τ sig (Elt F) :=
  Pipeline.withArrays spec1 c (W2 m ρ c) fun w => (Reg1.dat (E1 m ρ) c).arrAt w cfg1.N
theorem W3_arr (c : Dev nD) (w : Fin cfg1.W) :
    W3 m ρ c (Proc.devRef .tc (Pipeline.arrRef spec1 w)) = (Reg1.dat (E1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev X1 : (c : Dev nD) → (b : Ref sig .tc) → Buf (Elt F) ((c : Thread nD τ).loc b) := fun c b => W3 m ρ c b
theorem hF1 (c : Dev nD) (w : Fin cfg1.W) : (Reg1.dat (E1 m ρ) c).arrAt w cfg1.N = X1 m ρ c (Pipeline.arrRef spec1 w) :=
  (W3_arr m ρ c w).symm
theorem hrest1 (c : Dev nD) : ∀ b, b ∉ Finset.univ.image (Pipeline.arrRef spec1) → X1 m ρ c b = E1 m ρ c b :=
  fun b hb => W3_of_ne m ρ c b fun w e => hb (Finset.mem_image.mpr ⟨w, Finset.mem_univ _, e⟩)

/-- What the aggregation is entered from. -/
abbrev E2 : (c : Dev nD) → (b : Ref sig .tc) → Buf (Elt F) ((c : Thread nD τ).loc b) := fun c b => W3 m ρ c b

/-- At region 2's exit: its arrays at what the pipeline leaves, every other buffer as entered. -/
def W4 (c : Dev nD) : Valuation τ sig (Elt F) :=
  Pipeline.withArrays spec2 c (W3 m ρ c) fun w => (Reg2.dat (E2 m ρ) c).arrAt w cfg2.N
theorem W4_arr (c : Dev nD) (w : Fin cfg2.W) :
    W4 m ρ c (Proc.devRef .tc (Pipeline.arrRef spec2 w)) = (Reg2.dat (E2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev X2 : (c : Dev nD) → (b : Ref sig .tc) → Buf (Elt F) ((c : Thread nD τ).loc b) := fun c b => W4 m ρ c b
theorem hF2 (c : Dev nD) (w : Fin cfg2.W) : (Reg2.dat (E2 m ρ) c).arrAt w cfg2.N = X2 m ρ c (Pipeline.arrRef spec2 w) :=
  (W4_arr m ρ c w).symm
theorem hrest2 (c : Dev nD) : ∀ b, b ∉ Finset.univ.image (Pipeline.arrRef spec2) → X2 m ρ c b = E2 m ρ c b :=
  fun b hb => W4_of_ne m ρ c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Reg0.dat (E0 m ρ) c
  | ⟨1, _⟩ => fun c => Reg1.dat (E1 m ρ) c
  | ⟨2, _⟩ => fun c => Reg2.dat (E2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W0`, left at `W1`. Its arrays are split
    out of the unscoped buffers and put back at what the pipeline leaves; the generator register and the scoped rest go
    into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec0 c : sProp 𝕄) ⊢ (pdats m ρ 0 c).Φ 0 from Reg0.hin (E0 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (show (pdats m ρ 0 c).Φ (Fin.last _) ⊢ (Pipeline.ΦA spec0 c : sProp 𝕄) from Reg0.hout (E0 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W2`, left at `W3`. Its arrays are split
    out of the unscoped buffers and put back at what the pipeline leaves; the generator register and the scoped rest go
    into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (E1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec1 c : sProp 𝕄) ⊢ (pdats m ρ 1 c).Φ 0 from BI.Entails.refl _)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (show (pdats m ρ 1 c).Φ (Fin.last _) ⊢ (Pipeline.ΦA spec1 c : sProp 𝕄) from BI.Entails.refl _) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W3`, left at `W4`. Its arrays are split
    out of the unscoped buffers and put back at what the pipeline leaves; the generator register and the scoped rest go
    into the region's invariant and come back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (E2 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show (Pipeline.ΦA spec2 c : sProp 𝕄) ⊢ (pdats m ρ 2 c).Φ 0 from Reg2.hin (E2 m ρ) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (show (pdats m ρ 2 c).Φ (Fin.last _) ⊢ (Pipeline.ΦA spec2 c : sProp 𝕄) from Reg2.hout (E2 m ρ) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ) ]

theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 0).trans (((Reg1.dat (E1 m ρ) c).arrAt_in 0 rfl _).trans (Reg1.A_eq (E1 m ρ) c 0))
    _ = W1 m ρ c (Proc.devRef .tc main_arg0) := (StableHlo.after_of_writes_sub hostOps1 (W1 m ρ c) hostOps1_writes (by decide : main_arg0 ∉ hostOps1_W))
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (StableHlo.after_of_writes_sub hostOps1 (W1 m ρ c) hostOps1_writes (by decide : main_arg1 ∉ hostOps1_W))
    _ = W0 m ρ c (Proc.devRef .tc main_arg1) := (W1_arr m ρ c 0).trans (((Reg0.dat (E0 m ρ) c).arrAt_in 0 rfl _).trans (Reg0.A_eq (E0 m ρ) c 0))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 1).trans (((Reg1.dat (E1 m ρ) c).arrAt_in 1 rfl _).trans (Reg1.A_eq (E1 m ρ) c 1))
    _ = W1 m ρ c (Proc.devRef .tc main_arg2) := (StableHlo.after_of_writes_sub hostOps1 (W1 m ρ c) hostOps1_writes (by decide : main_arg2 ∉ hostOps1_W))
    _ = W0 m ρ c (Proc.devRef .tc main_arg2) := W1_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (StableHlo.after_of_writes_sub hostOps1 (W1 m ρ c) hostOps1_writes (by decide : main_arg3 ∉ hostOps1_W))
    _ = W0 m ρ c (Proc.devRef .tc main_arg3) := W1_of_ne m ρ c main_arg3 (by decide)
    _ = m ((c : Thread nD τ).loc main_arg3) := rfl

/-- The frame: every weakly fair execution terminates, nothing faulting, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Run

end
-- ==== Proof.Spec.lean ====
/-
  The layer's result as a function of the four argument arrays, over the extended reals, written in the
  order the tiled computation forms it.

  With `s = max (1 / (1 + e^(-a))) 0.1` entrywise (the clamped sigmoid of the adjacency entries), a row's
  sum is gathered over four column blocks of width 2048 from zero, `d i` is the reciprocal square root of row
  `i`'s sum, `hw = H · W + b`, and the aggregate of row `i` at feature `n` is
  `(Σ_k s i k · (hw k n · d k)) · d i`, the inner sum again gathered block by block from zero. The
  result is that aggregate through the leaky rectifier with slope `f32 0.01`.
-/
import Idealize.ShloMosaic.PureOps.Ideal
import Idealize.ShloMosaic.PureOps.Ideal.Laws
import Idealize.ShloMosaic.Lib.ValueIdx

noncomputable section

namespace Cert.GcnSpec

open Idealize.ShloMosaic

/-- The lower clamp, the f32 literal nearest 0.1. -/
def clampLo : EReal := Ideal.ofBits .f32 0x3DCCCCCD#32

/-- The rectifier's slope below zero, the f32 literal nearest 0.01. -/
def slope : EReal := Ideal.ofBits .f32 0x3C23D70A#32

/-- The clamped sigmoid of one entry. -/
def sg (a : EReal) : EReal := max (Ideal.logistic a) clampLo

/-- Column `2048 t + q`: place `q` of column block `t`. -/
def col (t : Fin 4) (q : Fin 2048) : Fin 8192 := ⟨2048 * t.val + q.val, by omega⟩

/-- Four block contributions gathered in order from zero: `upTo m k` is `((0 + m 0) + …) + m (k-1)`. -/
def upTo (m : Fin 4 → EReal) : ℕ → EReal
  | 0 => 0
  | k + 1 => upTo m k + (if h : k < 4 then m ⟨k, h⟩ else 0)

/-- Column block `t`'s share of row `i`'s sum of clamped sigmoids. -/
def rowPart (A : Fin 8192 → Fin 8192 → EReal) (i : Fin 8192) (t : Fin 4) : EReal :=
  ∑ q : Fin 2048, sg (A i (col t q))

/-- The reciprocal square root of row `i`'s sum. -/
def dinv (A : Fin 8192 → Fin 8192 → EReal) (i : Fin 8192) : EReal :=
  Ideal.rsqrt (upTo (rowPart A i) 4)

/-- The linear map of the features: `H · W + b`. -/
def hw (H : Fin 8192 → Fin 200 → EReal) (W : Fin 200 → Fin 128 → EReal) (b : Fin 128 → EReal)
    (k : Fin 8192) (n : Fin 128) : EReal :=
  (∑ l : Fin 200, H k l * W l n) + b n

/-- The same with row `k` scaled by `d k`. -/
def hws (A : Fin 8192 → Fin 8192 → EReal) (H : Fin 8192 → Fin 200 → EReal) (W : Fin 200 → Fin 128 → EReal)
    (b : Fin 128 → EReal) (k : Fin 8192) (n : Fin 128) : EReal :=
  hw H W b k n * dinv A k

/-- Column block `t`'s share of the aggregate of row `i` at feature `n`. -/
def aggPart (A : Fin 8192 → Fin 8192 → EReal) (H : Fin 8192 → Fin 200 → EReal) (W : Fin 200 → Fin 128 → EReal)
    (b : Fin 128 → EReal) (i : Fin 8192) (n : Fin 128) (t : Fin 4) : EReal :=
  ∑ q : Fin 2048, sg (A i (col t q)) * hws A H W b (col t q) n

/-- The aggregate before the rectifier. -/
def pre (A : Fin 8192 → Fin 8192 → EReal) (H : Fin 8192 → Fin 200 → EReal) (W : Fin 200 → Fin 128 → EReal)
    (b : Fin 128 → EReal) (i : Fin 8192) (n : Fin 128) : EReal :=
  upTo (aggPart A H W b i n) 4 * dinv A i

/-- The leaky rectifier as both programs spell it: a comparison with zero selecting between `r` and `slope · r`. -/
def leaky (r : EReal) : EReal :=
  Scalar.select (FloatOps.cmpf (F := Ideal) (φ := .f32) .oge r (Ideal.ofBits .f32 0x00000000#32)) r (slope * r)

/-- The layer's result. -/
def out (A : Fin 8192 → Fin 8192 → EReal) (H : Fin 8192 → Fin 200 → EReal) (W : Fin 200 → Fin 128 → EReal)
    (b : Fin 128 → EReal) (i : Fin 8192) (n : Fin 128) : EReal :=
  leaky (pre A H W b i n)

end Cert.GcnSpec

end
-- ==== Proof.KI_Reg1Value.lean ====
/-
  The second tiled call's result array at F := Ideal, entry by entry: with H, W, b, d the four arrays the call
  reads as it finds them, the array it leaves holds (Σ_l H k l · W l n + b n) · d k at (k, n). First the one
  store's payload at a place of a block; then each block read where its point puts it in its array (row p of
  point t's block is row 2048 t + p; the weights and the bias row are whole); then the four points' blocks
  cover the 8192 rows, so the array after the last point is that one function of its index.
-/
import proofs.«141990_j36206574305751_2_alg».proof.Proof.KI_Reg1
import proofs.«141990_j36206574305751_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal.Gen
open Idealize.ShloMosaic Idealize.ShloMosaic.TcCoe Idealize.ShloMosaic.ValueIdx
open Idealize.SL Idealize.SL.Sem
open Idealize.ShloMosaic.Pipeline (Dat Cfg Window cellOf)

/-! ## The payload at an index -/

/-- A column of height a broadcast along b lanes reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of the body's matrix product: rows of the left operand against columns of the right. -/
abbrev DD := dot_S2048x200_S200x128_S2048x128_1_0_0_1_n_n

theorem lhsRow (i : S2048x128.Idx) (r : DD.contr.Idx) : (DD.lhsIdx i r 0).val = (i 0).val := by
  unfold DotDims.lhsIdx
  rw [dif_neg (show ¬(0 : Fin S2048x200.rank) ∈ DD.lhsBatch by decide), dif_pos (show (0 : Fin S2048x200.rank) ∈ DD.lhsNonContracting by decide)]
  rfl
theorem lhsCol (i : S2048x128.Idx) (r : DD.contr.Idx) : (DD.lhsIdx i r 1).val = (r ⟨0, by decide⟩).val :=
  DD.lhsIdx_val_of_single rfl i r
theorem rhsRow (i : S2048x128.Idx) (r : DD.contr.Idx) : (DD.rhsIdx i r 0).val = (r ⟨0, by decide⟩).val :=
  DD.rhsIdx_val_of_single rfl i r
theorem rhsCol (i : S2048x128.Idx) (r : DD.contr.Idx) : (DD.rhsIdx i r 1).val = (i 1).val := by
  unfold DotDims.rhsIdx
  rw [dif_neg (show ¬(1 : Fin S200x128.rank) ∈ DD.rhsBatch by decide), dif_pos (show (1 : Fin S200x128.rank) ∈ DD.rhsNonContracting by decide)]
  rfl

set_option maxHeartbeats 400000 in
/-- The matrix product into the zero accumulator, at (p, q): the sum over the 200 contracted places. -/
theorem matmul_at (x0 : FVec Ideal S2048x200 .f32) (x1 : FVec Ideal S200x128 .f32) (p : Fin 2048) (q : Fin 128) :
    matmul DD none x0 x1 (constant S2048x128 .f32 0x00000000#32) (ix2 p q) = ∑ l : Fin 200, x0 (ix2 p l) * x1 (ix2 l q) := by
  refine (Ideal.matmul_constant_zero_apply DD none x0 x1 (ix2 p q)).trans ?_
  rw [← Equiv.sum_comp (contrEquiv1 DD 200 rfl rfl).symm]
  refine Finset.sum_congr rfl fun l _ => ?_
  have hl := contrEquiv1_symm_val DD 200 rfl rfl l
  have el : DD.lhsIdx (ix2 p q) ((contrEquiv1 DD 200 rfl rfl).symm l) = ix2 p l := funext fun a => Fin.ext (by
    match a with
    | ⟨0, _⟩ => exact lhsRow _ _
    | ⟨1, _⟩ => exact (lhsCol _ _).trans hl)
  have er : DD.rhsIdx (ix2 p q) ((contrEquiv1 DD 200 rfl rfl).symm l) = ix2 l q := funext fun a => Fin.ext (by
    match a with
    | ⟨0, _⟩ => exact (rhsRow _ _).trans hl
    | ⟨1, _⟩ => exact rhsCol _ _)
  rw [el, er]

set_option maxHeartbeats 400000 in
/-- The one store's payload at (p, q): the row p of the first block against the column q of the second, plus the
    third's entry q, times the fourth's entry p. -/
theorem pay_apply (x0 : FVec Ideal S2048x200 .f32) (x1 : FVec Ideal S200x128 .f32) (x2 : FVec Ideal S1x128 .f32) (x3 : FVec Ideal S2048x1 .f32)
    (p : Fin 2048) (q : Fin 128) :
    k1_pay1 (F := Ideal) x0 x1 x2 x3 (ix2 p q)
      = ((∑ l : Fin 200, x0 (ix2 p l) * x1 (ix2 l q)) + x2 (ix2 (0 : Fin 1) q)) * x3 (ix2 p (0 : Fin 1)) := by
  unfold k1_pay1
  rw [mulf_apply, addf_apply, shapeCast_self, shapeCast_self, matmul_at, broadcastTo_1b_ab_apply, broadcastTo_a1_ab_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The four arrays the call reads, as the call finds them, by coordinates: the features, the weights, the bias
    row and the row scales. -/
def rdH (c : Dev nD) : Fin 8192 → Fin 200 → EReal := fun k l => V c main_arg0 (ix2 k l)
def rdW (c : Dev nD) : Fin 200 → Fin 128 → EReal := fun l n => V c main_arg2 (ix2 l n)
def rdB (c : Dev nD) : Fin 128 → EReal := fun n => V c main_v1 (ix2 (0 : Fin 1) n)
def rdD (c : Dev nD) : Fin 8192 → EReal := fun k => V c main_v0_1 (ix2 k (0 : Fin 1))

/-- Row k, feature n of the scaled linear map. -/
def rowVal (c : Dev nD) (k : Fin 8192) (n : Fin 128) : EReal :=
  ((∑ l : Fin 200, rdH V c k l * rdW V c l n) + rdB V c n) * rdD V c k

/-- The result array as one function of its index. -/
def G (c : Dev nD) : S8192x128.Idx → EReal := fun i => rowVal V c ⟨(i 0).val, (i 0).isLt⟩ ⟨(i 1).val, (i 1).isLt⟩

/-- The printed block-index maps over the four points: the row-blocked windows move with the result's, on the
    point's own number; every other block index is zero. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 4 := lt_of_lt_of_eq t.isLt N_1

/-- Row p of the block of point t is row 2048 t + p of the array. -/
def rowIx (t : Fin cfg1.N) (p : Fin 2048) : Fin 8192 := ⟨t.val * 2048 + p.val, by have := point_lt t; have := p.isLt; omega⟩

set_option maxHeartbeats 400000 in
theorem emb_out (t : Fin cfg1.N) (p : Fin 2048) (q : Fin 128) :
    (((cfg1.win 4).blk t).view.emb (ix2 p q) : S8192x128.Idx) = ix2 (rowIx t p) q := by
  obtain ⟨f40, f41, -⟩ := idx_facts t
  funext a; apply Fin.ext
  match a with
  | ⟨0, _⟩ => show win1_4.index t (0 : Fin 2) * 2048 + 1 * p.val = t.val * 2048 + p.val; omega
  | ⟨1, _⟩ => show win1_4.index t (1 : Fin 2) * 128 + 1 * q.val = q.val; omega

set_option maxHeartbeats 400000 in
theorem emb_in0 (t : Fin cfg1.N) (p : Fin 2048) (l : Fin 200) :
    (((cfg1.win 0).blk t).view.emb (ix2 p l) : S8192x200.Idx) = ix2 (rowIx t p) l := by
  obtain ⟨-, -, f00, f01, -⟩ := idx_facts t
  funext a; apply Fin.ext
  match a with
  | ⟨0, _⟩ => show win1_0.index t (0 : Fin 2) * 2048 + 1 * p.val = t.val * 2048 + p.val; omega
  | ⟨1, _⟩ => show win1_0.index t (1 : Fin 2) * 200 + 1 * l.val = l.val; omega

set_option maxHeartbeats 400000 in
theorem emb_in1 (t : Fin cfg1.N) (l : Fin 200) (q : Fin 128) :
    (((cfg1.win 1).blk t).view.emb (ix2 l q) : S200x128.Idx) = ix2 l q := by
  obtain ⟨-, -, -, -, f10, f11, -⟩ := idx_facts t
  funext a; apply Fin.ext
  match a with
  | ⟨0, _⟩ => show win1_1.index t (0 : Fin 2) * 200 + 1 * l.val = l.val; omega
  | ⟨1, _⟩ => show win1_1.index t (1 : Fin 2) * 128 + 1 * q.val = q.val; omega

set_option maxHeartbeats 400000 in
theorem emb_in2 (t : Fin cfg1.N) (z : Fin 1) (q : Fin 128) :
    (((cfg1.win 2).blk t).view.emb (ix2 z q) : S1x128.Idx) = ix2 z q := by
  obtain ⟨-, -, -, -, -, -, f20, f21, -⟩ := idx_facts t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

set_option maxHeartbeats 400000 in
theorem emb_in3 (t : Fin cfg1.N) (p : Fin 2048) (z : Fin 1) :
    (((cfg1.win 3).blk t).view.emb (ix2 p z) : S8192x1.Idx) = ix2 (rowIx t p) z := by
  obtain ⟨-, -, -, -, -, -, -, -, f30, f31⟩ := idx_facts t
  funext a; apply Fin.ext
  match a with
  | ⟨0, _⟩ => show win1_3.index t (0 : Fin 2) * 2048 + 1 * p.val = t.val * 2048 + p.val; omega
  | ⟨1, _⟩ => show win1_3.index t (1 : Fin 2) * 1 + 1 * z.val = z.val; omega

/-- Each input block at a place is the array read at the row the point's block starts from. -/
theorem iblk0_at (c : Dev nD) (t : Fin cfg1.N) (p : Fin 2048) (l : Fin 200) : iblk V c 0 t (ix2 p l) = rdH V c (rowIx t p) l := by
  show V c main_arg0 (((cfg1.win 0).blk t).view.emb (ix2 p l)) = V c main_arg0 (ix2 (rowIx t p) l)
  rw [emb_in0]
theorem iblk1_at (c : Dev nD) (t : Fin cfg1.N) (l : Fin 200) (q : Fin 128) : iblk V c 1 t (ix2 l q) = rdW V c l q := by
  show V c main_arg2 (((cfg1.win 1).blk t).view.emb (ix2 l q)) = V c main_arg2 (ix2 l q)
  rw [emb_in1]
theorem iblk2_at (c : Dev nD) (t : Fin cfg1.N) (q : Fin 128) : iblk V c 2 t (ix2 (0 : Fin 1) q) = rdB V c q := by
  show V c main_v1 (((cfg1.win 2).blk t).view.emb (ix2 (0 : Fin 1) q)) = V c main_v1 (ix2 (0 : Fin 1) q)
  rw [emb_in2]
theorem iblk3_at (c : Dev nD) (t : Fin cfg1.N) (p : Fin 2048) : iblk V c 3 t (ix2 p (0 : Fin 1)) = rdD V c (rowIx t p) := by
  show V c main_v0_1 (((cfg1.win 3).blk t).view.emb (ix2 p (0 : Fin 1))) = V c main_v0_1 (ix2 (rowIx t p) (0 : Fin 1))
  rw [emb_in3]

set_option maxHeartbeats 400000 in
/-- What point t writes back is block t of G. -/
theorem flushed_eq (c : Dev nD) (t : Fin cfg1.N) :
    (dat (F := Ideal) V c).flushed 4 t = ((cfg1.win 4).blk t).view.read (Elt Ideal) (G V c) := by
  show (cfg1.win 4).cut (grid1.coords t) ((dat (F := Ideal) V c).after 4 t) = _
  rw [after_out]
  unfold outBlock
  rw [View.canon_unit_zero hz]
  simp only [View.ld_unit_zero (S := S2048x200) hz, View.ld_unit_zero (S := S200x128) hz, View.ld_unit_zero (S := S1x128) hz,
    View.ld_unit_zero (S := S2048x1) hz]
  funext j
  obtain ⟨p, q, rfl⟩ : ∃ (p : Fin 2048) (q : Fin 128), j = ix2 p q := ⟨j 0, j 1, eq_ix2 j⟩
  refine (pay_apply (iblk V c 0 t) (iblk V c 1 t) (iblk V c 2 t) (iblk V c 3 t) p q).trans ?_
  simp only [iblk0_at, iblk1_at, iblk2_at, iblk3_at]
  show _ = G V c (((cfg1.win 4).blk t).view.emb (ix2 p q))
  rw [emb_out]
  rfl

/-- An index of the array is in point t's block iff each coordinate is in the block's range on its axis. -/
theorem mem_blk (t : Fin cfg1.N) (i : S8192x128.Idx) :
    i ∈ ((cfg1.win 4).blk t).view.set ↔ ∀ a : Fin 2, win1_4.index t a * S2048x128.size a ≤ (i a).val ∧ (i a).val < win1_4.index t a * S2048x128.size a + S2048x128.size a := by
  show i ∈ ((View.whole main_v2).slice (win1_4.rect t)).set ↔ _
  rw [View.set_slice_whole, Rect.mem_set_unit]
  exact Iff.rfl

/-- Every index of the array is in the block of the point its row falls in. -/
theorem cover (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  let t : Fin cfg1.N := ⟨(i 0).val / 2048, lt_of_lt_of_eq (by omega : (i 0).val / 2048 < 4) N_1.symm⟩
  obtain ⟨f40, f41, -⟩ := idx_facts t
  have ht : t.val = (i 0).val / 2048 := rfl
  refine ⟨t, flush1_4 t, ?_⟩
  rw [mem_blk]
  intro a
  match a with
  | ⟨0, _⟩ => show win1_4.index t (0 : Fin 2) * 2048 ≤ (i 0).val ∧ (i 0).val < win1_4.index t (0 : Fin 2) * 2048 + 2048; omega
  | ⟨1, _⟩ => show win1_4.index t (1 : Fin 2) * 128 ≤ (i 1).val ∧ (i 1).val < win1_4.index t (1 : Fin 2) * 128 + 128; omega

/-- The result array after the call's last point is G. -/
theorem final (c : Dev nD) : (dat (F := Ideal) V c).arrAt 4 cfg1.N = G V c :=
  (dat (F := Ideal) V c).arrAt_eq_of_cover 4 (G V c) (fun t _ => flushed_eq V c t) cover

/-- The result array after the call, entry by entry: row k of the features against column n of the weights, plus
    the bias at n, times the scale of row k. -/
theorem value (c : Dev nD) (k : Fin 8192) (n : Fin 128) :
    (dat (F := Ideal) V c).arrAt 4 cfg1.N (ix2 k n) = ((∑ l : Fin 200, rdH V c k l * rdW V c l n) + rdB V c n) * rdD V c k := by
  rw [final]; rfl

/-- The same in the layer's own words. -/
theorem value_spec (c : Dev nD) (k : Fin 8192) (n : Fin 128) :
    (dat (F := Ideal) V c).arrAt 4 cfg1.N (ix2 k n) = Cert.GcnSpec.hw (rdH V c) (rdW V c) (rdB V c) k n * rdD V c k :=
  value V c k n

end Cert.KernelIdeal.Reg1

end
-- ==== Proof.KI_Reg0Pieces.lean ====
/-
  What the row-sum kernel's stores amount to, case by case: the clamped-sigmoid buffer ends at the body's sigmoid
  payload of the adjacency block; the accumulator at the body's sum payload of the block and of what the
  accumulator held before (zero at a first column block); the reciprocal-square-root buffer, at a last column block,
  at the body's reciprocal-square-root payload of the accumulator it has just stored.
-/
import proofs.«141990_j36206574305751_2_alg».proof.Proof.KI_Reg0
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

set_option maxHeartbeats 400000 in
theorem sig_first (c : Dev nD) (t : Fin cfg0.N) (h0 : t.val % 4 = 0) (h1 : ¬t.val % 4 = 3) :
    backSig (rF V c t h0 h1).1 = k0_pay2 (iblk V c 0 t) := by
  unfold backSig
  rw [View.read_writes_eq_canon _ _ _ (coverSigF V c t h0 h1)]
  unfold rF runFirst
  dsimp only
  rw [View.canon_unit_zero hz]
  simp only [View.readAt_eq_ld, (hIn t).read_unread, View.ld_unit_zero (S := S1024x2048) hz]

set_option maxHeartbeats 400000 in
theorem acc_first (c : Dev nD) (t : Fin cfg0.N) (h0 : t.val % 4 = 0) (h1 : ¬t.val % 4 = 3) :
    backAcc (rF V c t h0 h1).2.1 = k0_pay3 (iblk V c 0 t) k0_pay1 := by
  unfold backAcc
  rw [View.read_writes_eq_canon _ _ _ (coverAccF V c t h0 h1)]
  unfold rF runFirst
  dsimp only
  sl_unfold_words
  rw [View.canon_cons_unit_zero (S := S1024x1) hz, View.readCov_unit_zero (S := S1024x1) _ hz]
  simp only [View.readAt_eq_ld, (hIn t).read_unread, View.ld_unit_zero (S := S1024x2048) hz]

set_option maxHeartbeats 400000 in
theorem sig_mid (c : Dev nD) (t : Fin cfg0.N) (h0 : ¬t.val % 4 = 0) (h1 : ¬t.val % 4 = 3) (xs : Vec F S1024x1 .f32) :
    backSig (rM V c t h0 h1 xs).1 = k0_pay2 (iblk V c 0 t) := by
  unfold backSig
  rw [View.read_writes_eq_canon _ _ _ (coverSigM V c t h0 h1 xs)]
  unfold rM runMid
  dsimp only
  rw [View.canon_unit_zero hz]
  simp only [View.readAt_eq_ld, (hIn t).read_unread, View.ld_unit_zero (S := S1024x2048) hz]

set_option maxHeartbeats 400000 in
theorem acc_mid (c : Dev nD) (t : Fin cfg0.N) (h0 : ¬t.val % 4 = 0) (h1 : ¬t.val % 4 = 3) (xs : Vec F S1024x1 .f32) :
    backAcc (rM V c t h0 h1 xs).2.1 = k0_pay3 (iblk V c 0 t) xs := by
  unfold backAcc
  rw [View.read_writes_eq_canon _ _ _ (coverAccM V c t h0 h1 xs)]
  unfold rM runMid
  dsimp only
  rw [View.canon_unit_zero hz]
  simp only [View.readAt_eq_ld, (hIn t).read_unread, (Memref.isWhole_whole cc0_scratch0).read_unread, View.ld_unit_zero (S := S1024x2048) hz, View.ld_unit_zero (S := S1024x1) hz]

set_option maxHeartbeats 400000 in
theorem sig_last (c : Dev nD) (t : Fin cfg0.N) (h0 : ¬t.val % 4 = 0) (h1 : t.val % 4 = 3) (xs : Vec F S1024x1 .f32) :
    backSig (rL V c t h0 h1 xs).1 = k0_pay2 (iblk V c 0 t) := by
  unfold backSig
  rw [View.read_writes_eq_canon _ _ _ (coverSigL V c t h0 h1 xs)]
  unfold rL runLast
  dsimp only
  rw [View.canon_unit_zero hz]
  simp only [View.readAt_eq_ld, (hIn t).read_unread, View.ld_unit_zero (S := S1024x2048) hz]

set_option maxHeartbeats 400000 in
theorem acc_last (c : Dev nD) (t : Fin cfg0.N) (h0 : ¬t.val % 4 = 0) (h1 : t.val % 4 = 3) (xs : Vec F S1024x1 .f32) :
    backAcc (rL V c t h0 h1 xs).2.2.1 = k0_pay3 (iblk V c 0 t) xs := by
  unfold backAcc
  rw [View.read_writes_eq_canon _ _ _ (coverAccL V c t h0 h1 xs)]
  unfold rL runLast
  dsimp only
  sl_unfold_words
  rw [View.canon_unit_zero hz]
  simp only [View.readAt_eq_ld, (hIn t).read_unread, (Memref.isWhole_whole cc0_scratch0).read_unread, View.ld_unit_zero (S := S1024x2048) hz, View.ld_unit_zero (S := S1024x1) hz]

set_option maxHeartbeats 400000 in
theorem dinv_last (c : Dev nD) (t : Fin cfg0.N) (h0 : ¬t.val % 4 = 0) (h1 : t.val % 4 = 3) (xs : Vec F S1024x1 .f32) :
    backDinv (rL V c t h0 h1 xs).2.1 = k0_pay4 (k0_pay3 (iblk V c 0 t) xs) := by
  unfold backDinv
  rw [View.read_writes_eq_canon _ _ _ (coverDinvL V c t h0 h1 xs)]
  unfold rL runLast
  dsimp only
  sl_unfold_words
  rw [View.canon_unit_zero hz, View.readCov_unit_zero (S := S1024x1) _ hz]
  simp only [View.readAt_eq_ld, (hIn t).read_unread, (Memref.isWhole_whole cc0_scratch0).read_unread, View.ld_unit_zero (S := S1024x2048) hz, View.ld_unit_zero (S := S1024x1) hz]

end Cert.KernelIdeal.Reg0

end
-- ==== Proof.KI_Reg0Pay.lean ====
/-
  The row-sum kernel's payloads read one element at a time, at the extended reals.

  The sigmoid payload at `(r, q)` is the clamped sigmoid of the block's entry; the zero payload is `0`; the sum
  payload at row `r` is what the accumulator held plus the row's sum of clamped sigmoids over the block's 2048
  lanes; the last payload is the reciprocal square root of the accumulator's row.
-/
import proofs.«141990_j36206574305751_2_alg».proof.Proof.Gen.KernelIdeal.Skeleton
import proofs.«141990_j36206574305751_2_alg».proof.Proof.Spec
import Idealize.ShloMosaic.Lib.ValueIdx
import Idealize.ShloMosaic.Lib.Pipeline.Value
import Idealize.ShloMosaic.PureOps.Ideal.Laws

noncomputable section

namespace Cert.KernelIdeal.Reg0

open Cert.KernelIdeal Cert.KernelIdeal.Gen Idealize.ShloMosaic Idealize.ShloMosaic.ValueIdx

/-- The sigmoid payload at `(r, q)`. -/
theorem pay2_at (x : Vec Ideal S1024x2048 .f32) (r : Fin 1024) (q : Fin 2048) :
    k0_pay2 (F := Ideal) x (ix2 r q) = Cert.GcnSpec.sg (x (ix2 r q)) := rfl

/-- The zero payload. -/
theorem pay1_at (j : S1024x1.Idx) : k0_pay1 (F := Ideal) j = 0 := by
  unfold k0_pay1
  rw [shapeCast_self]
  exact Ideal.ofBits_zero_f32

/-- A lane sum of a block at row `r`: the sum over the 2048 lanes. -/
theorem lane_sum (src : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ q : Fin 2048, src (ix2 r q) := by
  refine (Ideal.multiReduction_add_single src 0x00000000#32 h hφ hacc (ix1 r)).trans ?_
  refine Finset.sum_congr rfl fun q _ => congrArg src ?_
  funext c
  apply Fin.ext
  rw [h.lift_val]
  unfold Shape.Reduces.liftVal
  match c with
  | ⟨0, _⟩ => rfl
  | ⟨1, _⟩ => rfl

/-- The sum payload at row `r`. -/
theorem pay3_at (x : Vec Ideal S1024x2048 .f32) (xs : Vec Ideal S1024x1 .f32) (r : Fin 1024) :
    k0_pay3 (F := Ideal) x xs (ix2 r 0) = xs (ix2 r 0) + ∑ q : Fin 2048, Cert.GcnSpec.sg (x (ix2 r q)) := by
  unfold k0_pay3
  rw [shapeCast_self]
  refine (addf_apply _ _ _).trans ?_
  refine congrArg (xs (ix2 r 0) + ·) ?_
  refine (shapeCast_apply _ _ (ix2 r 0) (ix1 r) ?_).trans ?_
  · rw [Shape.rowMajor_val_one, Shape.rowMajor_val_two]; show r.val = r.val * 1 + 0; omega
  · exact lane_sum _ _ _ _ r

/-- The last payload at row `r`. -/
theorem pay4_at (v : Vec Ideal S1024x1 .f32) (j : S1024x1.Idx) : k0_pay4 (F := Ideal) v j = Ideal.rsqrt (v j) := rfl

end Cert.KernelIdeal.Reg0

end
-- ==== Proof.KI_Reg0Ind.lean ====
/-
  The row-sum kernel's buffers after every grid point, at the extended reals.

  Point `t` works on row block `t / 4` and column block `t mod 4` of the adjacency. After it the clamped-sigmoid
  buffer holds the clamped sigmoids of that block, and row `r` of the accumulator holds the row's sums of clamped
  sigmoids over column blocks `0 … t mod 4`, gathered in order from zero: by induction on the point, a first column
  block starting from the zero the body stores, a later one adding to what the point before left.
-/
import proofs.«141990_j36206574305751_2_alg».proof.Proof.KI_Reg0Pieces
import proofs.«141990_j36206574305751_2_alg».proof.Proof.KI_Reg0Pay

set_option maxRecDepth 16384

noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The windows' block indices at point `t`: row block `t / 4`, column block `t mod 4` (column block `0` for the
    one-column window). -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = 0 :=
  (by decide +kernel : ∀ t : Fin grid0.N, _)

/-- One more block contribution gathered. -/
theorem upTo_step (m : Fin 4 → EReal) (k : ℕ) (hk : k < 4) :
    Cert.GcnSpec.upTo m (k + 1) = Cert.GcnSpec.upTo m k + m ⟨k, hk⟩ := by
  show Cert.GcnSpec.upTo m k + (if h : k < 4 then m ⟨k, h⟩ else 0) = _
  rw [dif_pos hk]

/-- The adjacency block at point `t`, entry `(r, q)`, is the adjacency at row `1024 (t / 4) + r`, column
    `2048 (t mod 4) + q`. -/
theorem iblk_at (c : Dev nD) (t : Fin cfg0.N) (r : Fin 1024) (q : Fin 2048) (i k : Fin 8192)
    (hi : i.val = 1024 * (t.val / 4) + r.val) (hk : k.val = 2048 * (t.val % 4) + q.val) :
    iblk V c 0 t (ix2 r q) = V c main_arg1 (ix2 i k) := by
  obtain ⟨e0, e1, -⟩ := idx_facts t
  unfold iblk
  rw [View.read_apply]
  show V c main_arg1 _ = V c main_arg1 _
  refine congrArg (V c main_arg1) (funext fun a => Fin.ext ?_)
  match a with
  | ⟨0, _⟩ => show win0_0.index t (0 : Fin 2) * 1024 + 1 * r.val = i.val; rw [e0, hi]; omega
  | ⟨1, _⟩ => show win0_0.index t (1 : Fin 2) * 2048 + 1 * q.val = k.val; rw [e1, hk]; omega

/-- Row `r`'s sum of clamped sigmoids over the block at point `t` is the adjacency row's over column block `t mod 4`. -/
theorem block_sum (c : Dev nD) (t : Fin cfg0.N) (r : Fin 1024) (i : Fin 8192) (hi : i.val = 1024 * (t.val / 4) + r.val)
    (tt : Fin 4) (htt : tt.val = t.val % 4) :
    ∑ q : Fin 2048, Cert.GcnSpec.sg (iblk V c 0 t (ix2 r q))
      = ∑ q : Fin 2048, Cert.GcnSpec.sg (V c main_arg1 (ix2 i (Cert.GcnSpec.col tt q))) :=
  Finset.sum_congr rfl fun q _ => congrArg Cert.GcnSpec.sg
    (iblk_at V c t r q i (Cert.GcnSpec.col tt q) hi (by show 2048 * tt.val + q.val = _; rw [htt]))

/-- After every point the clamped-sigmoid buffer holds the sigmoid payload of the point's block. -/
theorem sig_all (c : Dev nD) (t : Fin cfg0.N) : (outsAt V c t.val t.isLt).1 = k0_pay2 (iblk V c 0 t) := by
  by_cases h0 : t.val % 4 = 0
  · have h1 : ¬t.val % 4 = 3 := by omega
    rw [outsAt_first V c t h0 h1]; dsimp only; exact sig_first V c t h0 h1
  · by_cases h1 : t.val % 4 = 3
    · rw [outsAt_last V c t h0 h1]; dsimp only; exact sig_last V c t h0 h1 (accBefore V c t)
    · rw [outsAt_mid V c t h0 h1]; dsimp only; exact sig_mid V c t h0 h1 (accBefore V c t)

/-- After a point of a first column block, row `r` of the accumulator is zero plus the row's sum over the block. -/
theorem acc_first_at (c : Dev nD) (t : Fin cfg0.N) (h0 : t.val % 4 = 0) (r : Fin 1024) :
    (outsAt V c t.val t.isLt).2.2 (ix2 r 0) = 0 + ∑ q : Fin 2048, Cert.GcnSpec.sg (iblk V c 0 t (ix2 r q)) := by
  have h1 : ¬t.val % 4 = 3 := by omega
  rw [outsAt_first V c t h0 h1]
  dsimp only
  refine (congrFun (acc_first V c t h0 h1) (ix2 r 0)).trans ?_
  refine (pay3_at (iblk V c 0 t) (k0_pay1 (F := Ideal)) r).trans ?_
  rw [pay1_at]

/-- After a point of a later column block, it is what the point before left plus the row's sum over the block. -/
theorem acc_later_at (c : Dev nD) (t : Fin cfg0.N) (h0 : ¬t.val % 4 = 0) (r : Fin 1024) :
    (outsAt V c t.val t.isLt).2.2 (ix2 r 0)
      = accBefore V c t (ix2 r 0) + ∑ q : Fin 2048, Cert.GcnSpec.sg (iblk V c 0 t (ix2 r q)) := by
  by_cases h1 : t.val % 4 = 3
  · rw [outsAt_last V c t h0 h1]
    dsimp only
    refine (congrFun (acc_last V c t h0 h1 (accBefore V c t)) (ix2 r 0)).trans ?_
    exact pay3_at (iblk V c 0 t) (accBefore V c t) r
  · rw [outsAt_mid V c t h0 h1]
    dsimp only
    refine (congrFun (acc_mid V c t h0 h1 (accBefore V c t)) (ix2 r 0)).trans ?_
    exact pay3_at (iblk V c 0 t) (accBefore V c t) r

/-- After point `n`, row `r` of the accumulator holds the sums of clamped sigmoids of adjacency row
    `1024 (n / 4) + r` over column blocks `0 … n mod 4`, gathered in order from zero. -/
theorem acc_inv (c : Dev nD) : ∀ (n : ℕ) (hn : n < cfg0.N) (r : Fin 1024) (i : Fin 8192), i.val = 1024 * (n / 4) + r.val →
    (outsAt V c n hn).2.2 (ix2 r 0)
      = Cert.GcnSpec.upTo (fun tt => ∑ q : Fin 2048, Cert.GcnSpec.sg (V c main_arg1 (ix2 i (Cert.GcnSpec.col tt q)))) (n % 4 + 1)
  | 0, hn, r, i, hi => by
    refine (acc_first_at V c ⟨0, hn⟩ rfl r).trans ?_
    rw [block_sum V c ⟨0, hn⟩ r i hi ⟨0, by decide⟩ rfl]
    show _ = Cert.GcnSpec.upTo _ (0 + 1)
    rw [upTo_step _ 0 (by decide)]
    rfl
  | n + 1, hn, r, i, hi => by
    by_cases h0 : (n + 1) % 4 = 0
    · refine (acc_first_at V c ⟨n + 1, hn⟩ h0 r).trans ?_
      rw [block_sum V c ⟨n + 1, hn⟩ r i hi ⟨0, by decide⟩ h0.symm, h0]
      show _ = Cert.GcnSpec.upTo _ (0 + 1)
      rw [upTo_step _ 0 (by decide)]
      rfl
    · have hq : (n + 1) / 4 = n / 4 := by omega
      have hm : (n + 1) % 4 = n % 4 + 1 := by omega
      have hlt : n % 4 + 1 < 4 := by omega
      refine (acc_later_at V c ⟨n + 1, hn⟩ h0 r).trans ?_
      rw [block_sum V c ⟨n + 1, hn⟩ r i hi ⟨n % 4 + 1, hlt⟩ hm.symm, hm, upTo_step _ (n % 4 + 1) hlt]
      refine congrArg (· + _) ?_
      exact acc_inv c n (Nat.lt_of_succ_lt hn) r i (by rw [hi, hq])

end Cert.KernelIdeal.Reg0

end
-- ==== Proof.KI_Reg0Value.lean ====
/-
  What the row-sum kernel leaves in its two result arrays, at the extended reals.

  Every entry `(i, k)` of the first array is the clamped sigmoid of the adjacency's entry: the point of row block
  `i / 1024` and column block `k / 2048` writes it. Row `i` of the second array is the reciprocal square root of the
  row's sum of clamped sigmoids gathered over the four column blocks from zero: the last point of row block
  `i / 1024` writes it, from the accumulator it has just completed.
-/
import proofs.«141990_j36206574305751_2_alg».proof.Proof.KI_Reg0Ind

set_option maxRecDepth 16384

noncomputable section

namespace Cert.KernelIdeal.Reg0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The reciprocal square root of adjacency row `i`'s sum of clamped sigmoids, gathered block by block from zero. -/
def dinvRow (c : Dev nD) (i : Fin 8192) : EReal :=
  Ideal.rsqrt (Cert.GcnSpec.upTo (fun tt => ∑ q : Fin 2048, Cert.GcnSpec.sg (V c main_arg1 (ix2 i (Cert.GcnSpec.col tt q)))) 4)

/-- The first result array's contents: the clamped sigmoid of the adjacency, entry by entry. -/
def sigArr (c : Dev nD) : S8192x8192.Idx → EReal := fun j => Cert.GcnSpec.sg (V c main_arg1 j)

/-- The second result array's contents: row by row the reciprocal square root of the row sum. -/
def dinvArr (c : Dev nD) : S8192x1.Idx → EReal := fun j => dinvRow V c ⟨(j 0).val, (j 0).isLt⟩

/-! ## The clamped sigmoids -/

/-- The sigmoid payload of the block at point `t` is, entry by entry, the first array's contents under the
    block the point writes back. -/
theorem sig_point (c : Dev nD) (t : Fin cfg0.N) (j : S1024x2048.Idx) :
    k0_pay2 (iblk V c 0 t) j = sigArr V c (((cfg0.win 1).blk t).view.emb j) := by
  have hN : t.val < 32 := lt_of_lt_of_eq t.isLt N_0
  obtain ⟨r, q, rfl⟩ : ∃ (r : Fin 1024) (q : Fin 2048), j = ix2 r q := ⟨j 0, j 1, eq_ix2 j⟩
  obtain ⟨-, -, e2, e3, -⟩ := idx_facts t
  refine (pay2_at (iblk V c 0 t) r q).trans (congrArg Cert.GcnSpec.sg ?_)
  refine (iblk_at V c t r q ⟨1024 * (t.val / 4) + r.val, by omega⟩ ⟨2048 * (t.val % 4) + q.val, by omega⟩ rfl rfl).trans ?_
  refine congrArg (V c main_arg1) (funext fun a => Fin.ext ?_)
  match a with
  | ⟨0, _⟩ => show 1024 * (t.val / 4) + r.val = win0_1.index t (0 : Fin 2) * 1024 + 1 * r.val; rw [e2]; omega
  | ⟨1, _⟩ => show 2048 * (t.val % 4) + q.val = win0_1.index t (1 : Fin 2) * 2048 + 1 * q.val; rw [e3]; omega

/-- What point `t` writes back to the first array is its block of those contents. -/
theorem flushed_sig (c : Dev nD) (t : Fin cfg0.N) :
    (dat V c).flushed 1 t = ((cfg0.win 1).blk t).view.read (Elt Ideal) (sigArr V c) := by
  show (cfg0.win 1).cut (grid0.coords t) ((dat V c).after 1 t) = _
  rw [after_sig, sig_all]
  funext j
  exact sig_point V c t j

/-- An entry is in the block point `t` writes iff each coordinate is in the block's range. -/
theorem mem_blk_sig (t : Fin cfg0.N) (i : S8192x8192.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v0_0).slice (win0_1.rect t)).set ↔ _
  rw [View.set_slice_whole, Rect.mem_set_unit]
  exact Iff.rfl

/-- Every entry of the first array is written by the point of its row block and column block. -/
theorem cover_sig (i : S8192x8192.Idx) :
    ∃ t : Fin cfg0.N, (cfg0.win 1).flush t = true ∧ i ∈ ((cfg0.win 1).blk t).view.set := by
  have h0 : (i 0).val < 8192 := (i 0).isLt
  have h1 : (i 1).val < 8192 := (i 1).isLt
  have hN : cfg0.N = 32 := N_0
  obtain ⟨t, tv⟩ : ∃ t : Fin cfg0.N, t.val = 4 * ((i 0).val / 1024) + (i 1).val / 2048 := ⟨⟨_, by rw [hN]; omega⟩, rfl⟩
  refine ⟨t, flush0_1 t, ?_⟩
  rw [mem_blk_sig]
  obtain ⟨-, -, e2, e3, -⟩ := idx_facts t
  intro a
  match a with
  | ⟨0, _⟩ => show win0_1.index t (0 : Fin 2) * 1024 ≤ (i 0).val ∧ (i 0).val < win0_1.index t (0 : Fin 2) * 1024 + 1024; rw [e2, tv]; omega
  | ⟨1, _⟩ => show win0_1.index t (1 : Fin 2) * 2048 ≤ (i 1).val ∧ (i 1).val < win0_1.index t (1 : Fin 2) * 2048 + 2048; rw [e3, tv]; omega

/-- The first result array after the region: the clamped sigmoid of the adjacency at every entry. -/
theorem value_sig (c : Dev nD) (i k : Fin 8192) :
    (dat V c).arrAt 1 cfg0.N (ix2 i k) = Cert.GcnSpec.sg (V c main_arg1 (ix2 i k)) :=
  congrFun ((dat V c).arrAt_eq_of_cover 1 (sigArr V c) (fun t _ => flushed_sig V c t) cover_sig) (ix2 i k)

/-! ## The reciprocal square roots -/

/-- At a last column block the reciprocal-square-root payload of the completed accumulator is, row by row, the
    second array's contents under the block the point writes back. -/
theorem dinv_point (c : Dev nD) (t : Fin cfg0.N) (h0 : ¬t.val % 4 = 0) (h1 : t.val % 4 = 3) (j : S1024x1.Idx) :
    k0_pay4 (k0_pay3 (iblk V c 0 t) (accBefore V c t)) j = dinvArr V c (((cfg0.win 2).blk t).view.emb j) := by
  have hN : t.val < 32 := lt_of_lt_of_eq t.isLt N_0
  obtain ⟨r, z, rfl⟩ : ∃ (r : Fin 1024) (z : Fin 1), j = ix2 r z := ⟨j 0, j 1, eq_ix2 j⟩
  obtain rfl : z = 0 := Subsingleton.elim _ _
  obtain ⟨-, -, -, -, e4, -⟩ := idx_facts t
  have e : (outsAt V c t.val t.isLt).2.2 = k0_pay3 (iblk V c 0 t) (accBefore V c t) := by
    rw [outsAt_last V c t h0 h1]; dsimp only; exact acc_last V c t h0 h1 (accBefore V c t)
  refine (pay4_at _ _).trans ?_
  rw [← e, acc_inv V c t.val t.isLt r ⟨1024 * (t.val / 4) + r.val, by omega⟩ rfl, h1]
  unfold dinvArr dinvRow
  refine congrArg (fun i => Ideal.rsqrt (Cert.GcnSpec.upTo (fun tt => ∑ q : Fin 2048, Cert.GcnSpec.sg (V c main_arg1 (ix2 i (Cert.GcnSpec.col tt q)))) 4)) (Fin.ext ?_)
  show 1024 * (t.val / 4) + r.val = win0_2.index t (0 : Fin 2) * 1024 + 1 * r.val
  rw [e4]; omega

/-- What a last column block's point writes back to the second array is its block of those contents. -/
theorem flushed_dinv (c : Dev nD) (t : Fin cfg0.N) (hf : (cfg0.win 2).flush t = true) :
    (dat V c).flushed 2 t = ((cfg0.win 2).blk t).view.read (Elt Ideal) (dinvArr V c) := by
  have h1 : t.val % 4 = 3 := (flush0_2 t).mp hf
  have h0 : ¬t.val % 4 = 0 := by omega
  have e : (outsAt V c t.val t.isLt).2.1 = k0_pay4 (k0_pay3 (iblk V c 0 t) (accBefore V c t)) := by
    rw [outsAt_last V c t h0 h1]; dsimp only; exact dinv_last V c t h0 h1 (accBefore V c t)
  show (cfg0.win 2).cut (grid0.coords t) ((dat V c).after 2 t) = _
  rw [after_dinv, e]
  funext j
  exact dinv_point V c t h0 h1 j

/-- A row is in the block point `t` writes iff each coordinate is in the block's range. -/
theorem mem_blk_dinv (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_1).slice (win0_2.rect t)).set ↔ _
  rw [View.set_slice_whole, Rect.mem_set_unit]
  exact Iff.rfl

/-- Every row of the second array is written by the last point of its row block. -/
theorem cover_dinv (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  have hN : cfg0.N = 32 := N_0
  obtain ⟨t, tv⟩ : ∃ t : Fin cfg0.N, t.val = 4 * ((i 0).val / 1024) + 3 := ⟨⟨_, by rw [hN]; omega⟩, rfl⟩
  refine ⟨t, (flush0_2 t).mpr (by rw [tv]; omega), ?_⟩
  rw [mem_blk_dinv]
  obtain ⟨-, -, -, -, e4, e5⟩ := idx_facts t
  intro a
  match a with
  | ⟨0, _⟩ => show win0_2.index t (0 : Fin 2) * 1024 ≤ (i 0).val ∧ (i 0).val < win0_2.index t (0 : Fin 2) * 1024 + 1024; rw [e4, tv]; omega
  | ⟨1, _⟩ => show win0_2.index t (1 : Fin 2) * 1 ≤ (i 1).val ∧ (i 1).val < win0_2.index t (1 : Fin 2) * 1 + 1; rw [e5]; omega

/-- The second result array after the region: row `i` at the reciprocal square root of the row's sum of clamped
    sigmoids gathered over the four column blocks from zero. -/
theorem value_dinv (c : Dev nD) (i : Fin 8192) :
    (dat V c).arrAt 2 cfg0.N (ix2 i (0 : Fin 1))
      = Ideal.rsqrt (Cert.GcnSpec.upTo (fun t => ∑ q : Fin 2048, Cert.GcnSpec.sg (V c main_arg1 (ix2 i (Cert.GcnSpec.col t q)))) 4) :=
  congrFun ((dat V c).arrAt_eq_of_cover 2 (dinvArr V c) (fun t hf => flushed_dinv V c t hf) cover_dinv) (ix2 i (0 : Fin 1))

end Cert.KernelIdeal.Reg0

end
-- ==== Proof.KI_Reg2Pieces.lean ====
/-
  Region 2 of the layer: each case's stores read back as the body's arithmetic of the blocks (any float
  instance), and that arithmetic at an entry over the extended reals: a product summed over the block's 2048
  columns added to the accumulator; the accumulator times the row factor through the leaky rectifier.
-/
import proofs.«141990_j36206574305751_2_alg».proof.Proof.KI_Reg2
import proofs.«141990_j36206574305751_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal.Gen
open Idealize.ShloMosaic Idealize.ShloMosaic.TcCoe Idealize.ShloMosaic.Tactic Idealize.SL.Sem
open Idealize.ShloMosaic.Pipeline (Dat)

open Idealize.ShloMosaic.ValueIdx (ix2)

/-! ## What each case's stores leave, as the body's arithmetic (any float instance) -/

section Pieces
variable {F : FTy → Type} [FloatOps F]

theorem hz : (![0, 0] : Fin 2 → Nat) = fun _ => 0 := funext fun a => by fin_cases a <;> rfl

/-- The 2048 rows of the resident operand the body loads at column block `i 1`. -/
def rows (i : grid2.Coords) (x1 : Vec F S8192x128 .f32) : Vec F S2048x128 .f32 :=
  View.ld x1 (Rect.unit (s := S8192x128) (k2_off1 i) S2048x128.size (k2_off1_inb i))

set_option maxHeartbeats 400000 in
theorem sout_B_eq (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : ¬condLast i)
    (x0 : Vec F S2048x2048 .f32) (x1 : Vec F S8192x128 .f32) (x2 : Vec F S2048x1 .f32) (xs : Vec F S2048x128 .f32) :
    sout_B c i arg2 harg2 arg3 harg3 arg4 harg4 arg5 harg5 arg6 harg6 hc0 hc1 x0 x1 x2 xs = k2_pay2 (rows i x1) xs x0 := by
  unfold sout_B
  rw [View.read_writes_eq_canon _ _ _ (scover_B c i arg2 harg2 arg3 harg3 arg4 harg4 arg5 harg5 arg6 harg6 hc0 hc1 x0 x1 x2 xs)]
  unfold kernelRun_B
  dsimp only
  rw [View.canon_unit_zero hz]
  simp only [View.readAt_eq_ld, harg2.read_unread, harg3.read_unread, harg6.read_unread, View.ld_unit_zero (S := S2048x128) hz, View.ld_unit_zero (S := S2048x2048) hz]
  rfl

set_option maxHeartbeats 400000 in
theorem sout_C_eq (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) :
    sout_C c i arg2 harg2 arg3 harg3 arg4 harg4 arg5 harg5 arg6 harg6 hc0 hc1 x0 x1 x2 xs = k2_pay2 (rows i x1) xs x0 := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg6.read_unread, View.ld_unit_zero (S := S2048x128) hz, View.ld_unit_zero (S := S2048x2048) hz, View.ld_unit_zero (S := S2048x1) hz]
  rfl

set_option maxHeartbeats 400000 in
theorem sout_A_eq (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : condFirst i) (hc1 : ¬condLast i)
    (x0 : Vec F S2048x2048 .f32) (x1 : Vec F S8192x128 .f32) (x2 : Vec F S2048x1 .f32) :
    sout_A c i arg2 harg2 arg3 harg3 arg4 harg4 arg5 harg5 arg6 harg6 hc0 hc1 x0 x1 x2 = k2_pay2 (rows i x1) (k2_pay1 (F := F)) x0 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S2048x128) hz, View.readCov_unit_zero (S := S2048x128) _ hz]
  simp only [View.readAt_eq_ld, harg2.read_unread, harg3.read_unread, harg4.read_unread, harg6.read_unread, View.ld_unit_zero (S := S2048x128) hz, View.ld_unit_zero (S := S2048x2048) hz, View.ld_unit_zero (S := S2048x1) hz]
  rfl

set_option maxHeartbeats 400000 in
theorem out_C_eq (c : Dev nD) (i : grid2.Coords) (arg2 : Memref sig .tc .vmem S2048x2048 .f32) (harg2 : arg2.IsWhole) (arg3 : Memref sig .tc .vmem S8192x128 .f32) (harg3 : arg3.IsWhole) (arg4 : Memref sig .tc .vmem S2048x1 .f32) (harg4 : arg4.IsWhole) (arg5 : Memref sig .tc .vmem S2048x128 .f32) (harg5 : arg5.IsWhole) (arg6 : Memref sig .tc .vmem S2048x128 .f32) (harg6 : arg6.IsWhole) (hc0 : ¬condFirst i) (hc1 : condLast i)
    (x0 : Vec F S2048x2048 .f32) (x1 : Vec F S8192x128 .f32) (x2 : Vec F S2048x1 .f32) (xs : Vec F S2048x128 .f32) :
    out_C c i arg2 harg2 arg3 harg3 arg4 harg4 arg5 harg5 arg6 harg6 hc0 hc1 x0 x1 x2 xs = k2_pay3 (k2_pay2 (rows i x1) xs x0) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S2048x128) _ hz]
  simp only [View.readAt_eq_ld, harg2.read_unread, harg3.read_unread, harg4.read_unread, harg6.read_unread, View.ld_unit_zero (S := S2048x128) hz, View.ld_unit_zero (S := S2048x2048) hz, View.ld_unit_zero (S := S2048x1) hz]
  rfl

end Pieces

/-! ## The body's arithmetic at an entry, over the extended reals -/

theorem lhs_0 (j : S2048x128.Idx) (q : dot_S2048x2048_S2048x128_S2048x128_1_0_0_1_n_n.contr.Idx) : (dot_S2048x2048_S2048x128_S2048x128_1_0_0_1_n_n.lhsIdx j q 0).val = (j 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs_1 (j : S2048x128.Idx) (q : dot_S2048x2048_S2048x128_S2048x128_1_0_0_1_n_n.contr.Idx) : (dot_S2048x2048_S2048x128_S2048x128_1_0_0_1_n_n.lhsIdx j q 1).val = (q ⟨0, by decide⟩).val :=
  dot_S2048x2048_S2048x128_S2048x128_1_0_0_1_n_n.lhsIdx_val_of_single rfl j q
theorem rhs_0 (j : S2048x128.Idx) (q : dot_S2048x2048_S2048x128_S2048x128_1_0_0_1_n_n.contr.Idx) : (dot_S2048x2048_S2048x128_S2048x128_1_0_0_1_n_n.rhsIdx j q 0).val = (q ⟨0, by decide⟩).val :=
  dot_S2048x2048_S2048x128_S2048x128_1_0_0_1_n_n.rhsIdx_val_of_single rfl j q
theorem rhs_1 (j : S2048x128.Idx) (q : dot_S2048x2048_S2048x128_S2048x128_1_0_0_1_n_n.contr.Idx) : (dot_S2048x2048_S2048x128_S2048x128_1_0_0_1_n_n.rhsIdx j q 1).val = (j 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The accumulating store's payload at row `r`, feature `n`: the accumulator there plus the block's row times the
    operand's column, summed over the block's 2048 places. -/
theorem pay2_apply (v6 v8 : Vec Ideal S2048x128 .f32) (v9 : Vec Ideal S2048x2048 .f32) (r : Fin 2048) (n : Fin 128) :
    k2_pay2 (F := Ideal) v6 v8 v9 (ix2 r n) = v8 (ix2 r n) + ∑ q : Fin 2048, v9 (ix2 r q) * v6 (ix2 q n) := by
  unfold k2_pay2
  simp only [shapeCast_self]
  refine congrArg (v8 (ix2 r n) + ·) ?_
  refine (Ideal.matmul_constant_zero_apply dot_S2048x2048_S2048x128_S2048x128_1_0_0_1_n_n none v9 v6 (ix2 r n)).trans ?_
  rw [← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 r n) ((ValueIdx.contrEquiv1 dot_S2048x2048_S2048x128_S2048x128_1_0_0_1_n_n 2048 rfl rfl).symm k) = ix2 r k := funext fun a => Fin.ext (by
    match a with
    | ⟨0, _⟩ => exact lhs_0 _ _
    | ⟨1, _⟩ => exact (lhs_1 _ _).trans hk)
  have er : dot_S2048x2048_S2048x128_S2048x128_1_0_0_1_n_n.rhsIdx (ix2 r n) ((ValueIdx.contrEquiv1 dot_S2048x2048_S2048x128_S2048x128_1_0_0_1_n_n 2048 rfl rfl).symm k) = ix2 k n := funext fun a => Fin.ext (by
    match a with
    | ⟨0, _⟩ => exact (rhs_0 _ _).trans hk
    | ⟨1, _⟩ => exact rhs_1 _ _)
  rw [el, er]

/-- The zero store's payload. -/
theorem pay1_apply (j : S2048x128.Idx) : k2_pay1 (F := Ideal) j = 0 := by
  unfold k2_pay1
  simp only [shapeCast_self]
  exact Ideal.ofBits_zero_f32

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The finishing store's payload at row `r`, feature `n`: the accumulator there times the row's factor, through
    the leaky rectifier. -/
theorem pay3_apply (v19 : Vec Ideal S2048x128 .f32) (v20 : Vec Ideal S2048x1 .f32) (r : Fin 2048) (n : Fin 128) :
    k2_pay3 (F := Ideal) v19 v20 (ix2 r n) = Cert.GcnSpec.leaky (v19 (ix2 r n) * v20 (ix2 r (0 : Fin 1))) := by
  unfold k2_pay3
  simp only [shapeCast_self]
  have hb : broadcastTo S2048x128 v20 broadcasts_S2048x1_S2048x128 (ix2 r n) = v20 (ix2 r (0 : Fin 1)) :=
    broadcastTo_a1_ab_apply v20 broadcasts_S2048x1_S2048x128 r n
  unfold Cert.GcnSpec.leaky Cert.GcnSpec.slope
  rw [← hb]
  rfl

end Cert.KernelIdeal.Reg2
end
-- ==== Proof.KI_Reg2Value.lean ====
/-
  Region 2 of the layer over the extended reals: what the result array holds when the region ends. The
  accumulator after a point as the body's arithmetic of that point's blocks; the blocks read at an entry
  (the point 4 i + k reads rows 2048 i + r and columns 2048 k + q); the accumulator after point 4 i + k as the
  first k + 1 block shares gathered from zero; and the result array, each row block written once, at its
  last column block: the four shares gathered from zero, times the row's factor, through the leaky rectifier.
-/
import proofs.«141990_j36206574305751_2_alg».proof.Proof.KI_Reg2Pieces

set_option maxRecDepth 16384

noncomputable section

namespace Cert.KernelIdeal.Reg2

open Cert.KernelIdeal.Gen
open Idealize.ShloMosaic Idealize.ShloMosaic.TcCoe Idealize.ShloMosaic.Tactic Idealize.SL.Sem
open Idealize.ShloMosaic.Pipeline (Dat)

open Idealize.ShloMosaic.ValueIdx (ix2 eq_ix2)

/-! ## The accumulator after a point, as the body's arithmetic of the point's blocks (any float instance) -/

section Points
variable {F : FTy → Type} [FloatOps F]
variable (V : (c : Dev nD) → (b : Ref sig .tc) → Buf (Elt F) ((c : Thread nD τ).loc b))

set_option maxHeartbeats 400000 in
theorem acc_first (c : Dev nD) (t : Fin cfg2.N) (h0 : t.val % 4 = 0) :
    (outsAt V c t.val t.isLt).2 = k2_pay2 (rows (grid2.coords t) (iblk V c 1 t)) (k2_pay1 (F := F)) (iblk V c 0 t) := by
  have h1 : ¬t.val % 4 = 3 := by omega
  rw [outsAt_A V c t h0 h1]
  dsimp only
  exact sout_A_eq c (grid2.coords t) (ms0 t) (hs0 t) (ms1 t) (hs1 t) (ms2 t) (hs2 t) (ms3 t) (hs3 t) scM (Memref.isWhole_whole _) ((condFirst_iff t).mpr h0) (fun h => h1 ((condLast_iff t).mp h)) (iblk V c 0 t) (iblk V c 1 t) (iblk V c 2 t)

set_option maxHeartbeats 400000 in
theorem acc_next (c : Dev nD) (t : Fin cfg2.N) (h0 : ¬t.val % 4 = 0) :
    (outsAt V c t.val t.isLt).2 = k2_pay2 (rows (grid2.coords t) (iblk V c 1 t))
      (outsAt V c (t.val - 1) (Nat.lt_of_le_of_lt (Nat.sub_le _ _) t.isLt)).2 (iblk V c 0 t) := by
  by_cases h1 : t.val % 4 = 3
  · rw [outsAt_C V c t h0 h1]
    dsimp only
    exact sout_C_eq c (grid2.coords t) (ms0 t) (hs0 t) (ms1 t) (hs1 t) (ms2 t) (hs2 t) (ms3 t) (hs3 t) scM (Memref.isWhole_whole _) (fun h => h0 ((condFirst_iff t).mp h)) ((condLast_iff t).mpr h1) (iblk V c 0 t) (iblk V c 1 t) (iblk V c 2 t) (outsAt V c (t.val - 1) (Nat.lt_of_le_of_lt (Nat.sub_le _ _) t.isLt)).2
  · rw [outsAt_B V c t h0 h1]
    dsimp only
    exact sout_B_eq c (grid2.coords t) (ms0 t) (hs0 t) (ms1 t) (hs1 t) (ms2 t) (hs2 t) (ms3 t) (hs3 t) scM (Memref.isWhole_whole _) (fun h => h0 ((condFirst_iff t).mp h)) (fun h => h1 ((condLast_iff t).mp h)) (iblk V c 0 t) (iblk V c 1 t) (iblk V c 2 t) (outsAt V c (t.val - 1) (Nat.lt_of_le_of_lt (Nat.sub_le _ _) t.isLt)).2

set_option maxHeartbeats 400000 in
theorem res_last (c : Dev nD) (t : Fin cfg2.N) (h1 : t.val % 4 = 3) :
    (outsAt V c t.val t.isLt).1 = k2_pay3 (outsAt V c t.val t.isLt).2 (iblk V c 2 t) := by
  have h0 : ¬t.val % 4 = 0 := by omega
  rw [acc_next V c t h0, outsAt_C V c t h0 h1]
  dsimp only
  exact out_C_eq c (grid2.coords t) (ms0 t) (hs0 t) (ms1 t) (hs1 t) (ms2 t) (hs2 t) (ms3 t) (hs3 t) scM (Memref.isWhole_whole _) (fun h => h0 ((condFirst_iff t).mp h)) ((condLast_iff t).mpr h1) (iblk V c 0 t) (iblk V c 1 t) (iblk V c 2 t) (outsAt V c (t.val - 1) (Nat.lt_of_le_of_lt (Nat.sub_le _ _) t.isLt)).2

end Points

/-! ## Over the extended reals: the blocks read at an entry, the accumulator after each point, the result array -/

section Value
open Cert.GcnSpec (col upTo leaky)
variable (V : (c : Dev nD) → (b : Ref sig .tc) → Buf (Elt Ideal) ((c : Thread nD τ).loc b))

/-- The three arrays the region reads, at an entry. -/
def rdS (c : Dev nD) : Fin 8192 → Fin 8192 → EReal := fun i k => V c main_v0_0 (ix2 i k)
def rdX (c : Dev nD) : Fin 8192 → Fin 128 → EReal := fun k n => V c main_v2 (ix2 k n)
def rdD (c : Dev nD) : Fin 8192 → EReal := fun i => V c main_v0_1 (ix2 i (0 : Fin 1))

/-- Column block `k`'s share of row `i`'s aggregate at feature `n`. -/
def part (c : Dev nD) (i : Fin 8192) (n : Fin 128) (k : Fin 4) : EReal :=
  ∑ q : Fin 2048, rdS V c i (col k q) * rdX V c (col k q) n

/-- The printed block-index maps over the sixteen points `t = 4 i + k`, and the column-block coordinate. -/
theorem idx_facts : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0
    ∧ (grid2.coords t (1 : Fin 2)).val = t.val % 4 :=
  (by decide +kernel : ∀ t : Fin grid2.N, _)

theorem point_lt (t : Fin cfg2.N) : t.val < 16 := lt_of_lt_of_eq t.isLt N_2

/-- The row block and the column block of point `t = 4 i + k`. -/
def rb (t : Fin cfg2.N) : Fin 4 := ⟨t.val / 4, by have := point_lt t; omega⟩
def cb (t : Fin cfg2.N) : Fin 4 := ⟨t.val % 4, by omega⟩

set_option maxHeartbeats 400000 in
theorem emb_in0 (t : Fin cfg2.N) (p q : Fin 2048) :
    (((cfg2.win 0).blk t).view.emb (ix2 p q) : S8192x8192.Idx) = ix2 (col (rb t) p) (col (cb t) q) := by
  obtain ⟨f0, f1, -⟩ := idx_facts t
  funext a; apply Fin.ext
  match a with
  | ⟨0, _⟩ => show win2_0.index t (0 : Fin 2) * 2048 + 1 * p.val = 2048 * (t.val / 4) + p.val; omega
  | ⟨1, _⟩ => show win2_0.index t (1 : Fin 2) * 2048 + 1 * q.val = 2048 * (t.val % 4) + q.val; omega

set_option maxHeartbeats 400000 in
theorem emb_in1 (t : Fin cfg2.N) (p : Fin 8192) (q : Fin 128) :
    (((cfg2.win 1).blk t).view.emb (ix2 p q) : S8192x128.Idx) = ix2 p q := by
  obtain ⟨-, -, f0, f1, -⟩ := idx_facts t
  funext a; apply Fin.ext
  match a with
  | ⟨0, _⟩ => show win2_1.index t (0 : Fin 2) * 8192 + 1 * p.val = p.val; omega
  | ⟨1, _⟩ => show win2_1.index t (1 : Fin 2) * 128 + 1 * q.val = q.val; omega

set_option maxHeartbeats 400000 in
theorem emb_in2 (t : Fin cfg2.N) (p : Fin 2048) (z : Fin 1) :
    (((cfg2.win 2).blk t).view.emb (ix2 p z) : S8192x1.Idx) = ix2 (col (rb t) p) z := by
  obtain ⟨-, -, -, -, f0, f1, -⟩ := idx_facts t
  funext a; apply Fin.ext
  match a with
  | ⟨0, _⟩ => show win2_2.index t (0 : Fin 2) * 2048 + 1 * p.val = 2048 * (t.val / 4) + p.val; omega
  | ⟨1, _⟩ => show win2_2.index t (1 : Fin 2) * 1 + 1 * z.val = z.val; omega

set_option maxHeartbeats 400000 in
theorem emb_out (t : Fin cfg2.N) (p : Fin 2048) (q : Fin 128) :
    (((cfg2.win 3).blk t).view.emb (ix2 p q) : S8192x128.Idx) = ix2 (col (rb t) p) q := by
  obtain ⟨-, -, -, -, -, -, f0, f1, -⟩ := idx_facts t
  funext a; apply Fin.ext
  match a with
  | ⟨0, _⟩ => show win2_3.index t (0 : Fin 2) * 2048 + 1 * p.val = 2048 * (t.val / 4) + p.val; omega
  | ⟨1, _⟩ => show win2_3.index t (1 : Fin 2) * 128 + 1 * q.val = q.val; omega

/-- Each input block at a place is its array read where the point's block starts. -/
theorem iblk0_at (c : Dev nD) (t : Fin cfg2.N) (p q : Fin 2048) :
    iblk V c 0 t (ix2 p q) = rdS V c (col (rb t) p) (col (cb t) q) := by
  show V c main_v0_0 (((cfg2.win 0).blk t).view.emb (ix2 p q)) = V c main_v0_0 (ix2 (col (rb t) p) (col (cb t) q))
  rw [emb_in0]
theorem iblk1_at (c : Dev nD) (t : Fin cfg2.N) (p : Fin 8192) (q : Fin 128) : iblk V c 1 t (ix2 p q) = rdX V c p q := by
  show V c main_v2 (((cfg2.win 1).blk t).view.emb (ix2 p q)) = V c main_v2 (ix2 p q)
  rw [emb_in1]
theorem iblk2_at (c : Dev nD) (t : Fin cfg2.N) (p : Fin 2048) : iblk V c 2 t (ix2 p (0 : Fin 1)) = rdD V c (col (rb t) p) := by
  show V c main_v0_1 (((cfg2.win 2).blk t).view.emb (ix2 p (0 : Fin 1))) = V c main_v0_1 (ix2 (col (rb t) p) (0 : Fin 1))
  rw [emb_in2]

/-- The rows the body loads of the resident operand at point `t` are rows `2048 k + q` of the array. -/
theorem rows_at (c : Dev nD) (t : Fin cfg2.N) (q : Fin 2048) (n : Fin 128) :
    rows (grid2.coords t) (iblk V c 1 t) (ix2 q n) = rdX V c (col (cb t) q) n := by
  obtain ⟨-, -, -, -, -, -, -, -, fc⟩ := idx_facts t
  have e : (Rect.unit (s := S8192x128) (k2_off1 (grid2.coords t)) S2048x128.size (k2_off1_inb (grid2.coords t))).idx (ix2 q n)
      = ix2 (col (cb t) q) n := by
    funext a; apply Fin.ext
    have h0 : k2_off1 (grid2.coords t) (0 : Fin 2) = 2048 * (grid2.coords t (1 : Fin 2)).val := by rw [k2_off1_eq]; rfl
    have h1 : k2_off1 (grid2.coords t) (1 : Fin 2) = 0 := by rw [k2_off1_eq]; rfl
    match a with
    | ⟨0, _⟩ => show k2_off1 (grid2.coords t) (0 : Fin 2) + 1 * q.val = 2048 * (t.val % 4) + q.val; omega
    | ⟨1, _⟩ => show k2_off1 (grid2.coords t) (1 : Fin 2) + 1 * n.val = n.val; omega
  show iblk V c 1 t ((Rect.unit (s := S8192x128) (k2_off1 (grid2.coords t)) S2048x128.size (k2_off1_inb (grid2.coords t))).idx (ix2 q n)) = _
  rw [e]
  exact iblk1_at V c t (col (cb t) q) n

/-- One accumulation at point `t`, at row `r` of the block and feature `n`. -/
theorem step (c : Dev nD) (t : Fin cfg2.N) (acc : Vec Ideal S2048x128 .f32) (r : Fin 2048) (n : Fin 128) :
    k2_pay2 (F := Ideal) (rows (grid2.coords t) (iblk V c 1 t)) acc (iblk V c 0 t) (ix2 r n)
      = acc (ix2 r n) + part V c (col (rb t) r) n (cb t) := by
  refine (pay2_apply _ _ _ r n).trans ?_
  refine congrArg (acc (ix2 r n) + ·) ?_
  unfold part
  exact Finset.sum_congr rfl fun q _ => congrArg₂ (· * ·) (iblk0_at V c t r q) (rows_at V c t q n)

/-- The accumulator after point `4 i + k` holds, at row `r` and feature `n`, the first `k + 1` block shares of row
    `2048 i + r` gathered in order from zero. -/
theorem acc_eq (c : Dev nD) : ∀ (m : ℕ) (hm : m < cfg2.N) (r : Fin 2048) (n : Fin 128),
    (outsAt V c m hm).2 (ix2 r n) = upTo (part V c (col (rb ⟨m, hm⟩) r) n) (m % 4 + 1) := by
  intro m
  induction m with
  | zero =>
    intro hm r n
    rw [acc_first V c ⟨0, hm⟩ rfl]
    refine (step V c ⟨0, hm⟩ _ r n).trans ?_
    rw [pay1_apply]
    simp [upTo, cb]
  | succ m ih =>
    intro hm r n
    have hN : m + 1 < 16 := lt_of_lt_of_eq hm N_2
    by_cases h0 : (m + 1) % 4 = 0
    · rw [acc_first V c ⟨m + 1, hm⟩ h0]
      refine (step V c ⟨m + 1, hm⟩ _ r n).trans ?_
      rw [pay1_apply, h0]
      have e : cb ⟨m + 1, hm⟩ = ⟨0, by omega⟩ := Fin.ext h0
      rw [e]
      simp [upTo]
    · rw [acc_next V c ⟨m + 1, hm⟩ h0]
      refine (step V c ⟨m + 1, hm⟩ _ r n).trans ?_
      have hk : (m + 1) % 4 = m % 4 + 1 := by omega
      have e : rb ⟨m + 1, hm⟩ = rb ⟨m, Nat.lt_of_succ_lt hm⟩ := Fin.ext (by show (m + 1) / 4 = m / 4; omega)
      have e' : cb ⟨m + 1, hm⟩ = ⟨m % 4 + 1, by omega⟩ := Fin.ext hk
      show (outsAt V c m _).2 (ix2 r n) + _ = _
      rw [ih (Nat.lt_of_succ_lt hm) r n, e, e', hk]
      show _ = upTo _ (m % 4 + 1) + _
      rw [dif_pos (by omega : m % 4 + 1 < 4)]

/-! ## The result array -/

/-- Row `i`, feature `n` of the result: the four block shares gathered from zero, times the row's factor, through
    the leaky rectifier. -/
def rowVal (c : Dev nD) (i : Fin 8192) (n : Fin 128) : EReal :=
  leaky (upTo (part V c i n) 4 * rdD V c i)

/-- The result array as one function of its index. -/
def G (c : Dev nD) : S8192x128.Idx → EReal := fun j => rowVal V c ⟨(j 0).val, (j 0).isLt⟩ ⟨(j 1).val, (j 1).isLt⟩

set_option maxHeartbeats 400000 in
/-- What a last column block's point writes back is its block of `G`. -/
theorem flushed_eq (c : Dev nD) (t : Fin cfg2.N) (hf : (cfg2.win 3).flush t = true) :
    (dat (F := Ideal) V c).flushed 3 t = ((cfg2.win 3).blk t).view.read (Elt Ideal) (G V c) := by
  have h3 : t.val % 4 = 3 := (flush2_3 t).mp hf
  show (cfg2.win 3).cut (grid2.coords t) ((dat (F := Ideal) V c).after 3 t) = _
  rw [after_3]
  funext j
  obtain ⟨p, q, rfl⟩ : ∃ (p : Fin 2048) (q : Fin 128), j = ix2 p q := ⟨j 0, j 1, eq_ix2 j⟩
  show (outsAt V c t.val t.isLt).1 (ix2 p q) = G V c (((cfg2.win 3).blk t).view.emb (ix2 p q))
  rw [emb_out, res_last V c t h3]
  refine (pay3_apply _ _ p q).trans ?_
  rw [acc_eq V c t.val t.isLt p q, iblk2_at V c t p, h3]
  rfl

/-- An index of the array is in point `t`'s block iff each coordinate is in the block's range on its axis. -/
theorem mem_blk (t : Fin cfg2.N) (i : S8192x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v3).slice (win2_3.rect t)).set ↔ _
  rw [View.set_slice_whole, Rect.mem_set_unit]
  exact Iff.rfl

/-- Every index of the array is in the block of the last point of the row block its row falls in. -/
theorem cover (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  let t : Fin cfg2.N := ⟨4 * ((i 0).val / 2048) + 3, lt_of_lt_of_eq (by omega : 4 * ((i 0).val / 2048) + 3 < 16) N_2.symm⟩
  obtain ⟨-, -, -, -, -, -, f0, f1, -⟩ := idx_facts t
  have ht : t.val = 4 * ((i 0).val / 2048) + 3 := rfl
  refine ⟨t, (flush2_3 t).mpr (by omega), ?_⟩
  rw [mem_blk]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

/-- The result array after the call's last point is `G`. -/
theorem final (c : Dev nD) : (dat (F := Ideal) V c).arrAt 3 cfg2.N = G V c :=
  (dat (F := Ideal) V c).arrAt_eq_of_cover 3 (G V c) (fun t hf => flushed_eq V c t hf) cover

/-- The result array after the call, entry by entry. -/
theorem value (c : Dev nD) (i : Fin 8192) (n : Fin 128) :
    (dat (F := Ideal) V c).arrAt 3 cfg2.N (ix2 i n)
      = Cert.GcnSpec.leaky (Cert.GcnSpec.upTo (fun t => ∑ q : Fin 2048, rdS V c i (Cert.GcnSpec.col t q) * rdX V c (Cert.GcnSpec.col t q) n) 4 * rdD V c i) := by
  rw [final]; rfl

end Value

end Cert.KernelIdeal.Reg2
end
-- ==== Proof.KI_Value.lean ====
/-
  The three tiled computations composed: what the last boundary of @main holds in the two result arrays, as the
  layer's own functions of the launch memory. The row-sum kernel leaves the clamped sigmoids s and the reciprocal
  square roots d of their row sums; the bias is re-laid as a row; the scaled linear map leaves (H · W + b) · d
  row by row, reading d and the re-laid bias; the aggregation leaves the rectified (Σ_k s i k · hws k n) · d i,
  reading all three. No computation writes what a later one reads except through these arrays, so each array
  is read back through the boundaries to the computation that wrote it.
-/
import proofs.«141990_j36206574305751_2_alg».proof.Proof.KI_Run
import proofs.«141990_j36206574305751_2_alg».proof.Proof.Spec
import proofs.«141990_j36206574305751_2_alg».proof.Proof.KI_Reg1Value
import proofs.«141990_j36206574305751_2_alg».proof.Proof.KI_Reg0Value
import proofs.«141990_j36206574305751_2_alg».proof.Proof.KI_Reg2Value
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window cellOf)
open Cert.GcnSpec (sg col upTo rowPart dinv hw hws aggPart pre leaky out)

variable (m : (ℓ : Loc nD τ sig) → Buf (Elt Ideal) ℓ) (ρ : Dev nD → PrngReg)

/-! ## The launch memory by coordinates -/

/-- The adjacency, the features, the weights and the bias as launched. -/
def rA (c : Dev nD) : Fin 8192 → Fin 8192 → EReal := fun i k => m ((c : Thread nD τ).loc main_arg1) (ix2 i k)
def rH (c : Dev nD) : Fin 8192 → Fin 200 → EReal := fun k l => m ((c : Thread nD τ).loc main_arg0) (ix2 k l)
def rW (c : Dev nD) : Fin 200 → Fin 128 → EReal := fun l n => m ((c : Thread nD τ).loc main_arg2) (ix2 l n)
def rB (c : Dev nD) : Fin 128 → EReal := fun n => m ((c : Thread nD τ).loc main_arg3) (ix1 n)

/-! ## After the row-sum kernel -/

/-- The clamped sigmoids it leaves. -/
theorem sig_at1 (c : Dev nD) (i k : Fin 8192) : W1 m ρ c (Proc.devRef .tc main_v0_0) (ix2 i k) = sg (rA m c i k) :=
  (congrFun (W1_arr m ρ c 1) (ix2 i k)).trans (Reg0.value_sig (E0 m ρ) c i k)

/-- The reciprocal square roots of the row sums it leaves. -/
theorem dinv_at1 (c : Dev nD) (i : Fin 8192) : W1 m ρ c (Proc.devRef .tc main_v0_1) (ix2 i (0 : Fin 1)) = dinv (rA m c) i :=
  (congrFun (W1_arr m ρ c 2) (ix2 i (0 : Fin 1))).trans (Reg0.value_dinv (E0 m ρ) c i)

/-! ## After the bias is re-laid as a row -/

/-- The re-laying writes only the bias row: every other buffer is as the row-sum kernel left it. -/
theorem at2_of (c : Dev nD) (r : Ref sig .tc) (h : r ∉ hostOps1_W) :
    W2 m ρ c (Proc.devRef .tc r) = W1 m ρ c (Proc.devRef .tc r) :=
  StableHlo.after_of_writes_sub hostOps1 (W1 m ρ c) hostOps1_writes h

/-- The bias row at (0, n) is the launched bias at n. -/
theorem bias_at2 (c : Dev nD) (n : Fin 128) : W2 m ρ c (Proc.devRef .tc main_v1) (ix2 (0 : Fin 1) n) = rB m c n := by
  have e : (W2 m ρ c (Proc.devRef .tc main_v1) : S1x128.Idx → EReal)
      = shapeCast S1x128 (W1 m ρ c (Proc.devRef .tc main_arg3) : S128.Idx → EReal) shapeCasts_S128_S1x128 := by
    show StableHlo.after hostOps1 (W1 m ρ c) (Proc.devRef .tc main_v1) = _
    after_results
    rfl
  have e3 : W1 m ρ c (Proc.devRef .tc main_arg3) = m ((c : Thread nD τ).loc main_arg3) := W1_of_ne m ρ c main_arg3 (by decide)
  refine (congrFun e (ix2 (0 : Fin 1) n)).trans ?_
  rw [shapeCast_a_1a_apply, e3]
  rfl

/-! ## After the scaled linear map -/

/-- What the scaled linear map reads is the launched features and weights, the launched bias, and the row-sum
    kernel's reciprocal square roots. -/
theorem rdH_at (c : Dev nD) : Reg1.rdH (E1 m ρ) c = rH m c := by
  funext k l
  have e : W2 m ρ c (Proc.devRef .tc main_arg0) = m ((c : Thread nD τ).loc main_arg0) :=
    (at2_of m ρ c main_arg0 (by decide)).trans (W1_of_ne m ρ c main_arg0 (by decide))
  exact congrFun e (ix2 k l)
theorem rdW_at (c : Dev nD) : Reg1.rdW (E1 m ρ) c = rW m c := by
  funext l n
  have e : W2 m ρ c (Proc.devRef .tc main_arg2) = m ((c : Thread nD τ).loc main_arg2) :=
    (at2_of m ρ c main_arg2 (by decide)).trans (W1_of_ne m ρ c main_arg2 (by decide))
  exact congrFun e (ix2 l n)
theorem rdB_at (c : Dev nD) : Reg1.rdB (E1 m ρ) c = rB m c := by
  funext n
  exact bias_at2 m ρ c n
theorem rdD_at (c : Dev nD) : Reg1.rdD (E1 m ρ) c = dinv (rA m c) := by
  funext k
  exact (congrFun (at2_of m ρ c main_v0_1 (by decide)) (ix2 k (0 : Fin 1))).trans (dinv_at1 m ρ c k)

/-- The scaled linear map's result. -/
theorem hws_at3 (c : Dev nD) (k : Fin 8192) (n : Fin 128) :
    W3 m ρ c (Proc.devRef .tc main_v2) (ix2 k n) = hws (rA m c) (rH m c) (rW m c) (rB m c) k n := by
  refine (congrFun (W3_arr m ρ c 4) (ix2 k n)).trans ((Reg1.value_spec (E1 m ρ) c k n).trans ?_)
  rw [rdH_at, rdW_at, rdB_at, rdD_at]
  rfl

/-- It leaves the clamped sigmoids and the reciprocal square roots as they were. -/
theorem sig_at3 (c : Dev nD) (i k : Fin 8192) : W3 m ρ c (Proc.devRef .tc main_v0_0) (ix2 i k) = sg (rA m c i k) :=
  (congrFun ((W3_of_ne m ρ c main_v0_0 (by decide)).trans (at2_of m ρ c main_v0_0 (by decide))) (ix2 i k)).trans (sig_at1 m ρ c i k)
theorem dinv_at3 (c : Dev nD) (i : Fin 8192) : W3 m ρ c (Proc.devRef .tc main_v0_1) (ix2 i (0 : Fin 1)) = dinv (rA m c) i := by
  have e : W3 m ρ c (Proc.devRef .tc main_v0_1) = W2 m ρ c (Proc.devRef .tc main_v0_1) :=
    (W3_arr m ρ c 3).trans (((Reg1.dat (E1 m ρ) c).arrAt_in 3 rfl _).trans (Reg1.A_eq (E1 m ρ) c 3))
  exact (congrFun (e.trans (at2_of m ρ c main_v0_1 (by decide))) (ix2 i (0 : Fin 1))).trans (dinv_at1 m ρ c i)

/-! ## After the aggregation -/

theorem rdS_at (c : Dev nD) : Reg2.rdS (E2 m ρ) c = fun i k => sg (rA m c i k) := by
  funext i k
  exact sig_at3 m ρ c i k
theorem rdX_at (c : Dev nD) : Reg2.rdX (E2 m ρ) c = hws (rA m c) (rH m c) (rW m c) (rB m c) := by
  funext k n
  exact hws_at3 m ρ c k n
theorem rdD2_at (c : Dev nD) : Reg2.rdD (E2 m ρ) c = dinv (rA m c) := by
  funext i
  exact dinv_at3 m ρ c i

/-- The layer's result is what the last boundary holds in the result array. -/
theorem out_value (c : Dev nD) (i : Fin 8192) (n : Fin 128) :
    W4 m ρ c (Proc.devRef .tc main_v3) (ix2 i n) = out (rA m c) (rH m c) (rW m c) (rB m c) i n := by
  refine (congrFun (W4_arr m ρ c 3) (ix2 i n)).trans ((Reg2.value (E2 m ρ) c i n).trans ?_)
  rw [rdS_at, rdX_at, rdD2_at]
  rfl

/-- The clamped sigmoids are what the last boundary holds in the second result array. -/
theorem sig_value (c : Dev nD) (i k : Fin 8192) :
    W4 m ρ c (Proc.devRef .tc main_v0_0) (ix2 i k) = sg (rA m c i k) := by
  have e : W4 m ρ c (Proc.devRef .tc main_v0_0) = W3 m ρ c (Proc.devRef .tc main_v0_0) :=
    (W4_arr m ρ c 0).trans (((Reg2.dat (E2 m ρ) c).arrAt_in 0 rfl _).trans (Reg2.A_eq (E2 m ρ) c 0))
  exact (congrFun e (ix2 i k)).trans (sig_at3 m ρ c i k)

end Cert.KernelIdeal.Run

end
-- ==== Proof.RefConsts.lean ====
/-
  The float literals the reference spells, as the extended reals their patterns denote: the lower clamp is a
  positive real, the exponent of the normalisation is `-1/2`, and the literals one and zero are `1` and `0`.
-/
import Idealize.ShloMosaic.PureOps.Ideal
import Idealize.ShloMosaic.PureOps.Ideal.Laws
import proofs.«141990_j36206574305751_2_alg».proof.Proof.Spec

noncomputable section

namespace Cert.RefConsts

open Idealize.ShloMosaic

/-- The literal `1.0` denotes `1`. -/
theorem ofBits_one : Ideal.ofBits .f32 0x3F800000#32 = 1 := by
  simp [Ideal.ofBits, Ideal.ieee, -EReal.coe_mul]; norm_num

/-- The literal `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The lower clamp, the f32 nearest `0.1`, is the real `13421773 / 2^27`. -/
theorem clampLo_eq : Cert.GcnSpec.clampLo = ((13421773 / 134217728 : ℝ) : EReal) := by
  unfold Cert.GcnSpec.clampLo
  simp [Ideal.ofBits, Ideal.ieee, -EReal.coe_mul]; norm_num

/-- The lower clamp is a positive real. -/
theorem clampLo_pos : ∃ r : ℝ, 0 < r ∧ Cert.GcnSpec.clampLo = (r : EReal) :=
  ⟨13421773 / 134217728, by norm_num, clampLo_eq⟩

end Cert.RefConsts

end
-- ==== Proof.RefRead.lean ====
/-
  The reference program read one element at a time, at the extended reals.

  Its clamped sigmoid at `(i, k)` is `sg (A i k)`; its normalising factor of row `i` is the power `-1/2` of
  `0 + Σ_k sg (A i k)`; its features at `(k, n)` are `hw k n = Σ_l H k l · W l n + b n`; the aggregate at `(i, n)` is
  `Σ_k ((sg (A i k) · p i) · p k) · hw k n`; and the result is that aggregate through the leaky rectifier.
-/
import proofs.«141990_j36206574305751_2_alg».proof.Proof.Gen.ReferenceIdeal.Read
import proofs.«141990_j36206574305751_2_alg».proof.Proof.Spec
import proofs.«141990_j36206574305751_2_alg».proof.Proof.RefConsts

noncomputable section

namespace Cert.RefRead

open Idealize.ShloMosaic Idealize.ShloMosaic.ValueIdx Cert.ReferenceIdeal Cert.ReferenceIdeal.Read

variable [Cert.ReferenceIdeal.Facts]

/-- The reference's clamped sigmoid at `(i, k)`. -/
theorem sig_at (x1 : (⟨S8192x8192, .f32⟩ : BufTy).Contents (Elt Ideal)) (i k : Fin 8192) :
    val_main_v7 (F := Ideal) x1 (ix2 i k) = Cert.GcnSpec.sg (x1 (ix2 i k)) := by
  rw [val_main_v7_apply, val_main_v5_apply, val_main_v6_apply, val_main_cst_1_apply, val_main_v4_apply, val_main_cst_0_apply,
    val_main_v3_apply, val_main_v2_apply, val_main_cst_apply, val_main_v1_apply, val_main_v0_apply]
  simp only [Ideal.maximumf_def, Ideal.hostDivf_def, Ideal.addf_def, Ideal.hostUnary_exp_def, Ideal.hostNegf_def,
    Ideal.negf_def, Ideal.ofBits_def, Cert.RefConsts.ofBits_one]
  rfl

/-- The reference's normalising factor of row `i`: the power `-1/2` of the row's sum gathered from zero. -/
theorem pw_at (x1 : (⟨S8192x8192, .f32⟩ : BufTy).Contents (Elt Ideal)) (i : Fin 8192) :
    val_main_v10 (F := Ideal) x1 (ix1 i)
      = Ideal.pow (0 + ∑ k : Fin 8192, Cert.GcnSpec.sg (x1 (ix2 i k))) (Ideal.ofBits .f32 0xBF000000#32) := by
  rw [val_main_v10_apply, val_main_v8_apply, val_main_v9_apply, val_main_cst_3_apply, val_main_cst_2_apply]
  have e : ∀ k : Fin 8192, idx_main_v8 (ix1 i) k = ix2 i k := fun k =>
    funext fun a => Fin.ext (by match a with | ⟨0, _⟩ => rfl | ⟨1, _⟩ => rfl)
  simp only [e, sig_at, Ideal.hostPowf_def, Ideal.ofBits_def, Ideal.ofBits_zero_f32]

/-- The reference's doubly scaled adjacency at `(i, k)`. -/
theorem v16_at (x1 : (⟨S8192x8192, .f32⟩ : BufTy).Contents (Elt Ideal)) (i k : Fin 8192) :
    val_main_v16 (F := Ideal) x1 (ix2 i k)
      = (Cert.GcnSpec.sg (x1 (ix2 i k)) * val_main_v10 (F := Ideal) x1 (ix1 i)) * val_main_v10 (F := Ideal) x1 (ix1 k) := by
  rw [val_main_v16_apply, val_main_v13_apply, val_main_v15_apply, val_main_v14_apply, val_main_v12_apply,
    val_main_v11_apply, sig_at]
  have e1 : idx_main_v11 (idx_main_v12 (ix2 i k)) = ix1 i :=
    funext fun a => Fin.ext (by match a with | ⟨0, _⟩ => rfl)
  have e2 : idx_main_v14 (idx_main_v15 (ix2 i k)) = ix1 k :=
    funext fun a => Fin.ext (by match a with | ⟨0, _⟩ => rfl)
  rw [e1, e2]
  rfl

/-- The reference's features at `(k, n)`. -/
theorem hw_at (x0 : (⟨S8192x200, .f32⟩ : BufTy).Contents (Elt Ideal)) (x2 : (⟨S200x128, .f32⟩ : BufTy).Contents (Elt Ideal))
    (x3 : (⟨S128, .f32⟩ : BufTy).Contents (Elt Ideal)) (k : Fin 8192) (n : Fin 128) :
    val_main_v20 (F := Ideal) x0 x2 x3 (ix2 k n)
      = Cert.GcnSpec.hw (fun k l => x0 (ix2 k l)) (fun l n => x2 (ix2 l n)) (fun n => x3 (ix1 n)) k n := by
  rw [val_main_v20_apply, val_main_v17_apply, val_main_v19_apply, val_main_v18_apply]
  have e1 : ∀ l : Fin 200, lidx_main_v17 (ix2 k n) l = ix2 k l := fun l =>
    funext fun a => Fin.ext (by match a with | ⟨0, _⟩ => rfl | ⟨1, _⟩ => rfl)
  have e2 : ∀ l : Fin 200, ridx_main_v17 (ix2 k n) l = ix2 l n := fun l =>
    funext fun a => Fin.ext (by match a with | ⟨0, _⟩ => rfl | ⟨1, _⟩ => rfl)
  have e3 : idx_main_v18 (idx_main_v19 (ix2 k n)) = ix1 n :=
    funext fun a => Fin.ext (by match a with | ⟨0, _⟩ => rfl)
  simp only [e1, e2, e3, Ideal.addf_def]
  rfl

/-- The reference's aggregate at `(i, n)`, before the rectifier. -/
theorem v21_at (x0 : (⟨S8192x200, .f32⟩ : BufTy).Contents (Elt Ideal)) (x1 : (⟨S8192x8192, .f32⟩ : BufTy).Contents (Elt Ideal))
    (x2 : (⟨S200x128, .f32⟩ : BufTy).Contents (Elt Ideal)) (x3 : (⟨S128, .f32⟩ : BufTy).Contents (Elt Ideal))
    (i : Fin 8192) (n : Fin 128) :
    val_main_v21 (F := Ideal) x0 x1 x2 x3 (ix2 i n)
      = ∑ k : Fin 8192, ((Cert.GcnSpec.sg (x1 (ix2 i k)) * val_main_v10 (F := Ideal) x1 (ix1 i)) * val_main_v10 (F := Ideal) x1 (ix1 k))
          * Cert.GcnSpec.hw (fun k l => x0 (ix2 k l)) (fun l n => x2 (ix2 l n)) (fun n => x3 (ix1 n)) k n := by
  rw [val_main_v21_apply]
  refine Finset.sum_congr rfl fun k _ => ?_
  have e1 : lidx_main_v21 (ix2 i n) k = ix2 i k :=
    funext fun a => Fin.ext (by match a with | ⟨0, _⟩ => rfl | ⟨1, _⟩ => rfl)
  have e2 : ridx_main_v21 (ix2 i n) k = ix2 k n :=
    funext fun a => Fin.ext (by match a with | ⟨0, _⟩ => rfl | ⟨1, _⟩ => rfl)
  rw [e1, e2, v16_at, hw_at]

/-- The reference's result is its aggregate through the leaky rectifier. -/
theorem out_at (x0 : (⟨S8192x200, .f32⟩ : BufTy).Contents (Elt Ideal)) (x1 : (⟨S8192x8192, .f32⟩ : BufTy).Contents (Elt Ideal))
    (x2 : (⟨S200x128, .f32⟩ : BufTy).Contents (Elt Ideal)) (x3 : (⟨S128, .f32⟩ : BufTy).Contents (Elt Ideal))
    (j : S8192x128.Idx) :
    val_main_v26 (F := Ideal) x0 x1 x2 x3 j = Cert.GcnSpec.leaky (val_main_v21 (F := Ideal) x0 x1 x2 x3 j) := by
  rw [val_main_v26_apply, val_main_v23_apply, val_main_v25_apply, val_main_v22_apply, val_main_v24_apply,
    val_main_cst_4_apply, val_main_cst_5_apply]
  generalize val_main_v21 (F := Ideal) x0 x1 x2 x3 j = X
  rfl

end Cert.RefRead

end
-- ==== Proof.LibBlockSum.lean ====
/-
  A finite sum over n = a · b consecutive naturals, taken block by block: the outer sum runs over the a blocks,
  the inner one over the b places inside a block, the k-th summand being the one at place k mod b of block k / b.
  Only commutativity and associativity of the addition are used, so it holds in any commutative additive monoid —
  the extended reals with their addition among them.
-/
import Mathlib

namespace LibBlockSum

/-- The sum over `Fin n`, `n = a * b`, is the sum over the `a` blocks of the sums over each block's `b` places. -/
theorem sum_blocks {M : Type*} [AddCommMonoid M] {n : ℕ} (a b : ℕ) (h : n = a * b) (f : Fin n → M) :
    ∑ k : Fin n, f k
      = ∑ t : Fin a, ∑ q : Fin b, f ⟨b * t.val + q.val, by
          have := t.isLt; have := q.isLt
          calc b * t.val + q.val < b * t.val + b := by omega
            _ = b * (t.val + 1) := by ring
            _ ≤ b * a := Nat.mul_le_mul_left _ (by omega)
            _ = n := by rw [h, Nat.mul_comm]⟩ := by
  subst h
  rw [← (finProdFinEquiv (m := a) (n := b)).sum_comp, Fintype.sum_prod_type]
  refine Finset.sum_congr rfl fun t _ => Finset.sum_congr rfl fun q _ => ?_
  refine congrArg f (Fin.ext ?_)
  show q.val + b * t.val = b * t.val + q.val
  omega

end LibBlockSum
-- ==== Proof.Alg.lean ====
/-
  The arithmetic of the layer over the real numbers, and its transfer to the extended reals for entries that
  are real numbers.

  With real `s k`, `h k`, `d k` and `dᵢ`, the sum `Σ_k ((s k · dᵢ) · d k) · h k` over all 8192 columns equals
  `(Σ_t Σ_q s (c t q) · (h (c t q) · d (c t q))) · dᵢ`, the sum gathered over four blocks of 2048 columns with the
  common factor `dᵢ` taken out. Distributivity is used, which the extended reals have only away from the
  infinities, so the identity is proved for reals and carried over through the coercion.
-/
import Mathlib
import proofs.«141990_j36206574305751_2_alg».proof.Proof.LibBlockSum

namespace Cert.Alg

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} [Fintype ι] (f : ι → EReal) (h : ∀ i, IsReal (f i)) : IsReal (∑ i, f i) := by
  choose g hg using h
  obtain rfl : f = fun i => (g i : EReal) := funext hg
  exact ⟨_, coe_sum _ _⟩

/-- A sum over the 8192 columns of reals each at least a positive `lo` is a positive real. -/
theorem sum_pos_real (S : Fin 8192 → EReal) (lo : ℝ) (hlo : 0 < lo) (hS : ∀ k, ∃ r : ℝ, lo ≤ r ∧ S k = (r : EReal)) :
    ∃ σ : ℝ, 0 < σ ∧ ∑ k, S k = (σ : EReal) := by
  choose s hs using hS
  obtain rfl : S = fun k => (s k : EReal) := funext fun k => (hs k).2
  refine ⟨∑ k, s k, ?_, coe_sum _ _⟩
  exact Finset.sum_pos (fun k _ => lt_of_lt_of_le hlo (hs k).1) ⟨⟨0, by norm_num⟩, Finset.mem_univ _⟩

/-- The reciprocal square root of a positive real is its power `-1/2`. -/
theorem inv_sqrt_eq_rpow {r : ℝ} (hr : 0 < r) : (Real.sqrt r)⁻¹ = r ^ (-(1 / 2) : ℝ) := by
  rw [Real.rpow_neg hr.le, Real.sqrt_eq_rpow]

/-- A sum over 8192 columns taken as four blocks of 2048. -/
theorem sum_cols {M : Type*} [AddCommMonoid M] (c : Fin 4 → Fin 2048 → Fin 8192)
    (hc : ∀ t q, (c t q).val = 2048 * t.val + q.val) (F : Fin 8192 → M) :
    (∑ t : Fin 4, ∑ q : Fin 2048, F (c t q)) = ∑ k, F k := by
  rw [LibBlockSum.sum_blocks 4 2048 (by norm_num) F]
  exact Finset.sum_congr rfl fun t _ => Finset.sum_congr rfl fun q _ => congrArg F (Fin.ext (hc t q))

/-- The aggregate with both scalings inside the sum equals the blockwise aggregate of the pre-scaled
    features with the row's factor outside. -/
theorem agg_eq (c : Fin 4 → Fin 2048 → Fin 8192) (hc : ∀ t q, (c t q).val = 2048 * t.val + q.val)
    (S Hw D : Fin 8192 → EReal) (Di : EReal)
    (hS : ∀ k, IsReal (S k)) (hH : ∀ k, IsReal (Hw k)) (hD : ∀ k, IsReal (D k)) (hDi : IsReal Di) :
    ∑ k, ((S k * Di) * D k) * Hw k
      = (∑ t : Fin 4, ∑ q : Fin 2048, S (c t q) * (Hw (c t q) * D (c t q))) * Di := by
  rw [sum_cols c hc (fun k => S k * (Hw k * D k))]
  choose s hs using hS; choose h hh using hH; choose d hd using hD; obtain ⟨di, rfl⟩ := hDi
  obtain rfl : S = fun k => (s k : EReal) := funext hs
  obtain rfl : Hw = fun k => (h k : EReal) := funext hh
  obtain rfl : D = fun k => (d k : EReal) := funext hd
  simp only [← EReal.coe_mul, coe_sum]
  refine congrArg _ ?_
  rw [Finset.sum_mul]
  exact Finset.sum_congr rfl fun k _ => by ring

end Cert.Alg
-- ==== Proof.RefFinite.lean ====
/-
  The precondition read back: every entry of the four argument arrays is a real number.

  The precondition is the conjunction, over the four arrays, of "every entry's absolute value compares below the
  pattern of `+∞`". An extended real whose absolute value is below `⊤` is neither `⊤` nor `⊥`, hence a real.
-/
import Idealize.ShloMosaic.Lib.ReduceAll
import Idealize.ShloMosaic.Lib.ValueIdx
import Idealize.ShloMosaic.Lib.Pipeline.Value
import Idealize.ShloMosaic.PureOps.Ideal.Laws
import proofs.«141990_j36206574305751_2_alg».proof.Pre_finite_inputs
import proofs.«141990_j36206574305751_2_alg».proof.Proof.Alg

noncomputable section

namespace Cert.RefFinite

open Idealize.ShloMosaic Idealize.ShloMosaic.ValueIdx Cert.Pre_finite_inputs

instance : Subsingleton Cert.Pre_finite_inputs.S_.Idx := ⟨fun a b => funext fun d => d.elim0⟩

/-- An extended real whose absolute value compares below `+∞` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    Cert.Alg.IsReal x := by
  induction x using EReal.rec with
  | bot => simp [Ideal.cmpf_def, Ideal.cmp, Ideal.absf_def, Ideal.ofBits, Ideal.ieee] at h
  | top => simp [Ideal.cmpf_def, Ideal.cmp, Ideal.absf_def, Ideal.ofBits, Ideal.ieee] at h
  | coe r => exact ⟨r, rfl⟩

/-- One array's share of the precondition gives that each of its entries is a real number. -/
theorem all_real {s : Shape} (x : FVec Ideal s .f32) (bc : S_.BroadcastsInDim s (![] : Fin 0 → Fin s.rank))
    {axes : List (Fin s.rank)} (red : s.ReducesTo axes S_) (hu : 0 < S_.numel)
    (e : Host.reduce IntOp.andi (cmpf .olt (Host.absf x) (broadcastInDim s ![] bc (constant (F := Ideal) S_ .f32 0x7F800000#32)))
      (constantI S_ 1 1#1) red hu ix0 = 1#1) (j : s.Idx) : Cert.Alg.IsReal (x j) := by
  have h1 := Host.reduce_andi_all _ _ red hu ix0 e j
  have hb : broadcastInDim s ![] bc (constant (F := Ideal) S_ .f32 0x7F800000#32) j
      = FloatOps.ofBits (F := Ideal) .f32 0x7F800000#32 := broadcastInDim_apply _ bc _ j ix0 (fun a => a.elim0)
  have h2 : FloatOps.cmpf (F := Ideal) (φ := .f32) .olt (FloatOps.hostAbsf (F := Ideal) (φ := .f32) (x j))
      (broadcastInDim s ![] bc (constant (F := Ideal) S_ .f32 0x7F800000#32) j) = 1#1 := h1
  rw [hb] at h2
  exact real_of_abs_lt _ h2

variable [Cert.Pre_finite_inputs.Facts]

set_option maxHeartbeats 400000 in
/-- Under the precondition every entry of every argument array is a real number. -/
theorem finite_all (x0 : FVec Ideal S8192x200 .f32) (x1 : FVec Ideal S8192x8192 .f32) (x2 : FVec Ideal S200x128 .f32) (x3 : FVec Ideal S128 .f32)
    (hfin : Cert.Pre_finite_inputs.fn (F := Ideal) x0 x1 x2 x3 = fun _ => 1#1) :
    (∀ j, Cert.Alg.IsReal (x0 j)) ∧ (∀ j, Cert.Alg.IsReal (x1 j)) ∧ (∀ j, Cert.Alg.IsReal (x2 j)) ∧ (∀ j, Cert.Alg.IsReal (x3 j)) := by
  have h := congrFun hfin ValueIdx.ix0
  dsimp only [Cert.Pre_finite_inputs.fn, Cert.Pre_finite_inputs.fn_part1] at h
  change IntOp.andi (IntOp.andi (IntOp.andi _ _) _) _ = 1#1 at h
  rw [IntOp.andi_eq_one, IntOp.andi_eq_one, IntOp.andi_eq_one] at h
  obtain ⟨⟨⟨h0, h1⟩, h2⟩, h3⟩ := h
  exact ⟨all_real _ _ _ _ h0, all_real _ _ _ _ h1, all_real _ _ _ _ h2, all_real _ _ _ _ h3⟩

end Cert.RefFinite

end
-- ==== Proof.RefBridge.lean ====
/-
  The reference's results as the layer's formulas.

  Under the precondition every entry of the four arrays is a real number. Then each clamped sigmoid is a real at
  least the positive clamp, each row sum a positive real `σ`, and the reference's `σ ^ (-1/2)` is the reciprocal
  square root `(√σ)⁻¹` the formula names, a real `d i`. The features `hw k n` are real, and over the reals
  `Σ_k ((s i k · d i) · d k) · hw k n = (Σ_t Σ_q s i (col t q) · (hw (col t q) n · d (col t q))) · d i`.
  Both sides then pass through the same leaky rectifier.
-/
import proofs.«141990_j36206574305751_2_alg».proof.Proof.RefRead
import proofs.«141990_j36206574305751_2_alg».proof.Proof.RefFinite
import proofs.«141990_j36206574305751_2_alg».proof.Proof.Alg

noncomputable section

namespace Cert.RefBridge

open Idealize.ShloMosaic Idealize.ShloMosaic.ValueIdx Cert.ReferenceIdeal Cert.ReferenceIdeal.Read Cert.Alg

/-- Four block contributions gathered from zero are their sum. -/
theorem upTo_four (m : Fin 4 → EReal) : Cert.GcnSpec.upTo m 4 = ∑ t : Fin 4, m t := by
  simp [Cert.GcnSpec.upTo, Fin.sum_univ_four]

/-- The clamped sigmoid of a real is a real at least the clamp. -/
theorem sg_real (a : EReal) (ha : IsReal a) :
    ∃ r : ℝ, (13421773 / 134217728 : ℝ) ≤ r ∧ Cert.GcnSpec.sg a = (r : EReal) := by
  obtain ⟨x, rfl⟩ := ha
  refine ⟨max ((1 + Real.exp (-x))⁻¹) (13421773 / 134217728), le_max_right _ _, ?_⟩
  rw [Cert.GcnSpec.sg, Ideal.logistic_coe, Cert.RefConsts.clampLo_eq]
  exact (EReal.coe_strictMono.monotone.map_max).symm

/-- A row of reals has a positive real sum of clamped sigmoids. -/
theorem rowsum (A : Fin 8192 → EReal) (hA : ∀ k, IsReal (A k)) :
    ∃ σ : ℝ, 0 < σ ∧ ∑ k, Cert.GcnSpec.sg (A k) = (σ : EReal) :=
  sum_pos_real (fun k => Cert.GcnSpec.sg (A k)) _ (by norm_num) (fun k => sg_real _ (hA k))

/-- For a row of reals, the formula's reciprocal square root of the blockwise row sum and the reference's power
    `-1/2` of the row sum from zero are one real number. -/
theorem dinv_eq (A : Fin 8192 → Fin 8192 → EReal) (i : Fin 8192) (hA : ∀ k, IsReal (A i k)) :
    ∃ d : ℝ, Cert.GcnSpec.dinv A i = (d : EReal)
      ∧ Ideal.pow (0 + ∑ k : Fin 8192, Cert.GcnSpec.sg (A i k)) (Ideal.ofBits .f32 0xBF000000#32) = (d : EReal) := by
  obtain ⟨σ, hσ, e⟩ := rowsum (A i) hA
  have e' : Cert.GcnSpec.upTo (Cert.GcnSpec.rowPart A i) 4 = (σ : EReal) := by
    rw [upTo_four, ← e]
    exact sum_cols Cert.GcnSpec.col (fun _ _ => rfl) (fun k => Cert.GcnSpec.sg (A i k))
  refine ⟨(Real.sqrt σ)⁻¹, ?_, ?_⟩
  · rw [Cert.GcnSpec.dinv, e', Ideal.rsqrt_coe, if_neg (not_lt.2 hσ.le), if_neg hσ.ne']
  · rw [e, zero_add, Cert.RefConsts.ofBits_neg_half, Ideal.pow_coe_coe, inv_sqrt_eq_rpow hσ]
    rfl

variable [Cert.ReferenceIdeal.Facts] [Cert.Pre_finite_inputs.Facts]

/-- The reference's clamped sigmoid at `(i, k)` is the formula's. -/
theorem ref_sig (x1 : (⟨S8192x8192, .f32⟩ : BufTy).Contents (Elt Ideal)) (i k : Fin 8192) :
    val_main_v7 (F := Ideal) x1 (ix2 i k) = Cert.GcnSpec.sg (x1 (ix2 i k)) :=
  Cert.RefRead.sig_at x1 i k

set_option maxHeartbeats 400000 in
/-- Under the precondition the reference's result at `(i, n)` is the formula's. -/
theorem ref_out
    (x0 : (⟨S8192x200, .f32⟩ : BufTy).Contents (Elt Ideal)) (x1 : (⟨S8192x8192, .f32⟩ : BufTy).Contents (Elt Ideal))
    (x2 : (⟨S200x128, .f32⟩ : BufTy).Contents (Elt Ideal)) (x3 : (⟨S128, .f32⟩ : BufTy).Contents (Elt Ideal))
    (hfin : Cert.Pre_finite_inputs.fn (F := Ideal) x0 x1 x2 x3 = fun _ => 1#1)
    (i : Fin 8192) (n : Fin 128) :
    val_main_v26 (F := Ideal) x0 x1 x2 x3 (ix2 i n)
      = Cert.GcnSpec.out (fun i k => x1 (ix2 i k)) (fun k l => x0 (ix2 k l)) (fun l n => x2 (ix2 l n)) (fun n => x3 (ix1 n)) i n := by
  obtain ⟨h0, h1, h2, h3⟩ := Cert.RefFinite.finite_all x0 x1 x2 x3 hfin
  rw [Cert.RefRead.out_at, Cert.RefRead.v21_at]
  unfold Cert.GcnSpec.out
  refine congrArg Cert.GcnSpec.leaky ?_
  have hA : ∀ i k : Fin 8192, IsReal (x1 (ix2 i k)) := fun i k => h1 _
  have hd : ∀ k : Fin 8192, ∃ d : ℝ, Cert.GcnSpec.dinv (fun i k => x1 (ix2 i k)) k = (d : EReal)
      ∧ val_main_v10 (F := Ideal) x1 (ix1 k) = (d : EReal) := fun k => by
    rw [Cert.RefRead.pw_at]; exact dinv_eq (fun i k => x1 (ix2 i k)) k (hA k)
  have hp : ∀ k : Fin 8192, val_main_v10 (F := Ideal) x1 (ix1 k) = Cert.GcnSpec.dinv (fun i k => x1 (ix2 i k)) k := fun k => by
    obtain ⟨d, e1, e2⟩ := hd k; rw [e1, e2]
  simp only [hp]
  rw [Cert.GcnSpec.pre, upTo_four]
  exact agg_eq Cert.GcnSpec.col (fun _ _ => rfl) (fun k => Cert.GcnSpec.sg (x1 (ix2 i k)))
    (fun k => Cert.GcnSpec.hw (fun k l => x0 (ix2 k l)) (fun l n => x2 (ix2 l n)) (fun n => x3 (ix1 n)) k n)
    (fun k => Cert.GcnSpec.dinv (fun i k => x1 (ix2 i k)) k) (Cert.GcnSpec.dinv (fun i k => x1 (ix2 i k)) i)
    (fun k => by obtain ⟨r, _, e⟩ := sg_real _ (hA i k); exact ⟨r, e⟩)
    (fun k => IsReal.add (IsReal.sum _ fun l => IsReal.mul (h0 _) (h2 _)) (h3 _))
    (fun k => by obtain ⟨d, e1, _⟩ := hd k; exact ⟨d, e1⟩)
    (by obtain ⟨d, e1, _⟩ := hd i; exact ⟨d, e1⟩)

end Cert.RefBridge

end
-- ==== Proof.Claims.lean ====
/-
  The five claims. The three frames are the runs of the three programs with everything but the argument arrays
  dropped: the kernel's two programs run as three tiled computations chained through @main, the reference as its
  straight line of host operations. Nothing was rewritten on the way to the idealized kernel, so it is the kernel's
  own text read over the extended reals. And over the extended reals, from memories that agree on the four
  arguments, the idealized kernel and the idealized reference end with the same two results: the clamped sigmoid
  of the adjacency entries, entry by entry, and the rectified aggregate — the kernel forms
  `(Σ_k s_ik · (hw_kn · d_k)) · d_i` block by block where the reference forms `Σ_k ((s_ik · d_i) · d_k) · hw_kn`,
  one number once every argument entry is finite, since then every factor is a real and every row sum is positive.
-/
import proofs.«141990_j36206574305751_2_alg».proof.Defs
import proofs.«141990_j36206574305751_2_alg».proof.Proof.K_Run
import proofs.«141990_j36206574305751_2_alg».proof.Proof.KI_Run
import proofs.«141990_j36206574305751_2_alg».proof.Proof.KI_Value
import proofs.«141990_j36206574305751_2_alg».proof.Proof.RefBridge
import proofs.«141990_j36206574305751_2_alg».proof.Proof.Gen.ReferenceIdeal.Run
import proofs.«141990_j36206574305751_2_alg».proof.Proof.Gen.ReferenceIdeal.Read
import proofs.«141990_j36206574305751_2_alg».proof.Proof.Gen.Pre_finite_inputs

noncomputable section

namespace Cert.Proof.Claims

open Idealize.ShloMosaic Idealize.ShloMosaic.TcCoe Idealize.SL.Sem Idealize.ShloMosaic.ValueIdx

/-- The word-level kernel runs to the end, faults nowhere, and leaves its arguments as launched. -/
theorem frame_k : Cert.frame_Kernel := fun m ρ _ => Cert.Kernel.Run.frame m ρ

/-- So does the kernel read over the extended reals. -/
theorem frame_ki : Cert.frame_KernelIdeal := fun m ρ _ => Cert.KernelIdeal.Run.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: nothing to restate. -/
theorem preserves : Cert.preserves_Kernel_KernelIdeal := trivial

open Cert.KernelIdeal Cert.KernelIdeal.Run in
/-- Both idealized programs end with the same two result arrays. -/
theorem algebraic : Cert.algebraic_KernelIdeal_ReferenceIdeal := by
  intro m ρ m' ρ' hpre hagree
  refine ⟨fun c => W4 m ρ c (Proc.devRef .tc main_v3), fun c => W4 m ρ c (Proc.devRef .tc main_v0_0), ?_, ?_⟩
  · exact (θ_run Cert.KernelIdeal.defs _ _).mono (fun _ h c =>
      ⟨h c _ (mem_uc main_v3 (by decide)), h c _ (mem_uc main_v0_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩) (run_all m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v26_eq, (hagree c).1, (hagree c).2.1, (hagree c).2.2.1, (hagree c).2.2.2]
      funext j
      obtain ⟨i, n, rfl⟩ : ∃ (i : Fin 8192) (n : Fin 128), j = ix2 i n := ⟨j 0, j 1, eq_ix2 j⟩
      exact (Cert.RefBridge.ref_out _ _ _ _ (hpre c) i n).trans (out_value m ρ c i n).symm
    · rw [Cert.ReferenceIdeal.Read.val_main_v7_eq, (hagree c).2.1]
      funext j
      obtain ⟨i, k, rfl⟩ : ∃ (i : Fin 8192) (k : Fin 8192), j = ix2 i k := ⟨j 0, j 1, eq_ix2 j⟩
      exact (Cert.RefBridge.ref_sig _ i k).trans (sig_value m ρ c i k).symm

end Cert.Proof.Claims

end
-- ==== Proof.lean ====
/-
  The certificate's claim: a graph-convolution layer computed by three tiled computations — the clamped sigmoid of
  the adjacency matrix with its row sums' reciprocal square roots, the scaled linear map of the features, and the
  aggregation through the leaky rectifier — against its reference, which normalises the whole adjacency matrix first.
  The witnesses of the programs' stated side conditions come first; the five claims are in Proof/Claims.lean.
-/
import proofs.«141990_j36206574305751_2_alg».proof.Defs
import proofs.«141990_j36206574305751_2_alg».proof.Proof.Gen.Kernel
import proofs.«141990_j36206574305751_2_alg».proof.Proof.Gen.KernelIdeal
import proofs.«141990_j36206574305751_2_alg».proof.Proof.Gen.ReferenceIdeal
import proofs.«141990_j36206574305751_2_alg».proof.Proof.Gen.Pre_finite_inputs
import proofs.«141990_j36206574305751_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
